-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S64x128 : Shape := ⟨2, ![64, 128]⟩
abbrev S64 : Shape := ⟨1, ![64]⟩
abbrev S64x64 : Shape := ⟨2, ![64, 64]⟩
abbrev S64x192 : Shape := ⟨2, ![64, 192]⟩
abbrev S2x64 : Shape := ⟨2, ![2, 64]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x192 : S_.BroadcastsInDim S64x192 (![] : Fin 0 → Fin S64x192.rank)
  reducesTo_S64x192_S_d0_1 : S64x192.ReducesTo [0, 1] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S2x64 .f32) (main_arg14 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S2x64 .f32 := Host.absf main_arg13
  let main_cst_20 : FVec F S_ .f32 := constant S_ .f32 0x7F800000#32
  let main_v55 : FVec F S2x64 .f32 := broadcastInDim S2x64 ![] bcast_S_S2x64 main_cst_20
  let main_v56 : IVec S2x64 1 := cmpf .olt main_v54 main_v55
  let main_c_21 : IVec S_ 1 := constantI S_ 1 1#1
  let main_v57 : IVec S_ 1 := (fun x v => Host.reduce IntOp.andi x v reducesTo_S2x64_S_d0_1 h_S_) main_v56 main_c_21
  let main_v58 : IVec S_ 1 := andi main_v53 main_v57
  let main_v59 : FVec F S2 .f32 := Host.absf main_arg14
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg9 : FVec F S64x192 .f32) (main_arg10 : FVec F S64 .f32) (main_arg11 : FVec F S64x64 .f32) (main_arg12 : FVec F S64 .f32) (main_arg13 : FVec F S2x64 .f32) (main_arg14 : FVec F S2 .f32) (main_v33 : IVec S_ 1) : IVec S_ 1 :=
  let main_v34 : FVec F S64x192 .f32 := Host.absf main_arg9
  let main_cst_12 : FVec F S_ .f32 := constant S_ .f32 0x7F800000#32
  let main_v35 : FVec F S64x192 .f32 := broadcastInDim S64x192 ![] bcast_S_S64x192 main_cst_12
  let main_v36 : IVec S64x192 1 := cmpf .olt main_v34 main_v35
  let main_c_13 : IVec S_ 1 := constantI S_ 1 1#1
  let main_v37 : IVec S_ 1 := (fun x v => Host.reduce IntOp.andi x v reducesTo_S64x192_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S64 .f32) (main_arg7 : FVec F S64x192 .f32) (main_arg8 : FVec F S64 .f32) (main_arg9 : FVec F S64x192 .f32) (main_arg10 : FVec F S64 .f32) (main_arg11 : FVec F S64x64 .f32) (main_arg12 : FVec F S64 .f32) (main_arg13 : FVec F S2x64 .f32) (main_arg14 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x192 .f32 := Host.absf main_arg7
  let main_cst_8 : FVec F S_ .f32 := constant S_ .f32 0x7F800000#32
  let main_v25 : FVec F S64x192 .f32 := broadcastInDim S64x192 ![] bcast_S_S64x192 main_cst_8
  let main_v26 : IVec S64x192 1 := cmpf .olt main_v24 main_v25
  let main_c_9 : IVec S_ 1 := constantI S_ 1 1#1
  let main_v27 : IVec S_ 1 := (fun x v => Host.reduce IntOp.andi x v reducesTo_S64x192_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S800000 32) (main_arg2 : IVec S800000 32) (main_arg3 : FVec F S64x128 .f32) (main_arg4 : FVec F S64 .f32) (main_arg5 : FVec F S64x64 .f32) (main_arg6 : FVec F S64 .f32) (main_arg7 : FVec F S64x192 .f32) (main_arg8 : FVec F S64 .f32) (main_arg9 : FVec F S64x192 .f32) (main_arg10 : FVec F S64 .f32) (main_arg11 : FVec F S64x64 .f32) (main_arg12 : FVec F S64 .f32) (main_arg13 : FVec F S2x64 .f32) (main_arg14 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S800000 : Shape := ⟨1, ![800000]⟩
abbrev S64x128 : Shape := ⟨2, ![64, 128]⟩
abbrev S64 : Shape := ⟨1, ![64]⟩
abbrev S64x64 : Shape := ⟨2, ![64, 64]⟩
abbrev S64x192 : Shape := ⟨2, ![64, 192]⟩
abbrev S2x64 : Shape := ⟨2, ![2, 64]⟩
abbrev S2 : Shape := ⟨1, ![2]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S128x64 : Shape := ⟨2, ![128, 64]⟩
abbrev S800000x64 : Shape := ⟨2, ![800000, 64]⟩
abbrev S50000x192 : Shape := ⟨2, ![50000, 192]⟩
abbrev S5000x192 : Shape := ⟨2, ![5000, 192]⟩
abbrev S192x64 : Shape := ⟨2, ![192, 64]⟩
abbrev S1x2 : Shape := ⟨2, ![1, 2]⟩
abbrev S50000x2 : Shape := ⟨2, ![50000, 2]⟩
abbrev S5000x2 : Shape := ⟨2, ![5000, 2]⟩
abbrev S64x2 : Shape := ⟨2, ![64, 2]⟩

abbrev nBuf : Space → Nat
  | .hbm => 140
  | .vmem => 36
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S64x128, .f32⟩
  | 4 => ⟨S64, .f32⟩
  | 5 => ⟨S64x64, .f32⟩
  | 6 => ⟨S64, .f32⟩
  | 7 => ⟨S64x192, .f32⟩
  | 8 => ⟨S64, .f32⟩
  | 9 => ⟨S64x192, .f32⟩
  | 10 => ⟨S64, .f32⟩
  | 11 => ⟨S64x64, .f32⟩
  | 12 => ⟨S64, .f32⟩
  | 13 => ⟨S2x64, .f32⟩
  | 14 => ⟨S2, .f32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S_, .f32⟩
  | 25 => ⟨S50000, .f32⟩
  | 26 => ⟨S50000, .f32⟩
  | 27 => ⟨S50000x1, .f32⟩
  | 28 => ⟨S1x64, .f32⟩
  | 29 => ⟨S50000x64, .f32⟩
  | 30 => ⟨S1x64, .f32⟩
  | 31 => ⟨S50000x64, .f32⟩
  | 32 => ⟨S50000x64, .f32⟩
  | 33 => ⟨S50000x64, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x64, .f32⟩
  | 43 => ⟨S_, .f32⟩
  | 44 => ⟨S50000x64, .f32⟩
  | 45 => ⟨S800000x1, .i32⟩
  | 46 => ⟨S50000x64, .f32⟩
  | 47 => ⟨S50000x64, .f32⟩
  | 48 => ⟨S50000x64, .f32⟩
  | 49 => ⟨S_, .f32⟩
  | 50 => ⟨S50000x64, .f32⟩
  | 51 => ⟨S50000x64, .f32⟩
  | 52 => ⟨S_, .f32⟩
  | 53 => ⟨S50000x64, .f32⟩
  | 54 => ⟨S50000x64, .f32⟩
  | 55 => ⟨S50000x64, .f32⟩
  | 56 => ⟨S50000x64, .f32⟩
  | 57 => ⟨S50000x64, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x64, .f32⟩
  | 67 => ⟨S_, .f32⟩
  | 68 => ⟨S50000x64, .f32⟩
  | 69 => ⟨S800000x1, .i32⟩
  | 70 => ⟨S50000x64, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S_, .f32⟩
  | 77 => ⟨S50000x64, .f32⟩
  | 78 => ⟨S50000x64, .f32⟩
  | 79 => ⟨S50000x64, .f32⟩
  | 80 => ⟨S50000x64, .f32⟩
  | 81 => ⟨S50000x192, .f32⟩
  | 82 => ⟨S1x64, .f32⟩
  | 83 => ⟨S50000x64, .f32⟩
  | 84 => ⟨S50000x64, .f32⟩
  | 85 => ⟨S50000x64, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x64, .f32⟩
  | 95 => ⟨S_, .f32⟩
  | 96 => ⟨S50000x64, .f32⟩
  | 97 => ⟨S800000x1, .i32⟩
  | 98 => ⟨S50000x64, .f32⟩
  | 99 => ⟨S50000x64, .f32⟩
  | 100 => ⟨S50000x64, .f32⟩
  | 101 => ⟨S_, .f32⟩
  | 102 => ⟨S50000x64, .f32⟩
  | 103 => ⟨S50000x64, .f32⟩
  | 104 => ⟨S_, .f32⟩
  | 105 => ⟨S50000x64, .f32⟩
  | 106 => ⟨S50000x64, .f32⟩
  | 107 => ⟨S50000x64, .f32⟩
  | 108 => ⟨S50000x64, .f32⟩
  | 109 => ⟨S50000x64, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x64, .f32⟩
  | 119 => ⟨S_, .f32⟩
  | 120 => ⟨S50000x64, .f32⟩
  | 121 => ⟨S800000x1, .i32⟩
  | 122 => ⟨S50000x64, .f32⟩
  | 123 => ⟨S50000x64, .f32⟩
  | 124 => ⟨S50000x64, .f32⟩
  | 125 => ⟨S_, .f32⟩
  | 126 => ⟨S50000x64, .f32⟩
  | 127 => ⟨S50000x64, .f32⟩
  | _ => ⟨S50000x128, .f32⟩

abbrev hbmTy0_1 (i : Nat) : BufTy := match i % 128 with
  | 0 => ⟨S_, .f32⟩
  | 1 => ⟨S50000x64, .f32⟩
  | 2 => ⟨S50000x64, .f32⟩
  | 3 => ⟨S50000x64, .f32⟩
  | 4 => ⟨S50000x64, .f32⟩
  | 5 => ⟨S50000x192, .f32⟩
  | 6 => ⟨S1x64, .f32⟩
  | 7 => ⟨S50000x64, .f32⟩
  | 8 => ⟨S1x64, .f32⟩
  | 9 => ⟨S50000x64, .f32⟩
  | 10 => ⟨S1x2, .f32⟩
  | 11 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S64x128, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x192, .f32⟩
  | .local _ .vmem, ⟨13, _⟩ => ⟨S5000x192, .f32⟩
  | .local _ .vmem, ⟨14, _⟩ => ⟨S64x192, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x192, .f32⟩
  | .local _ .vmem, ⟨19, _⟩ => ⟨S5000x192, .f32⟩
  | .local _ .vmem, ⟨20, _⟩ => ⟨S64x192, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S2x64, .f32⟩
  | .local _ .vmem, ⟨33, _⟩ => ⟨S1x2, .f32⟩
  | .local _ .vmem, ⟨34, _⟩ => ⟨S5000x2, .f32⟩
  | .local _ .vmem, ⟨35, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_cst_2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_5 : Ref sig .tc := ⟨.hbm, 49, rfl⟩
abbrev main_v27 : Ref sig .tc := ⟨.hbm, 50, rfl⟩
abbrev main_v28 : Ref sig .tc := ⟨.hbm, 51, rfl⟩
abbrev main_cst_6 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_c_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_9 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_10 : Ref sig .tc := ⟨.hbm, 73, rfl⟩
abbrev main_v46 : Ref sig .tc := ⟨.hbm, 74, rfl⟩
abbrev main_v47 : Ref sig .tc := ⟨.hbm, 75, rfl⟩
abbrev main_cst_11 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_12 : Ref sig .tc := ⟨.hbm, 86, rfl⟩
abbrev main_v57 : Ref sig .tc := ⟨.hbm, 87, rfl⟩
abbrev main_v58 : Ref sig .tc := ⟨.hbm, 88, rfl⟩
abbrev main_c_13 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_14 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_15 : Ref sig .tc := ⟨.hbm, 101, rfl⟩
abbrev main_v69 : Ref sig .tc := ⟨.hbm, 102, rfl⟩
abbrev main_v70 : Ref sig .tc := ⟨.hbm, 103, rfl⟩
abbrev main_cst_16 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_17 : Ref sig .tc := ⟨.hbm, 110, rfl⟩
abbrev main_v76 : Ref sig .tc := ⟨.hbm, 111, rfl⟩
abbrev main_v77 : Ref sig .tc := ⟨.hbm, 112, rfl⟩
abbrev main_c_18 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_19 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_20 : Ref sig .tc := ⟨.hbm, 125, rfl⟩
abbrev main_v88 : Ref sig .tc := ⟨.hbm, 126, rfl⟩
abbrev main_v89 : Ref sig .tc := ⟨.hbm, 127, rfl⟩
abbrev main_cst_21 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x192 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x2 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x2 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  concatenates_S50000x64_S50000x64_S50000x64_S50000x192_d1 : Shape.Concatenates [S50000x64, S50000x64, S50000x64] S50000x192 1
  inb_S5000x192_S5000x192_0_0 : ∀ a, (![0, 0] : Fin 2 → Nat) a + S5000x192.size a ≤ S5000x192.size a
  h_S5000x192 : 0 < S5000x192.numel
  shapeCasts_S5000x192_S5000x192 : S5000x192.ShapeCasts S5000x192
  inb_S64x192_S64x192_0_0 : ∀ a, (![0, 0] : Fin 2 → Nat) a + S64x192.size a ≤ S64x192.size a
  h_S64x192 : 0 < S64x192.numel
  transposes_S64x192_p1_0_S192x64 : S64x192.Transposes [1, 0] S192x64
  shapeCasts_S2_S1x2 : S2.ShapeCasts S1x2
  inb_S2x64_S2x64_0_0 : ∀ a, (![0, 0] : Fin 2 → Nat) a + S2x64.size a ≤ S2x64.size a
  h_S2x64 : 0 < S2x64.numel
  transposes_S2x64_p1_0_S64x2 : S2x64.Transposes [1, 0] S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S50000_S800000x1_S800000_n_0_0_1_wf : ScatterDims.WF S50000 S800000x1 S800000 [] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x192_S192x64_S5000x64_1_0_0_1_n_n_wf : DotDims.WF S5000x192 S192x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x192.size a ≤ S50000x192.size a
  hwx2_0 : ∀ i : grid2.Coords, EltTy.bits .f32 = 32 ∨ (Rect.block (s := S50000x192) S5000x192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x192.size a ≤ S64x192.size a
  hwx2_1 : ∀ i : grid2.Coords, EltTy.bits .f32 = 32 ∨ (Rect.block (s := S64x192) S64x192.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x192.size a ≤ S50000x192.size a
  hwx3_0 : ∀ i : grid3.Coords, EltTy.bits .f32 = 32 ∨ (Rect.block (s := S50000x192) S5000x192.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x192.size a ≤ S64x192.size a
  hwx3_1 : ∀ i : grid3.Coords, EltTy.bits .f32 = 32 ∨ (Rect.block (s := S64x192) S64x192.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S2x64.size a ≤ S2x64.size a
  hwx5_1 : ∀ i : grid5.Coords, EltTy.bits .f32 = 32 ∨ (Rect.block (s := S2x64) S2x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x2.size a ≤ S1x2.size a
  hwx5_2 : ∀ i : grid5.Coords, EltTy.bits .f32 = 32 ∨ (Rect.block (s := S1x2) S1x2.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x2.size a ≤ S50000x2.size a
  hwx5_3 : ∀ i : grid5.Coords, EltTy.bits .f32 = 32 ∨ (Rect.block (s := S50000x2) S5000x2.size (cc5_transform_3 i) (hinb5_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x192_S192x64_S5000x64_1_0_0_1_n_n : DotDims S5000x192 S192x64 S5000x64 where
  lhsContracting := [1]
  rhsContracting := [0]
  lhsNonContracting := [0]
  rhsNonContracting := [1]
  lhsBatch := []
  rhsBatch := []
  wf := dot_S5000x192_S192x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v52) S5000x192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x192.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v94) S5000x192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S64x192.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v95) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v96) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v96) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v97) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v98) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v98) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg13) S2x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v99) S1x2.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v100) S5000x2.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x128 : Shape := ⟨2, ![50000, 128]⟩
abbrev S800000 : Shape := ⟨1, ![800000]⟩
abbrev S64x128 : Shape := ⟨2, ![64, 128]⟩
abbrev S64 : Shape := ⟨1, ![64]⟩
abbrev S64x64 : Shape := ⟨2, ![64, 64]⟩
abbrev S64x192 : Shape := ⟨2, ![64, 192]⟩
abbrev S2x64 : Shape := ⟨2, ![2, 64]⟩
abbrev S2 : Shape := ⟨1, ![2]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S128x64 : Shape := ⟨2, ![128, 64]⟩
abbrev S50000x64 : Shape := ⟨2, ![50000, 64]⟩
abbrev S1x64 : Shape := ⟨2, ![1, 64]⟩
abbrev S800000x64 : Shape := ⟨2, ![800000, 64]⟩
abbrev S50000x192 : Shape := ⟨2, ![50000, 192]⟩
abbrev S192x64 : Shape := ⟨2, ![192, 64]⟩
abbrev S64x2 : Shape := ⟨2, ![64, 2]⟩
abbrev S50000x2 : Shape := ⟨2, ![50000, 2]⟩
abbrev S1x2 : Shape := ⟨2, ![1, 2]⟩

abbrev nBuf : Space → Nat
  | .hbm => 173
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S64x128, .f32⟩
  | 4 => ⟨S64, .f32⟩
  | 5 => ⟨S64x64, .f32⟩
  | 6 => ⟨S64, .f32⟩
  | 7 => ⟨S64x192, .f32⟩
  | 8 => ⟨S64, .f32⟩
  | 9 => ⟨S64x192, .f32⟩
  | 10 => ⟨S64, .f32⟩
  | 11 => ⟨S64x64, .f32⟩
  | 12 => ⟨S64, .f32⟩
  | 13 => ⟨S2x64, .f32⟩
  | 14 => ⟨S2, .f32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S_, .f32⟩
  | 25 => ⟨S50000, .f32⟩
  | 26 => ⟨S50000, .f32⟩
  | 27 => ⟨S50000x1, .f32⟩
  | 28 => ⟨S128x64, .f32⟩
  | 29 => ⟨S50000x64, .f32⟩
  | 30 => ⟨S1x64, .f32⟩
  | 31 => ⟨S50000x64, .f32⟩
  | 32 => ⟨S50000x64, .f32⟩
  | 33 => ⟨S_, .f32⟩
  | 34 => ⟨S50000x64, .f32⟩
  | 35 => ⟨S50000x64, .f32⟩
  | 36 => ⟨S64x64, .f32⟩
  | 37 => ⟨S50000x64, .f32⟩
  | 38 => ⟨S1x64, .f32⟩
  | 39 => ⟨S50000x64, .f32⟩
  | 40 => ⟨S50000x64, .f32⟩
  | 41 => ⟨S_, .f32⟩
  | 42 => ⟨S50000x64, .f32⟩
  | 43 => ⟨S50000x64, .f32⟩
  | 44 => ⟨S50000x64, .f32⟩
  | 45 => ⟨S50000x64, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x64, .f32⟩
  | 55 => ⟨S_, .f32⟩
  | 56 => ⟨S50000x64, .f32⟩
  | 57 => ⟨S800000x1, .i32⟩
  | 58 => ⟨S50000x64, .f32⟩
  | 59 => ⟨S50000x64, .f32⟩
  | 60 => ⟨S50000x64, .f32⟩
  | 61 => ⟨S_, .f32⟩
  | 62 => ⟨S50000x64, .f32⟩
  | 63 => ⟨S50000x64, .f32⟩
  | 64 => ⟨S_, .f32⟩
  | 65 => ⟨S50000x64, .f32⟩
  | 66 => ⟨S50000x64, .f32⟩
  | 67 => ⟨S50000x64, .f32⟩
  | 68 => ⟨S50000x64, .f32⟩
  | 69 => ⟨S50000x64, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x64, .f32⟩
  | 79 => ⟨S_, .f32⟩
  | 80 => ⟨S50000x64, .f32⟩
  | 81 => ⟨S800000x1, .i32⟩
  | 82 => ⟨S50000x64, .f32⟩
  | 83 => ⟨S50000x64, .f32⟩
  | 84 => ⟨S50000x64, .f32⟩
  | 85 => ⟨S_, .f32⟩
  | 86 => ⟨S50000x64, .f32⟩
  | 87 => ⟨S50000x64, .f32⟩
  | 88 => ⟨S_, .f32⟩
  | 89 => ⟨S50000x64, .f32⟩
  | 90 => ⟨S50000x64, .f32⟩
  | 91 => ⟨S50000x64, .f32⟩
  | 92 => ⟨S50000x64, .f32⟩
  | 93 => ⟨S50000x192, .f32⟩
  | 94 => ⟨S192x64, .f32⟩
  | 95 => ⟨S50000x64, .f32⟩
  | 96 => ⟨S1x64, .f32⟩
  | 97 => ⟨S50000x64, .f32⟩
  | 98 => ⟨S50000x64, .f32⟩
  | 99 => ⟨S_, .f32⟩
  | 100 => ⟨S50000x64, .f32⟩
  | 101 => ⟨S50000x64, .f32⟩
  | 102 => ⟨S50000x64, .f32⟩
  | 103 => ⟨S50000x64, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x64, .f32⟩
  | 113 => ⟨S_, .f32⟩
  | 114 => ⟨S50000x64, .f32⟩
  | 115 => ⟨S800000x1, .i32⟩
  | 116 => ⟨S50000x64, .f32⟩
  | 117 => ⟨S50000x64, .f32⟩
  | 118 => ⟨S50000x64, .f32⟩
  | 119 => ⟨S_, .f32⟩
  | 120 => ⟨S50000x64, .f32⟩
  | 121 => ⟨S50000x64, .f32⟩
  | 122 => ⟨S_, .f32⟩
  | 123 => ⟨S50000x64, .f32⟩
  | 124 => ⟨S50000x64, .f32⟩
  | 125 => ⟨S50000x64, .f32⟩
  | 126 => ⟨S50000x64, .f32⟩
  | 127 => ⟨S50000x64, .f32⟩
  | _ => ⟨S50000x128, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x64, .f32⟩
  | 9 => ⟨S_, .f32⟩
  | 10 => ⟨S50000x64, .f32⟩
  | 11 => ⟨S800000x1, .i32⟩
  | 12 => ⟨S50000x64, .f32⟩
  | 13 => ⟨S50000x64, .f32⟩
  | 14 => ⟨S50000x64, .f32⟩
  | 15 => ⟨S_, .f32⟩
  | 16 => ⟨S50000x64, .f32⟩
  | 17 => ⟨S50000x64, .f32⟩
  | 18 => ⟨S_, .f32⟩
  | 19 => ⟨S50000x64, .f32⟩
  | 20 => ⟨S50000x64, .f32⟩
  | 21 => ⟨S50000x64, .f32⟩
  | 22 => ⟨S50000x64, .f32⟩
  | 23 => ⟨S50000x192, .f32⟩
  | 24 => ⟨S192x64, .f32⟩
  | 25 => ⟨S50000x64, .f32⟩
  | 26 => ⟨S1x64, .f32⟩
  | 27 => ⟨S50000x64, .f32⟩
  | 28 => ⟨S50000x64, .f32⟩
  | 29 => ⟨S_, .f32⟩
  | 30 => ⟨S50000x64, .f32⟩
  | 31 => ⟨S50000x64, .f32⟩
  | 32 => ⟨S64x64, .f32⟩
  | 33 => ⟨S50000x64, .f32⟩
  | 34 => ⟨S1x64, .f32⟩
  | 35 => ⟨S50000x64, .f32⟩
  | 36 => ⟨S50000x64, .f32⟩
  | 37 => ⟨S_, .f32⟩
  | 38 => ⟨S50000x64, .f32⟩
  | 39 => ⟨S50000x64, .f32⟩
  | 40 => ⟨S64x2, .f32⟩
  | 41 => ⟨S50000x2, .f32⟩
  | 42 => ⟨S1x2, .f32⟩
  | 43 => ⟨S50000x2, .f32⟩
  | 44 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_cst_2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call0_cst : Ref sig .tc := ⟨.hbm, 33, rfl⟩
abbrev main_call0_v0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_call1_cst : Ref sig .tc := ⟨.hbm, 41, rfl⟩
abbrev main_call1_v0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c : Ref sig .tc := ⟨.hbm, 46, rfl⟩
abbrev main_v23 : Ref sig .tc := ⟨.hbm, 47, rfl⟩
abbrev main_v24 : Ref sig .tc := ⟨.hbm, 48, rfl⟩
abbrev main_c_3 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_7 : Ref sig .tc := ⟨.hbm, 70, rfl⟩
abbrev main_v42 : Ref sig .tc := ⟨.hbm, 71, rfl⟩
abbrev main_v43 : Ref sig .tc := ⟨.hbm, 72, rfl⟩
abbrev main_c_8 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_10 : Ref sig .tc := ⟨.hbm, 85, rfl⟩
abbrev main_v54 : Ref sig .tc := ⟨.hbm, 86, rfl⟩
abbrev main_v55 : Ref sig .tc := ⟨.hbm, 87, rfl⟩
abbrev main_cst_11 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_call2_cst : Ref sig .tc := ⟨.hbm, 99, rfl⟩
abbrev main_call2_v0 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_c_12 : Ref sig .tc := ⟨.hbm, 104, rfl⟩
abbrev main_v69 : Ref sig .tc := ⟨.hbm, 105, rfl⟩
abbrev main_v70 : Ref sig .tc := ⟨.hbm, 106, rfl⟩
abbrev main_c_13 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_14 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_15 : Ref sig .tc := ⟨.hbm, 119, rfl⟩
abbrev main_v81 : Ref sig .tc := ⟨.hbm, 120, rfl⟩
abbrev main_v82 : Ref sig .tc := ⟨.hbm, 121, rfl⟩
abbrev main_cst_16 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_c_17 : Ref sig .tc := ⟨.hbm, 128, rfl⟩
abbrev main_v88 : Ref sig .tc := ⟨.hbm, 129, rfl⟩
abbrev main_v89 : Ref sig .tc := ⟨.hbm, 130, rfl⟩
abbrev main_c_18 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_19 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_20 : Ref sig .tc := ⟨.hbm, 143, rfl⟩
abbrev main_v100 : Ref sig .tc := ⟨.hbm, 144, rfl⟩
abbrev main_v101 : Ref sig .tc := ⟨.hbm, 145, rfl⟩
abbrev main_cst_21 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_call3_cst : Ref sig .tc := ⟨.hbm, 157, rfl⟩
abbrev main_call3_v0 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_call4_cst : Ref sig .tc := ⟨.hbm, 165, rfl⟩
abbrev main_call4_v0 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  transposes_S64x64_S64x64_1_0 : S64x64.Transposes [1, 0] S64x64
  bcast_S50000x1_S50000x64_0_1 : S50000x1.BroadcastsInDim S50000x64 (![0, 1] : Fin 2 → Fin S50000x64.rank)
  concatenates_S50000x64_S50000x64_S50000x64_S50000x192_d1 : Shape.Concatenates [S50000x64, S50000x64, S50000x64] S50000x192 1
  transposes_S64x192_S192x64_1_0 : S64x192.Transposes [1, 0] S192x64
  transposes_S2x64_S64x2_1_0 : S2x64.Transposes [1, 0] S64x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x192_S192x64_S50000x64_1_0_0_1_n_n_wf : DotDims.WF S50000x192 S192x64 S50000x64 [1] [0] [0] [1] [] []
  dot_S50000x64_S64x2_S50000x2_1_0_0_1_n_n_wf : DotDims.WF S50000x64 S64x2 S50000x2 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x192_S192x64_S50000x64_1_0_0_1_n_n : DotDims S50000x192 S192x64 S50000x64 where
  lhsContracting := [1]
  rhsContracting := [0]
  lhsNonContracting := [0]
  rhsNonContracting := [1]
  lhsBatch := []
  rhsBatch := []
  wf := dot_S50000x192_S192x64_S50000x64_1_0_0_1_n_n_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf

class Facts : Prop extends Facts₀ where

variable [Facts]
-- ==== Proof.KbRegion0.lean ====
/-
  Region 0 of the program: one dense stage, run block by block over the rows.
  At every grid point the body reads a block of 5000x128 rows-by-features of the stage's input, the whole weight matrix
  and the whole bias row, and overwrites the point's block of the output with one value computed from those three
  (the output's own old contents are read once and never used).  Stated here, for any contents `V` of the buffers
  when the region is entered and at any float model: what each window's block is at a point, what the body leaves in
  the output block (the canonical reading of its one whole-block store), the body's triple, and the proof data and
  body obligation the pipeline library asks of a region.
-/
import proofs.«115876_j36043365548319_1_alg».proof.Proof.Gen.Kernel.Launch
import proofs.«115876_j36043365548319_1_alg».proof.Proof.Gen.Kernel.Skeleton
import proofs.«115876_j36043365548319_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the pipeline fetched it there or not
    (an unfetched point has the block index of the point before it), for any proof data whose array is `V`'s and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the pipeline fetched it there or not
    (an unfetched point has the block index of the point before it), for any proof data whose array is `V`'s and whose
    body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the pipeline fetched it there or not
    (an unfetched point has the block index of the point before it), for any proof data whose array is `V`'s and whose
    body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each of the four buffers whole -/

abbrev r0_x : Rect S5000x128 := Rect.unit (s := S5000x128) ![0, 0] S5000x128.size inb_S5000x128_S5000x128_0_0
abbrev r0_w : Rect S64x128 := Rect.unit (s := S64x128) ![0, 0] S64x128.size inb_S64x128_S64x128_0_0
abbrev r0_b : Rect S1x64 := Rect.unit (s := S1x64) ![0, 0] S1x64.size inb_S1x64_S1x64_0_0
abbrev r0_o : Rect S5000x64 := Rect.unit (s := S5000x64) ![0, 0] S5000x64.size inb_S5000x64_S5000x64_0_0

/-- What the body leaves in the output block, from the three input blocks: its one store, of the stage's value. -/
def out0_3 (x0 : Vec F S5000x128 .f32) (x1 : Vec F S64x128 .f32) (x2 : Vec F S1x64 .f32) : Vec F S5000x64 .f32 :=
  View.canon [⟨r0_o, k0_pay1 (View.ld x0 r0_x) (View.ld x1 r0_w) (View.ld x2 r0_b)⟩]

/-- The one store is of the whole block, so it covers it. -/
theorem cover0_3 (p0 : Vec F S5000x64 .f32) (y : S5000x64.Idx) :
    ∃ pc ∈ ([⟨r0_o, p0⟩] : List (View.Piece (Elt F) S5000x64 .f32)), y ∈ pc.1.set :=
  View.cover_of_tiled [⟨r0_o, p0⟩] S5000x64.size (by rfl) y

set_option maxHeartbeats 1000000 in
/-- The body on whole staging buffers, the inputs' at contents `x0 x1 x2` and the output's at anything, runs to the end
    leaving the inputs' as they were and the output's at `out0_3 x0 x1 x2`. -/
theorem sound_kernel0 (c : Dev nD) (E : Set ℕ) (i : grid0.Coords)
    (arg1 : Memref sig .tc .vmem S5000x128 .f32) (harg1 : arg1.IsWhole) (arg2 : Memref sig .tc .vmem S64x128 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x128 .f32) (x1 : Vec F S64x128 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the arrays as the region finds them; after the body at point `t` each input's
    buffer still at its block and the output's at `out0_3` of the three input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Stage

end
-- ==== Proof.KbRegion1.lean ====
/-
  Region 1 of the program: one dense stage, run block by block over the rows.
  At every grid point the body reads a block of 5000x64 rows-by-features of the stage's input, the whole weight matrix
  and the whole bias row, and overwrites the point's block of the output with one value computed from those three
  (the output's own old contents are read once and never used).  Stated here, for any contents `V` of the buffers
  when the region is entered and at any float model: what each window's block is at a point, what the body leaves in
  the output block (the canonical reading of its one whole-block store), the body's triple, and the proof data and
  body obligation the pipeline library asks of a region.
-/
import proofs.«115876_j36043365548319_1_alg».proof.Proof.Gen.Kernel.Launch
import proofs.«115876_j36043365548319_1_alg».proof.Proof.Gen.Kernel.Skeleton
import proofs.«115876_j36043365548319_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the pipeline fetched it there or not
    (an unfetched point has the block index of the point before it), for any proof data whose array is `V`'s and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the pipeline fetched it there or not
    (an unfetched point has the block index of the point before it), for any proof data whose array is `V`'s and whose
    body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the pipeline fetched it there or not
    (an unfetched point has the block index of the point before it), for any proof data whose array is `V`'s and whose
    body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each of the four buffers whole -/

abbrev r1_x : Rect S5000x64 := Rect.unit (s := S5000x64) ![0, 0] S5000x64.size inb_S5000x64_S5000x64_0_0
abbrev r1_w : Rect S64x64 := Rect.unit (s := S64x64) ![0, 0] S64x64.size inb_S64x64_S64x64_0_0
abbrev r1_b : Rect S1x64 := Rect.unit (s := S1x64) ![0, 0] S1x64.size inb_S1x64_S1x64_0_0
abbrev r1_o : Rect S5000x64 := Rect.unit (s := S5000x64) ![0, 0] S5000x64.size inb_S5000x64_S5000x64_0_0

/-- What the body leaves in the output block, from the three input blocks: its one store, of the stage's value. -/
def out1_3 (x0 : Vec F S5000x64 .f32) (x1 : Vec F S64x64 .f32) (x2 : Vec F S1x64 .f32) : Vec F S5000x64 .f32 :=
  View.canon [⟨r1_o, k1_pay1 (View.ld x0 r1_x) (View.ld x1 r1_w) (View.ld x2 r1_b)⟩]

/-- The one store is of the whole block, so it covers it. -/
theorem cover1_3 (p0 : Vec F S5000x64 .f32) (y : S5000x64.Idx) :
    ∃ pc ∈ ([⟨r1_o, p0⟩] : List (View.Piece (Elt F) S5000x64 .f32)), y ∈ pc.1.set :=
  View.cover_of_tiled [⟨r1_o, p0⟩] S5000x64.size (by rfl) y

set_option maxHeartbeats 1000000 in
/-- The body on whole staging buffers, the inputs' at contents `x0 x1 x2` and the output's at anything, runs to the end
    leaving the inputs' as they were and the output's at `out1_3 x0 x1 x2`. -/
theorem sound_kernel1 (c : Dev nD) (E : Set ℕ) (i : grid1.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__dense_kernel i arg1 harg1 arg2 harg2 arg3 harg3 arg4 harg4) K := by
  simp only [cc1__dense_kernel_eq_skeleton]; unfold cc1__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The region's proof data on core `c`: the arrays as the region finds them; after the body at point `t` each input's
    buffer still at its block and the output's at `out1_3` of the three input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Stage

end
-- ==== Proof.KbRegion2.lean ====
/-
  Region 2 of the program: one dense stage, run block by block over the rows.
  At every grid point the body reads a block of 5000x192 rows-by-features of the stage's input, the whole weight matrix
  and the whole bias row, and overwrites the point's block of the output with one value computed from those three
  (the output's own old contents are read once and never used).  Stated here, for any contents `V` of the buffers
  when the region is entered and at any float model: what each window's block is at a point, what the body leaves in
  the output block (the canonical reading of its one whole-block store), the body's triple, and the proof data and
  body obligation the pipeline library asks of a region.
-/
import proofs.«115876_j36043365548319_1_alg».proof.Proof.Gen.Kernel.Launch
import proofs.«115876_j36043365548319_1_alg».proof.Proof.Gen.Kernel.Skeleton
import proofs.«115876_j36043365548319_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the pipeline fetched it there or not
    (an unfetched point has the block index of the point before it), for any proof data whose array is `V`'s and whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether the pipeline fetched it there or not
    (an unfetched point has the block index of the point before it), for any proof data whose array is `V`'s and whose
    body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether the pipeline fetched it there or not
    (an unfetched point has the block index of the point before it), for any proof data whose array is `V`'s and whose
    body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each of the four buffers whole -/

abbrev r2_x : Rect S5000x192 := Rect.unit (s := S5000x192) ![0, 0] S5000x192.size inb_S5000x192_S5000x192_0_0
abbrev r2_w : Rect S64x192 := Rect.unit (s := S64x192) ![0, 0] S64x192.size inb_S64x192_S64x192_0_0
abbrev r2_b : Rect S1x64 := Rect.unit (s := S1x64) ![0, 0] S1x64.size inb_S1x64_S1x64_0_0
abbrev r2_o : Rect S5000x64 := Rect.unit (s := S5000x64) ![0, 0] S5000x64.size inb_S5000x64_S5000x64_0_0

/-- What the body leaves in the output block, from the three input blocks: its one store, of the stage's value. -/
def out2_3 (x0 : Vec F S5000x192 .f32) (x1 : Vec F S64x192 .f32) (x2 : Vec F S1x64 .f32) : Vec F S5000x64 .f32 :=
  View.canon [⟨r2_o, k2_pay1 (View.ld x0 r2_x) (View.ld x1 r2_w) (View.ld x2 r2_b)⟩]

/-- The one store is of the whole block, so it covers it. -/
theorem cover2_3 (p0 : Vec F S5000x64 .f32) (y : S5000x64.Idx) :
    ∃ pc ∈ ([⟨r2_o, p0⟩] : List (View.Piece (Elt F) S5000x64 .f32)), y ∈ pc.1.set :=
  View.cover_of_tiled [⟨r2_o, p0⟩] S5000x64.size (by rfl) y

set_option maxHeartbeats 1000000 in
/-- The body on whole staging buffers, the inputs' at contents `x0 x1 x2` and the output's at anything, runs to the end
    leaving the inputs' as they were and the output's at `out2_3 x0 x1 x2`. -/
theorem sound_kernel2 (c : Dev nD) (E : Set ℕ) (i : grid2.Coords)
    (arg1 : Memref sig .tc .vmem S5000x192 .f32) (harg1 : arg1.IsWhole) (arg2 : Memref sig .tc .vmem S64x192 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x192 .f32) (x1 : Vec F S64x192 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__dense_kernel i arg1 harg1 arg2 harg2 arg3 harg3 arg4 harg4) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The region's proof data on core `c`: the arrays as the region finds them; after the body at point `t` each input's
    buffer still at its block and the output's at `out2_3` of the three input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Stage

end
-- ==== Proof.KbRegion3.lean ====
/-
  Region 3 of the program: one dense stage, run block by block over the rows.
  At every grid point the body reads a block of 5000x192 rows-by-features of the stage's input, the whole weight matrix
  and the whole bias row, and overwrites the point's block of the output with one value computed from those three
  (the output's own old contents are read once and never used).  Stated here, for any contents `V` of the buffers
  when the region is entered and at any float model: what each window's block is at a point, what the body leaves in
  the output block (the canonical reading of its one whole-block store), the body's triple, and the proof data and
  body obligation the pipeline library asks of a region.
-/
import proofs.«115876_j36043365548319_1_alg».proof.Proof.Gen.Kernel.Launch
import proofs.«115876_j36043365548319_1_alg».proof.Proof.Gen.Kernel.Skeleton
import proofs.«115876_j36043365548319_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether the pipeline fetched it there or not
    (an unfetched point has the block index of the point before it), for any proof data whose array is `V`'s and whose
    body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether the pipeline fetched it there or not
    (an unfetched point has the block index of the point before it), for any proof data whose array is `V`'s and whose
    body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether the pipeline fetched it there or not
    (an unfetched point has the block index of the point before it), for any proof data whose array is `V`'s and whose
    body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each of the four buffers whole -/

abbrev r3_x : Rect S5000x192 := Rect.unit (s := S5000x192) ![0, 0] S5000x192.size inb_S5000x192_S5000x192_0_0
abbrev r3_w : Rect S64x192 := Rect.unit (s := S64x192) ![0, 0] S64x192.size inb_S64x192_S64x192_0_0
abbrev r3_b : Rect S1x64 := Rect.unit (s := S1x64) ![0, 0] S1x64.size inb_S1x64_S1x64_0_0
abbrev r3_o : Rect S5000x64 := Rect.unit (s := S5000x64) ![0, 0] S5000x64.size inb_S5000x64_S5000x64_0_0

/-- What the body leaves in the output block, from the three input blocks: its one store, of the stage's value. -/
def out3_3 (x0 : Vec F S5000x192 .f32) (x1 : Vec F S64x192 .f32) (x2 : Vec F S1x64 .f32) : Vec F S5000x64 .f32 :=
  View.canon [⟨r3_o, k3_pay1 (View.ld x0 r3_x) (View.ld x1 r3_w) (View.ld x2 r3_b)⟩]

/-- The one store is of the whole block, so it covers it. -/
theorem cover3_3 (p0 : Vec F S5000x64 .f32) (y : S5000x64.Idx) :
    ∃ pc ∈ ([⟨r3_o, p0⟩] : List (View.Piece (Elt F) S5000x64 .f32)), y ∈ pc.1.set :=
  View.cover_of_tiled [⟨r3_o, p0⟩] S5000x64.size (by rfl) y

set_option maxHeartbeats 1000000 in
/-- The body on whole staging buffers, the inputs' at contents `x0 x1 x2` and the output's at anything, runs to the end
    leaving the inputs' as they were and the output's at `out3_3 x0 x1 x2`. -/
theorem sound_kernel3 (c : Dev nD) (E : Set ℕ) (i : grid3.Coords)
    (arg1 : Memref sig .tc .vmem S5000x192 .f32) (harg1 : arg1.IsWhole) (arg2 : Memref sig .tc .vmem S64x192 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x192 .f32) (x1 : Vec F S64x192 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__dense_kernel i arg1 harg1 arg2 harg2 arg3 harg3 arg4 harg4) K := by
  simp only [cc3__dense_kernel_eq_skeleton]; unfold cc3__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The region's proof data on core `c`: the arrays as the region finds them; after the body at point `t` each input's
    buffer still at its block and the output's at `out3_3` of the three input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Stage

end
-- ==== Proof.KbRegion4.lean ====
/-
  Region 4 of the program: one dense stage, run block by block over the rows.
  At every grid point the body reads a block of 5000x64 rows-by-features of the stage's input, the whole weight matrix
  and the whole bias row, and overwrites the point's block of the output with one value computed from those three
  (the output's own old contents are read once and never used).  Stated here, for any contents `V` of the buffers
  when the region is entered and at any float model: what each window's block is at a point, what the body leaves in
  the output block (the canonical reading of its one whole-block store), the body's triple, and the proof data and
  body obligation the pipeline library asks of a region.
-/
import proofs.«115876_j36043365548319_1_alg».proof.Proof.Gen.Kernel.Launch
import proofs.«115876_j36043365548319_1_alg».proof.Proof.Gen.Kernel.Skeleton
import proofs.«115876_j36043365548319_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, whether the pipeline fetched it there or not
    (an unfetched point has the block index of the point before it), for any proof data whose array is `V`'s and whose
    body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, whether the pipeline fetched it there or not
    (an unfetched point has the block index of the point before it), for any proof data whose array is `V`'s and whose
    body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, whether the pipeline fetched it there or not
    (an unfetched point has the block index of the point before it), for any proof data whose array is `V`'s and whose
    body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each of the four buffers whole -/

abbrev r4_x : Rect S5000x64 := Rect.unit (s := S5000x64) ![0, 0] S5000x64.size inb_S5000x64_S5000x64_0_0
abbrev r4_w : Rect S64x64 := Rect.unit (s := S64x64) ![0, 0] S64x64.size inb_S64x64_S64x64_0_0
abbrev r4_b : Rect S1x64 := Rect.unit (s := S1x64) ![0, 0] S1x64.size inb_S1x64_S1x64_0_0
abbrev r4_o : Rect S5000x64 := Rect.unit (s := S5000x64) ![0, 0] S5000x64.size inb_S5000x64_S5000x64_0_0

/-- What the body leaves in the output block, from the three input blocks: its one store, of the stage's value. -/
def out4_3 (x0 : Vec F S5000x64 .f32) (x1 : Vec F S64x64 .f32) (x2 : Vec F S1x64 .f32) : Vec F S5000x64 .f32 :=
  View.canon [⟨r4_o, k4_pay1 (View.ld x0 r4_x) (View.ld x1 r4_w) (View.ld x2 r4_b)⟩]

/-- The one store is of the whole block, so it covers it. -/
theorem cover4_3 (p0 : Vec F S5000x64 .f32) (y : S5000x64.Idx) :
    ∃ pc ∈ ([⟨r4_o, p0⟩] : List (View.Piece (Elt F) S5000x64 .f32)), y ∈ pc.1.set :=
  View.cover_of_tiled [⟨r4_o, p0⟩] S5000x64.size (by rfl) y

set_option maxHeartbeats 1000000 in
/-- The body on whole staging buffers, the inputs' at contents `x0 x1 x2` and the output's at anything, runs to the end
    leaving the inputs' as they were and the output's at `out4_3 x0 x1 x2`. -/
theorem sound_kernel4 (c : Dev nD) (E : Set ℕ) (i : grid4.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__dense_kernel i arg1 harg1 arg2 harg2 arg3 harg3 arg4 harg4) K := by
  simp only [cc4__dense_kernel_eq_skeleton]; unfold cc4__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The region's proof data on core `c`: the arrays as the region finds them; after the body at point `t` each input's
    buffer still at its block and the output's at `out4_3` of the three input blocks; the invariant the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Stage

end
-- ==== Proof.KbRegion5.lean ====
/-
  Region 5 of the program: one dense stage, run block by block over the rows.
  At every grid point the body reads a block of 5000x64 rows-by-features of the stage's input, the whole weight matrix
  and the whole bias row, and overwrites the point's block of the output with one value computed from those three
  (the output's own old contents are read once and never used).  Stated here, for any contents `V` of the buffers
  when the region is entered and at any float model: what each window's block is at a point, what the body leaves in
  the output block (the canonical reading of its one whole-block store), the body's triple, and the proof data and
  body obligation the pipeline library asks of a region.
-/
import proofs.«115876_j36043365548319_1_alg».proof.Proof.Gen.Kernel.Launch
import proofs.«115876_j36043365548319_1_alg».proof.Proof.Gen.Kernel.Skeleton
import proofs.«115876_j36043365548319_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, whether the pipeline fetched it there or not
    (an unfetched point has the block index of the point before it), for any proof data whose array is `V`'s and whose
    body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, whether the pipeline fetched it there or not
    (an unfetched point has the block index of the point before it), for any proof data whose array is `V`'s and whose
    body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, whether the pipeline fetched it there or not
    (an unfetched point has the block index of the point before it), for any proof data whose array is `V`'s and whose
    body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each of the four buffers whole -/

abbrev r5_x : Rect S5000x64 := Rect.unit (s := S5000x64) ![0, 0] S5000x64.size inb_S5000x64_S5000x64_0_0
abbrev r5_w : Rect S2x64 := Rect.unit (s := S2x64) ![0, 0] S2x64.size inb_S2x64_S2x64_0_0
abbrev r5_b : Rect S1x2 := Rect.unit (s := S1x2) ![0, 0] S1x2.size inb_S1x2_S1x2_0_0
abbrev r5_o : Rect S5000x2 := Rect.unit (s := S5000x2) ![0, 0] S5000x2.size inb_S5000x2_S5000x2_0_0

/-- What the body leaves in the output block, from the three input blocks: its one store, of the stage's value. -/
def out5_3 (x0 : Vec F S5000x64 .f32) (x1 : Vec F S2x64 .f32) (x2 : Vec F S1x2 .f32) : Vec F S5000x2 .f32 :=
  View.canon [⟨r5_o, k5_pay1 (View.ld x0 r5_x) (View.ld x1 r5_w) (View.ld x2 r5_b)⟩]

/-- The one store is of the whole block, so it covers it. -/
theorem cover5_3 (p0 : Vec F S5000x2 .f32) (y : S5000x2.Idx) :
    ∃ pc ∈ ([⟨r5_o, p0⟩] : List (View.Piece (Elt F) S5000x2 .f32)), y ∈ pc.1.set :=
  View.cover_of_tiled [⟨r5_o, p0⟩] S5000x2.size (by rfl) y

set_option maxHeartbeats 1000000 in
/-- The body on whole staging buffers, the inputs' at contents `x0 x1 x2` and the output's at anything, runs to the end
    leaving the inputs' as they were and the output's at `out5_3 x0 x1 x2`. -/
theorem sound_kernel5 (c : Dev nD) (E : Set ℕ) (i : grid5.Coords)
    (arg1 : Memref sig .tc .vmem S5000x64 .f32) (harg1 : arg1.IsWhole) (arg2 : Memref sig .tc .vmem S2x64 .f32) (harg2 : arg2.IsWhole)
    (arg3 : Memref sig .tc .vmem S1x2 .f32) (harg3 : arg3.IsWhole) (arg4 : Memref sig .tc .vmem S5000x2 .f32) (harg4 : arg4.IsWhole)
    (x0 : Vec F S5000x64 .f32) (x1 : Vec F S2x64 .f32) (x2 : Vec F S1x2 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__dense_kernel i arg1 harg1 arg2 harg2 arg3 harg3 arg4 harg4) K := by
  simp only [cc5__dense_kernel_eq_skeleton]; unfold cc5__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The region's proof data on core `c`: the arrays as the region finds them; after the body at point `t` each input's
    buffer still at its block and the output's at `out5_3` of the three input blocks; the invariant the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' buffers hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Stage

end
-- ==== Proof.KbRun.lean ====
/-
  The whole run of the program: six dense stages among stretches of host operations.
  The buffers' contents at every boundary are a fold from the launch memory: a stretch of host operations applies them
  (`StableHlo.after`), and a stage changes one buffer only, its output, to what its blocks' write-backs leave
  (`arrAt` of the stage's proof data at the last point).  Every stage is a region of the pipeline library entered
  from "every unscoped buffer at the boundary's contents" and left at the next boundary's; the launch theorem for
  several regions then says every weakly fair execution terminates, without a fault, with every unscoped buffer at
  the last boundary's contents `W12`.
-/
import proofs.«115876_j36043365548319_1_alg».proof.Proof.KbRegion0
import proofs.«115876_j36043365548319_1_alg».proof.Proof.KbRegion1
import proofs.«115876_j36043365548319_1_alg».proof.Proof.KbRegion2
import proofs.«115876_j36043365548319_1_alg».proof.Proof.KbRegion3
import proofs.«115876_j36043365548319_1_alg».proof.Proof.KbRegion4
import proofs.«115876_j36043365548319_1_alg».proof.Proof.KbRegion5
import proofs.«115876_j36043365548319_1_alg».proof.Proof.Gen.Kernel.Regions

set_option maxRecDepth 16384

noncomputable section

namespace Cert.Kernel.Stage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)

/-- After the host stretch `hostOps0`: stage 0's entry. -/
abbrev W1 : Dev nD → Valuation τ sig (Elt F) := fun c => StableHlo.after hostOps0 (W0 m ρ c)
/-- The same read at the TensorCore's references. -/
abbrev U1 : (c : Dev nD) → (b : Ref sig .tc) → Buf (Elt F) ((c : Thread nD τ).loc b) := fun c b => W1 m ρ c b
/-- What stage 0 leaves in its output array `main_v10`: its blocks' write-backs folded over the grid. -/
def res0 (c : Dev nD) : Buf (Elt F) ((c : Thread nD τ).loc main_v10) := (dat0 (U1 m ρ) c).arrAt 3 cfg0.N
/-- At stage 0's exit: `main_v10` at what the stage leaves, every other buffer as entered. -/
def W2 (c : Dev nD) : Valuation τ sig (Elt F) := Function.update (W1 m ρ c) main_v10 (res0 m ρ c)
abbrev U2 : (c : Dev nD) → (b : Ref sig .tc) → Buf (Elt F) ((c : Thread nD τ).loc b) := fun c b => W2 m ρ c b
theorem W2_out (c : Dev nD) : W2 m ρ c main_v10 = res0 m ρ c := by
  unfold W2; exact Function.update_self _ _ _
theorem W2_of (c : Dev nD) (r : Ref sig .tc) (h : r ≠ main_v10) : W2 m ρ c r = W1 m ρ c r := by
  unfold W2; exact Function.update_of_ne (StableHlo.devRef_ne_of_ne h) _ _
theorem W1_of (c : Dev nD) (r : Ref sig .tc) (h : r ∉ (hostOps0_W : List (Ref sig .tc))) : W1 m ρ c r = W0 m ρ c r :=
  StableHlo.after_of_writes_sub hostOps0 _ hostOps0_writes h
/-- At the exit each array of the stage holds what the pipeline leaves (an input: what it held; the output: the
    write-backs), and every other buffer what it held at entry. -/
theorem hF0 (c : Dev nD) (w : Fin cfg0.W) : (dat0 (U1 m ρ) c).arrAt w cfg0.N = U2 m ρ c (Pipeline.arrRef spec0 w) :=
  match w with
  | ⟨0, _⟩ => (((dat0 (U1 m ρ) c).arrAt_in 0 rfl _).trans (A_eq0 (U1 m ρ) c 0)).trans (W2_of m ρ c main_arg0 (by decide)).symm
  | ⟨1, _⟩ => (((dat0 (U1 m ρ) c).arrAt_in 1 rfl _).trans (A_eq0 (U1 m ρ) c 1)).trans (W2_of m ρ c main_arg3 (by decide)).symm
  | ⟨2, _⟩ => (((dat0 (U1 m ρ) c).arrAt_in 2 rfl _).trans (A_eq0 (U1 m ρ) c 2)).trans (W2_of m ρ c main_v9 (by decide)).symm
  | ⟨3, _⟩ => (W2_out m ρ c).symm
theorem hrest0 (c : Dev nD) : ∀ b, b ∉ Finset.univ.image (Pipeline.arrRef spec0) → U2 m ρ c b = U1 m ρ c b :=
  fun b hb => W2_of m ρ c b fun e => hb (Finset.mem_image.mpr ⟨3, Finset.mem_univ _, e.symm⟩)

/-- After the host stretch `hostOps1`: stage 1's entry. -/
abbrev W3 : Dev nD → Valuation τ sig (Elt F) := fun c => StableHlo.after hostOps1 (W2 m ρ c)
/-- The same read at the TensorCore's references. -/
abbrev U3 : (c : Dev nD) → (b : Ref sig .tc) → Buf (Elt F) ((c : Thread nD τ).loc b) := fun c b => W3 m ρ c b
/-- What stage 1 leaves in its output array `main_v12`: its blocks' write-backs folded over the grid. -/
def res1 (c : Dev nD) : Buf (Elt F) ((c : Thread nD τ).loc main_v12) := (dat1 (U3 m ρ) c).arrAt 3 cfg1.N
/-- At stage 1's exit: `main_v12` at what the stage leaves, every other buffer as entered. -/
def W4 (c : Dev nD) : Valuation τ sig (Elt F) := Function.update (W3 m ρ c) main_v12 (res1 m ρ c)
abbrev U4 : (c : Dev nD) → (b : Ref sig .tc) → Buf (Elt F) ((c : Thread nD τ).loc b) := fun c b => W4 m ρ c b
theorem W4_out (c : Dev nD) : W4 m ρ c main_v12 = res1 m ρ c := by
  unfold W4; exact Function.update_self _ _ _
theorem W4_of (c : Dev nD) (r : Ref sig .tc) (h : r ≠ main_v12) : W4 m ρ c r = W3 m ρ c r := by
  unfold W4; exact Function.update_of_ne (StableHlo.devRef_ne_of_ne h) _ _
theorem W3_of (c : Dev nD) (r : Ref sig .tc) (h : r ∉ (hostOps1_W : List (Ref sig .tc))) : W3 m ρ c r = W2 m ρ c r :=
  StableHlo.after_of_writes_sub hostOps1 _ hostOps1_writes h
/-- At the exit each array of the stage holds what the pipeline leaves (an input: what it held; the output: the
    write-backs), and every other buffer what it held at entry. -/
theorem hF1 (c : Dev nD) (w : Fin cfg1.W) : (dat1 (U3 m ρ) c).arrAt w cfg1.N = U4 m ρ c (Pipeline.arrRef spec1 w) :=
  match w with
  | ⟨0, _⟩ => (((dat1 (U3 m ρ) c).arrAt_in 0 rfl _).trans (A_eq1 (U3 m ρ) c 0)).trans (W4_of m ρ c main_v10 (by decide)).symm
  | ⟨1, _⟩ => (((dat1 (U3 m ρ) c).arrAt_in 1 rfl _).trans (A_eq1 (U3 m ρ) c 1)).trans (W4_of m ρ c main_arg5 (by decide)).symm
  | ⟨2, _⟩ => (((dat1 (U3 m ρ) c).arrAt_in 2 rfl _).trans (A_eq1 (U3 m ρ) c 2)).trans (W4_of m ρ c main_v11 (by decide)).symm
  | ⟨3, _⟩ => (W4_out m ρ c).symm
theorem hrest1 (c : Dev nD) : ∀ b, b ∉ Finset.univ.image (Pipeline.arrRef spec1) → U4 m ρ c b = U3 m ρ c b :=
  fun b hb => W4_of m ρ c b fun e => hb (Finset.mem_image.mpr ⟨3, Finset.mem_univ _, e.symm⟩)

/-- After the host stretch `hostOps2`: stage 2's entry. -/
abbrev W5 : Dev nD → Valuation τ sig (Elt F) := fun c => StableHlo.after hostOps2 (W4 m ρ c)
/-- The same read at the TensorCore's references. -/
abbrev U5 : (c : Dev nD) → (b : Ref sig .tc) → Buf (Elt F) ((c : Thread nD τ).loc b) := fun c b => W5 m ρ c b
/-- What stage 2 leaves in its output array `main_v54`: its blocks' write-backs folded over the grid. -/
def res2 (c : Dev nD) : Buf (Elt F) ((c : Thread nD τ).loc main_v54) := (dat2 (U5 m ρ) c).arrAt 3 cfg2.N
/-- At stage 2's exit: `main_v54` at what the stage leaves, every other buffer as entered. -/
def W6 (c : Dev nD) : Valuation τ sig (Elt F) := Function.update (W5 m ρ c) main_v54 (res2 m ρ c)
abbrev U6 : (c : Dev nD) → (b : Ref sig .tc) → Buf (Elt F) ((c : Thread nD τ).loc b) := fun c b => W6 m ρ c b
theorem W6_out (c : Dev nD) : W6 m ρ c main_v54 = res2 m ρ c := by
  unfold W6; exact Function.update_self _ _ _
theorem W6_of (c : Dev nD) (r : Ref sig .tc) (h : r ≠ main_v54) : W6 m ρ c r = W5 m ρ c r := by
  unfold W6; exact Function.update_of_ne (StableHlo.devRef_ne_of_ne h) _ _
theorem W5_of (c : Dev nD) (r : Ref sig .tc) (h : r ∉ (hostOps2_W : List (Ref sig .tc))) : W5 m ρ c r = W4 m ρ c r :=
  StableHlo.after_of_writes_sub hostOps2 _ hostOps2_writes h
/-- At the exit each array of the stage holds what the pipeline leaves (an input: what it held; the output: the
    write-backs), and every other buffer what it held at entry. -/
theorem hF2 (c : Dev nD) (w : Fin cfg2.W) : (dat2 (U5 m ρ) c).arrAt w cfg2.N = U6 m ρ c (Pipeline.arrRef spec2 w) :=
  match w with
  | ⟨0, _⟩ => (((dat2 (U5 m ρ) c).arrAt_in 0 rfl _).trans (A_eq2 (U5 m ρ) c 0)).trans (W6_of m ρ c main_v52 (by decide)).symm
  | ⟨1, _⟩ => (((dat2 (U5 m ρ) c).arrAt_in 1 rfl _).trans (A_eq2 (U5 m ρ) c 1)).trans (W6_of m ρ c main_arg7 (by decide)).symm
  | ⟨2, _⟩ => (((dat2 (U5 m ρ) c).arrAt_in 2 rfl _).trans (A_eq2 (U5 m ρ) c 2)).trans (W6_of m ρ c main_v53 (by decide)).symm
  | ⟨3, _⟩ => (W6_out m ρ c).symm
theorem hrest2 (c : Dev nD) : ∀ b, b ∉ Finset.univ.image (Pipeline.arrRef spec2) → U6 m ρ c b = U5 m ρ c b :=
  fun b hb => W6_of m ρ c b fun e => hb (Finset.mem_image.mpr ⟨3, Finset.mem_univ _, e.symm⟩)

/-- After the host stretch `hostOps3`: stage 3's entry. -/
abbrev W7 : Dev nD → Valuation τ sig (Elt F) := fun c => StableHlo.after hostOps3 (W6 m ρ c)
/-- The same read at the TensorCore's references. -/
abbrev U7 : (c : Dev nD) → (b : Ref sig .tc) → Buf (Elt F) ((c : Thread nD τ).loc b) := fun c b => W7 m ρ c b
/-- What stage 3 leaves in its output array `main_v96`: its blocks' write-backs folded over the grid. -/
def res3 (c : Dev nD) : Buf (Elt F) ((c : Thread nD τ).loc main_v96) := (dat3 (U7 m ρ) c).arrAt 3 cfg3.N
/-- At stage 3's exit: `main_v96` at what the stage leaves, every other buffer as entered. -/
def W8 (c : Dev nD) : Valuation τ sig (Elt F) := Function.update (W7 m ρ c) main_v96 (res3 m ρ c)
abbrev U8 : (c : Dev nD) → (b : Ref sig .tc) → Buf (Elt F) ((c : Thread nD τ).loc b) := fun c b => W8 m ρ c b
theorem W8_out (c : Dev nD) : W8 m ρ c main_v96 = res3 m ρ c := by
  unfold W8; exact Function.update_self _ _ _
theorem W8_of (c : Dev nD) (r : Ref sig .tc) (h : r ≠ main_v96) : W8 m ρ c r = W7 m ρ c r := by
  unfold W8; exact Function.update_of_ne (StableHlo.devRef_ne_of_ne h) _ _
theorem W7_of (c : Dev nD) (r : Ref sig .tc) (h : r ∉ (hostOps3_W : List (Ref sig .tc))) : W7 m ρ c r = W6 m ρ c r :=
  StableHlo.after_of_writes_sub hostOps3 _ hostOps3_writes h
/-- At the exit each array of the stage holds what the pipeline leaves (an input: what it held; the output: the
    write-backs), and every other buffer what it held at entry. -/
theorem hF3 (c : Dev nD) (w : Fin cfg3.W) : (dat3 (U7 m ρ) c).arrAt w cfg3.N = U8 m ρ c (Pipeline.arrRef spec3 w) :=
  match w with
  | ⟨0, _⟩ => (((dat3 (U7 m ρ) c).arrAt_in 0 rfl _).trans (A_eq3 (U7 m ρ) c 0)).trans (W8_of m ρ c main_v94 (by decide)).symm
  | ⟨1, _⟩ => (((dat3 (U7 m ρ) c).arrAt_in 1 rfl _).trans (A_eq3 (U7 m ρ) c 1)).trans (W8_of m ρ c main_arg9 (by decide)).symm
  | ⟨2, _⟩ => (((dat3 (U7 m ρ) c).arrAt_in 2 rfl _).trans (A_eq3 (U7 m ρ) c 2)).trans (W8_of m ρ c main_v95 (by decide)).symm
  | ⟨3, _⟩ => (W8_out m ρ c).symm
theorem hrest3 (c : Dev nD) : ∀ b, b ∉ Finset.univ.image (Pipeline.arrRef spec3) → U8 m ρ c b = U7 m ρ c b :=
  fun b hb => W8_of m ρ c b fun e => hb (Finset.mem_image.mpr ⟨3, Finset.mem_univ _, e.symm⟩)

/-- After the host stretch `hostOps4`: stage 4's entry. -/
abbrev W9 : Dev nD → Valuation τ sig (Elt F) := fun c => StableHlo.after hostOps4 (W8 m ρ c)
/-- The same read at the TensorCore's references. -/
abbrev U9 : (c : Dev nD) → (b : Ref sig .tc) → Buf (Elt F) ((c : Thread nD τ).loc b) := fun c b => W9 m ρ c b
/-- What stage 4 leaves in its output array `main_v98`: its blocks' write-backs folded over the grid. -/
def res4 (c : Dev nD) : Buf (Elt F) ((c : Thread nD τ).loc main_v98) := (dat4 (U9 m ρ) c).arrAt 3 cfg4.N
/-- At stage 4's exit: `main_v98` at what the stage leaves, every other buffer as entered. -/
def W10 (c : Dev nD) : Valuation τ sig (Elt F) := Function.update (W9 m ρ c) main_v98 (res4 m ρ c)
abbrev U10 : (c : Dev nD) → (b : Ref sig .tc) → Buf (Elt F) ((c : Thread nD τ).loc b) := fun c b => W10 m ρ c b
theorem W10_out (c : Dev nD) : W10 m ρ c main_v98 = res4 m ρ c := by
  unfold W10; exact Function.update_self _ _ _
theorem W10_of (c : Dev nD) (r : Ref sig .tc) (h : r ≠ main_v98) : W10 m ρ c r = W9 m ρ c r := by
  unfold W10; exact Function.update_of_ne (StableHlo.devRef_ne_of_ne h) _ _
theorem W9_of (c : Dev nD) (r : Ref sig .tc) (h : r ∉ (hostOps4_W : List (Ref sig .tc))) : W9 m ρ c r = W8 m ρ c r :=
  StableHlo.after_of_writes_sub hostOps4 _ hostOps4_writes h
/-- At the exit each array of the stage holds what the pipeline leaves (an input: what it held; the output: the
    write-backs), and every other buffer what it held at entry. -/
theorem hF4 (c : Dev nD) (w : Fin cfg4.W) : (dat4 (U9 m ρ) c).arrAt w cfg4.N = U10 m ρ c (Pipeline.arrRef spec4 w) :=
  match w with
  | ⟨0, _⟩ => (((dat4 (U9 m ρ) c).arrAt_in 0 rfl _).trans (A_eq4 (U9 m ρ) c 0)).trans (W10_of m ρ c main_v96 (by decide)).symm
  | ⟨1, _⟩ => (((dat4 (U9 m ρ) c).arrAt_in 1 rfl _).trans (A_eq4 (U9 m ρ) c 1)).trans (W10_of m ρ c main_arg11 (by decide)).symm
  | ⟨2, _⟩ => (((dat4 (U9 m ρ) c).arrAt_in 2 rfl _).trans (A_eq4 (U9 m ρ) c 2)).trans (W10_of m ρ c main_v97 (by decide)).symm
  | ⟨3, _⟩ => (W10_out m ρ c).symm
theorem hrest4 (c : Dev nD) : ∀ b, b ∉ Finset.univ.image (Pipeline.arrRef spec4) → U10 m ρ c b = U9 m ρ c b :=
  fun b hb => W10_of m ρ c b fun e => hb (Finset.mem_image.mpr ⟨3, Finset.mem_univ _, e.symm⟩)

/-- After the host stretch `hostOps5`: stage 5's entry. -/
abbrev W11 : Dev nD → Valuation τ sig (Elt F) := fun c => StableHlo.after hostOps5 (W10 m ρ c)
/-- The same read at the TensorCore's references. -/
abbrev U11 : (c : Dev nD) → (b : Ref sig .tc) → Buf (Elt F) ((c : Thread nD τ).loc b) := fun c b => W11 m ρ c b
/-- What stage 5 leaves in its output array `main_v100`: its blocks' write-backs folded over the grid. -/
def res5 (c : Dev nD) : Buf (Elt F) ((c : Thread nD τ).loc main_v100) := (dat5 (U11 m ρ) c).arrAt 3 cfg5.N
/-- At stage 5's exit: `main_v100` at what the stage leaves, every other buffer as entered. -/
def W12 (c : Dev nD) : Valuation τ sig (Elt F) := Function.update (W11 m ρ c) main_v100 (res5 m ρ c)
abbrev U12 : (c : Dev nD) → (b : Ref sig .tc) → Buf (Elt F) ((c : Thread nD τ).loc b) := fun c b => W12 m ρ c b
theorem W12_out (c : Dev nD) : W12 m ρ c main_v100 = res5 m ρ c := by
  unfold W12; exact Function.update_self _ _ _
theorem W12_of (c : Dev nD) (r : Ref sig .tc) (h : r ≠ main_v100) : W12 m ρ c r = W11 m ρ c r := by
  unfold W12; exact Function.update_of_ne (StableHlo.devRef_ne_of_ne h) _ _
theorem W11_of (c : Dev nD) (r : Ref sig .tc) (h : r ∉ (hostOps5_W : List (Ref sig .tc))) : W11 m ρ c r = W10 m ρ c r :=
  StableHlo.after_of_writes_sub hostOps5 _ hostOps5_writes h
/-- At the exit each array of the stage holds what the pipeline leaves (an input: what it held; the output: the
    write-backs), and every other buffer what it held at entry. -/
theorem hF5 (c : Dev nD) (w : Fin cfg5.W) : (dat5 (U11 m ρ) c).arrAt w cfg5.N = U12 m ρ c (Pipeline.arrRef spec5 w) :=
  match w with
  | ⟨0, _⟩ => (((dat5 (U11 m ρ) c).arrAt_in 0 rfl _).trans (A_eq5 (U11 m ρ) c 0)).trans (W12_of m ρ c main_v98 (by decide)).symm
  | ⟨1, _⟩ => (((dat5 (U11 m ρ) c).arrAt_in 1 rfl _).trans (A_eq5 (U11 m ρ) c 1)).trans (W12_of m ρ c main_arg13 (by decide)).symm
  | ⟨2, _⟩ => (((dat5 (U11 m ρ) c).arrAt_in 2 rfl _).trans (A_eq5 (U11 m ρ) c 2)).trans (W12_of m ρ c main_v99 (by decide)).symm
  | ⟨3, _⟩ => (W12_out m ρ c).symm
theorem hrest5 (c : Dev nD) : ∀ b, b ∉ Finset.univ.image (Pipeline.arrRef spec5) → U12 m ρ c b = U11 m ρ c b :=
  fun b hb => W12_of m ρ c b fun e => hb (Finset.mem_image.mpr ⟨3, Finset.mem_univ _, e.symm⟩)

/-! ## The proof data family and the thread state -/

abbrev adm' : (p : Fin 6) → (pcfgs (F := F) p).Adm := fun p => (cfgs p).toPCfg_adm
/-- Every stage's proof data, each at its entry contents — a literal match on the stage's number. -/
def pdats : (p : Fin 6) → (c : Dev nD) → Dat τ (Elt F) Unit ℕ (UR sig nD τ) ℕ (Pipeline.pin (pcfgs (F := F)) adm' p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
  | ⟨4, _⟩ => fun c => dat4 (U9 m ρ) c
  | ⟨5, _⟩ => fun c => dat5 (U11 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W12`, the generator register at some state. -/
abbrev Tₙ (c : Dev nD) : sProp 𝕄 := iprop(StableHlo.held (c : Thread nD τ) (Pipeline.ucRefs τ sig) (W12 m ρ c) ∗ ∃ r, prngReg c r)

/-! ## The stages as regions -/

set_option backward.isDefEq.respectTransparency.types false in
/-- Stage 0 over the thread state: entered from every unscoped buffer at `W1`, left at `W2`.  Its arrays are split out
    of the unscoped buffers and put back at the exit contents; the generator register goes into the stage's invariant
    and comes back; nothing is owed; the kernel has no semaphore of its own. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 1 over the thread state: entered from every unscoped buffer at `W3`, left at `W4`.  Its arrays are split out
    of the unscoped buffers and put back at the exit contents; the generator register goes into the stage's invariant
    and comes back; nothing is owed; the kernel has no semaphore of its own. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 2 over the thread state: entered from every unscoped buffer at `W5`, left at `W6`.  Its arrays are split out
    of the unscoped buffers and put back at the exit contents; the generator register goes into the stage's invariant
    and comes back; nothing is owed; the kernel has no semaphore of its own. -/
def reg2 : Pipeline.RegionSeg (pcfgs (F := F)) adm' (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm' (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 3 over the thread state: entered from every unscoped buffer at `W7`, left at `W8`.  Its arrays are split out
    of the unscoped buffers and put back at the exit contents; the generator register goes into the stage's invariant
    and comes back; nothing is owed; the kernel has no semaphore of its own. -/
def reg3 : Pipeline.RegionSeg (pcfgs (F := F)) adm' (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (U7 m ρ c)
  hentry c := by
    rw [Pipeline.ownSems0_none]
    have hsplit := Pipeline.arrays_of_unscopedBufs (p := 3) (pcfgs (F := F)) adm' (pdats m ρ) launch3.win launch3.arr_whole c
      ((pdats m ρ 3 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm' (Ix := Unit) (Name := ℕ) (U := UR sig nD τ) (Lvl := ℕ)
      launch3.win launch3.arr_whole c (pdats m ρ) ((pdats m ρ 3 c).share_full fun _ => rfl)
      (U7 m ρ c) (U8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 4 over the thread state: entered from every unscoped buffer at `W9`, left at `W10`.  Its arrays are split out
    of the unscoped buffers and put back at the exit contents; the generator register goes into the stage's invariant
    and comes back; nothing is owed; the kernel has no semaphore of its own. -/
def reg4 : Pipeline.RegionSeg (pcfgs (F := F)) adm' (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (U9 m ρ c)
  hentry c := by
    rw [Pipeline.ownSems0_none]
    have hsplit := Pipeline.arrays_of_unscopedBufs (p := 4) (pcfgs (F := F)) adm' (pdats m ρ) launch4.win launch4.arr_whole c
      ((pdats m ρ 4 c).share_full fun _ => rfl) (U9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm' (Ix := Unit) (Name := ℕ) (U := UR sig nD τ) (Lvl := ℕ)
      launch4.win launch4.arr_whole c (pdats m ρ) ((pdats m ρ 4 c).share_full fun _ => rfl)
      (U9 m ρ c) (U10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 5 over the thread state: entered from every unscoped buffer at `W11`, left at `W12`.  Its arrays are split out
    of the unscoped buffers and put back at the exit contents; the generator register goes into the stage's invariant
    and comes back; nothing is owed; the kernel has no semaphore of its own. -/
def reg5 : Pipeline.RegionSeg (pcfgs (F := F)) adm' (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (U11 m ρ c)
  hentry c := by
    rw [Pipeline.ownSems0_none]
    have hsplit := Pipeline.arrays_of_unscopedBufs (p := 5) (pcfgs (F := F)) adm' (pdats m ρ) launch5.win launch5.arr_whole c
      ((pdats m ρ 5 c).share_full fun _ => rfl) (U11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm' (Ix := Unit) (Name := ℕ) (U := UR sig nD τ) (Lvl := ℕ)
      launch5.win launch5.arr_whole c (pdats m ρ) ((pdats m ρ 5 c).share_full fun _ => rfl)
      (U11 m ρ c) (U12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's twelve segments in order: a host segment per stretch from its boundary's contents, a region per stage. -/
abbrev segs : List (Pipeline.Seg (pcfgs (F := F)) adm' (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ) ]
/-- The program IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of the program on the TensorCores terminates,
    nothing faulting, and in every final state each unscoped buffer holds the last boundary's contents `W12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-! ## What reaches the end untouched -/

/-- A buffer that no host stretch writes and that is no stage's output holds at the end what it held at launch. -/
theorem W12_keep (c : Dev nD) (r : Ref sig .tc)
    (h1 : r ∉ (hostOps0_W : List (Ref sig .tc))) (h2 : r ≠ main_v10) (h3 : r ∉ (hostOps1_W : List (Ref sig .tc))) (h4 : r ≠ main_v12) (h5 : r ∉ (hostOps2_W : List (Ref sig .tc))) (h6 : r ≠ main_v54) (h7 : r ∉ (hostOps3_W : List (Ref sig .tc))) (h8 : r ≠ main_v96) (h9 : r ∉ (hostOps4_W : List (Ref sig .tc))) (h10 : r ≠ main_v98) (h11 : r ∉ (hostOps5_W : List (Ref sig .tc))) (h12 : r ≠ main_v100) :
    W12 m ρ c r = W0 m ρ c r :=
  (W12_of m ρ c r h12).trans <| (W11_of m ρ c r h11).trans <| (W10_of m ρ c r h10).trans <| (W9_of m ρ c r h9).trans <| (W8_of m ρ c r h8).trans <| (W7_of m ρ c r h7).trans <| (W6_of m ρ c r h6).trans <| (W5_of m ρ c r h5).trans <| (W4_of m ρ c r h4).trans <| (W3_of m ρ c r h3).trans <| (W2_of m ρ c r h2).trans <| W1_of m ρ c r h1

end Cert.Kernel.Stage

end
-- ==== Proof.KbFrame.lean ====
/-
  The frame of the program: it runs to the end, faults nowhere, and every argument array ends holding its launch
  contents.  No host operation writes an argument and no stage's output is one, so the last boundary's contents at an
  argument's buffer are the launch memory's; the run ends with every unscoped buffer at the last boundary's contents.
-/
import proofs.«115876_j36043365548319_1_alg».proof.Proof.KbRun

set_option maxRecDepth 16384

noncomputable section

namespace Cert.Kernel.Stage

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- An unscoped buffer that nothing writes is, in any final state of the run, as launched. -/
theorem kept_of (r : PUnit × MemSt nD τ sig (Elt F))
    (h : ∀ c : Dev nD, ∀ b ∈ Pipeline.ucRefs τ sig, r.2.mem (((c : Thread nD τ)).1, b) = W12 m ρ c b)
    (c : Dev nD) (a : Ref sig .tc) (hu : ¬ (Proc.devRef .tc a : DevRef τ sig).isScoped)
    (h1 : a ∉ (hostOps0_W : List (Ref sig .tc))) (h2 : a ≠ main_v10) (h3 : a ∉ (hostOps1_W : List (Ref sig .tc))) (h4 : a ≠ main_v12) (h5 : a ∉ (hostOps2_W : List (Ref sig .tc))) (h6 : a ≠ main_v54) (h7 : a ∉ (hostOps3_W : List (Ref sig .tc))) (h8 : a ≠ main_v96) (h9 : a ∉ (hostOps4_W : List (Ref sig .tc))) (h10 : a ≠ main_v98) (h11 : a ∉ (hostOps5_W : List (Ref sig .tc))) (h12 : a ≠ main_v100) :
    r.2.mem ((c.tc : Thread nD τ).loc a) = m ((c.tc : Thread nD τ).loc a) :=
  (h c _ (mem_uc a hu)).trans ((W12_keep m ρ c a h1 h2 h3 h4 h5 h6 h7 h8 h9 h10 h11 h12).trans rfl)

/-- In any final state of the run every argument array is as launched. -/
theorem kept_all (r : PUnit × MemSt nD τ sig (Elt F))
    (h : ∀ c : Dev nD, ∀ b ∈ Pipeline.ucRefs τ sig, r.2.mem (((c : Thread nD τ)).1, b) = W12 m ρ c b) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨kept_of m ρ r h c main_arg0 (by decide) (by decide) (by decide) (by decide) (by decide) (by decide) (by decide) (by decide) (by decide) (by decide) (by decide) (by decide) (by decide),
    kept_of m ρ r h c main_arg1 (by decide) (by decide) (by decide) (by decide) (by decide) (by decide) (by decide) (by decide) (by decide) (by decide) (by decide) (by decide) (by decide),
    kept_of m ρ r h c main_arg2 (by decide) (by decide) (by decide) (by decide) (by decide) (by decide) (by decide) (by decide) (by decide) (by decide) (by decide) (by decide) (by decide),
    kept_of m ρ r h c main_arg3 (by decide) (by decide) (by decide) (by decide) (by decide) (by decide) (by decide) (by decide) (by decide) (by decide) (by decide) (by decide) (by decide),
    kept_of m ρ r h c main_arg4 (by decide) (by decide) (by decide) (by decide) (by decide) (by decide) (by decide) (by decide) (by decide) (by decide) (by decide) (by decide) (by decide),
    kept_of m ρ r h c main_arg5 (by decide) (by decide) (by decide) (by decide) (by decide) (by decide) (by decide) (by decide) (by decide) (by decide) (by decide) (by decide) (by decide),
    kept_of m ρ r h c main_arg6 (by decide) (by decide) (by decide) (by decide) (by decide) (by decide) (by decide) (by decide) (by decide) (by decide) (by decide) (by decide) (by decide),
    kept_of m ρ r h c main_arg7 (by decide) (by decide) (by decide) (by decide) (by decide) (by decide) (by decide) (by decide) (by decide) (by decide) (by decide) (by decide) (by decide),
    kept_of m ρ r h c main_arg8 (by decide) (by decide) (by decide) (by decide) (by decide) (by decide) (by decide) (by decide) (by decide) (by decide) (by decide) (by decide) (by decide),
    kept_of m ρ r h c main_arg9 (by decide) (by decide) (by decide) (by decide) (by decide) (by decide) (by decide) (by decide) (by decide) (by decide) (by decide) (by decide) (by decide),
    kept_of m ρ r h c main_arg10 (by decide) (by decide) (by decide) (by decide) (by decide) (by decide) (by decide) (by decide) (by decide) (by decide) (by decide) (by decide) (by decide),
    kept_of m ρ r h c main_arg11 (by decide) (by decide) (by decide) (by decide) (by decide) (by decide) (by decide) (by decide) (by decide) (by decide) (by decide) (by decide) (by decide),
    kept_of m ρ r h c main_arg12 (by decide) (by decide) (by decide) (by decide) (by decide) (by decide) (by decide) (by decide) (by decide) (by decide) (by decide) (by decide) (by decide),
    kept_of m ρ r h c main_arg13 (by decide) (by decide) (by decide) (by decide) (by decide) (by decide) (by decide) (by decide) (by decide) (by decide) (by decide) (by decide) (by decide),
    kept_of m ρ r h c main_arg14 (by decide) (by decide) (by decide) (by decide) (by decide) (by decide) (by decide) (by decide) (by decide) (by decide) (by decide) (by decide) (by decide)⟩

/-- THE FRAME, at any float model. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => kept_all m ρ r h c) (run_all m ρ)

end Cert.Kernel.Stage

end
-- ==== Proof.KiRegion0.lean ====
/-
  Region 0 of the program: one dense stage, run block by block over the rows.
  At every grid point the body reads a block of 5000x128 rows-by-features of the stage's input, the whole weight matrix
  and the whole bias row, and overwrites the point's block of the output with one value computed from those three
  (the output's own old contents are read once and never used).  Stated here, for any contents `V` of the buffers
  when the region is entered and at any float model: what each window's block is at a point, what the body leaves in
  the output block (the canonical reading of its one whole-block store), the body's triple, and the proof data and
  body obligation the pipeline library asks of a region.
-/
import proofs.«115876_j36043365548319_1_alg».proof.Proof.Gen.KernelIdeal.Launch
import proofs.«115876_j36043365548319_1_alg».proof.Proof.Gen.KernelIdeal.Skeleton
import proofs.«115876_j36043365548319_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the pipeline fetched it there or not
    (an unfetched point has the block index of the point before it), for any proof data whose array is `V`'s and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the pipeline fetched it there or not
    (an unfetched point has the block index of the point before it), for any proof data whose array is `V`'s and whose
    body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the pipeline fetched it there or not
    (an unfetched point has the block index of the point before it), for any proof data whose array is `V`'s and whose
    body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each of the four buffers whole -/

abbrev r0_x : Rect S5000x128 := Rect.unit (s := S5000x128) ![0, 0] S5000x128.size inb_S5000x128_S5000x128_0_0
abbrev r0_w : Rect S64x128 := Rect.unit (s := S64x128) ![0, 0] S64x128.size inb_S64x128_S64x128_0_0
abbrev r0_b : Rect S1x64 := Rect.unit (s := S1x64) ![0, 0] S1x64.size inb_S1x64_S1x64_0_0
abbrev r0_o : Rect S5000x64 := Rect.unit (s := S5000x64) ![0, 0] S5000x64.size inb_S5000x64_S5000x64_0_0

/-- What the body leaves in the output block, from the three input blocks: its one store, of the stage's value. -/
def out0_3 (x0 : Vec F S5000x128 .f32) (x1 : Vec F S64x128 .f32) (x2 : Vec F S1x64 .f32) : Vec F S5000x64 .f32 :=
  View.canon [⟨r0_o, k0_pay1 (View.ld x0 r0_x) (View.ld x1 r0_w) (View.ld x2 r0_b)⟩]

/-- The one store is of the whole block, so it covers it. -/
theorem cover0_3 (p0 : Vec F S5000x64 .f32) (y : S5000x64.Idx) :
    ∃ pc ∈ ([⟨r0_o, p0⟩] : List (View.Piece (Elt F) S5000x64 .f32)), y ∈ pc.1.set :=
  View.cover_of_tiled [⟨r0_o, p0⟩] S5000x64.size (by rfl) y

set_option maxHeartbeats 1000000 in
/-- The body on whole staging buffers, the inputs' at contents `x0 x1 x2` and the output's at anything, runs to the end
    leaving the inputs' as they were and the output's at `out0_3 x0 x1 x2`. -/
theorem sound_kernel0 (c : Dev nD) (E : Set ℕ) (i : grid0.Coords)
    (arg1 : Memref sig .tc .vmem S5000x128 .f32) (harg1 : arg1.IsWhole) (arg2 : Memref sig .tc .vmem S64x128 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x128 .f32) (x1 : Vec F S64x128 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the arrays as the region finds them; after the body at point `t` each input's
    buffer still at its block and the output's at `out0_3` of the three input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Stage

end
-- ==== Proof.KiRegion1.lean ====
/-
  Region 1 of the program: one dense stage, run block by block over the rows.
  At every grid point the body reads a block of 5000x64 rows-by-features of the stage's input, the whole weight matrix
  and the whole bias row, and overwrites the point's block of the output with one value computed from those three
  (the output's own old contents are read once and never used).  Stated here, for any contents `V` of the buffers
  when the region is entered and at any float model: what each window's block is at a point, what the body leaves in
  the output block (the canonical reading of its one whole-block store), the body's triple, and the proof data and
  body obligation the pipeline library asks of a region.
-/
import proofs.«115876_j36043365548319_1_alg».proof.Proof.Gen.KernelIdeal.Launch
import proofs.«115876_j36043365548319_1_alg».proof.Proof.Gen.KernelIdeal.Skeleton
import proofs.«115876_j36043365548319_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the pipeline fetched it there or not
    (an unfetched point has the block index of the point before it), for any proof data whose array is `V`'s and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the pipeline fetched it there or not
    (an unfetched point has the block index of the point before it), for any proof data whose array is `V`'s and whose
    body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the pipeline fetched it there or not
    (an unfetched point has the block index of the point before it), for any proof data whose array is `V`'s and whose
    body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each of the four buffers whole -/

abbrev r1_x : Rect S5000x64 := Rect.unit (s := S5000x64) ![0, 0] S5000x64.size inb_S5000x64_S5000x64_0_0
abbrev r1_w : Rect S64x64 := Rect.unit (s := S64x64) ![0, 0] S64x64.size inb_S64x64_S64x64_0_0
abbrev r1_b : Rect S1x64 := Rect.unit (s := S1x64) ![0, 0] S1x64.size inb_S1x64_S1x64_0_0
abbrev r1_o : Rect S5000x64 := Rect.unit (s := S5000x64) ![0, 0] S5000x64.size inb_S5000x64_S5000x64_0_0

/-- What the body leaves in the output block, from the three input blocks: its one store, of the stage's value. -/
def out1_3 (x0 : Vec F S5000x64 .f32) (x1 : Vec F S64x64 .f32) (x2 : Vec F S1x64 .f32) : Vec F S5000x64 .f32 :=
  View.canon [⟨r1_o, k1_pay1 (View.ld x0 r1_x) (View.ld x1 r1_w) (View.ld x2 r1_b)⟩]

/-- The one store is of the whole block, so it covers it. -/
theorem cover1_3 (p0 : Vec F S5000x64 .f32) (y : S5000x64.Idx) :
    ∃ pc ∈ ([⟨r1_o, p0⟩] : List (View.Piece (Elt F) S5000x64 .f32)), y ∈ pc.1.set :=
  View.cover_of_tiled [⟨r1_o, p0⟩] S5000x64.size (by rfl) y

set_option maxHeartbeats 1000000 in
/-- The body on whole staging buffers, the inputs' at contents `x0 x1 x2` and the output's at anything, runs to the end
    leaving the inputs' as they were and the output's at `out1_3 x0 x1 x2`. -/
theorem sound_kernel1 (c : Dev nD) (E : Set ℕ) (i : grid1.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__dense_kernel i arg1 harg1 arg2 harg2 arg3 harg3 arg4 harg4) K := by
  simp only [cc1__dense_kernel_eq_skeleton]; unfold cc1__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The region's proof data on core `c`: the arrays as the region finds them; after the body at point `t` each input's
    buffer still at its block and the output's at `out1_3` of the three input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Stage

end
-- ==== Proof.KiRegion2.lean ====
/-
  Region 2 of the program: one dense stage, run block by block over the rows.
  At every grid point the body reads a block of 5000x192 rows-by-features of the stage's input, the whole weight matrix
  and the whole bias row, and overwrites the point's block of the output with one value computed from those three
  (the output's own old contents are read once and never used).  Stated here, for any contents `V` of the buffers
  when the region is entered and at any float model: what each window's block is at a point, what the body leaves in
  the output block (the canonical reading of its one whole-block store), the body's triple, and the proof data and
  body obligation the pipeline library asks of a region.
-/
import proofs.«115876_j36043365548319_1_alg».proof.Proof.Gen.KernelIdeal.Launch
import proofs.«115876_j36043365548319_1_alg».proof.Proof.Gen.KernelIdeal.Skeleton
import proofs.«115876_j36043365548319_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the pipeline fetched it there or not
    (an unfetched point has the block index of the point before it), for any proof data whose array is `V`'s and whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether the pipeline fetched it there or not
    (an unfetched point has the block index of the point before it), for any proof data whose array is `V`'s and whose
    body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether the pipeline fetched it there or not
    (an unfetched point has the block index of the point before it), for any proof data whose array is `V`'s and whose
    body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each of the four buffers whole -/

abbrev r2_x : Rect S5000x192 := Rect.unit (s := S5000x192) ![0, 0] S5000x192.size inb_S5000x192_S5000x192_0_0
abbrev r2_w : Rect S64x192 := Rect.unit (s := S64x192) ![0, 0] S64x192.size inb_S64x192_S64x192_0_0
abbrev r2_b : Rect S1x64 := Rect.unit (s := S1x64) ![0, 0] S1x64.size inb_S1x64_S1x64_0_0
abbrev r2_o : Rect S5000x64 := Rect.unit (s := S5000x64) ![0, 0] S5000x64.size inb_S5000x64_S5000x64_0_0

/-- What the body leaves in the output block, from the three input blocks: its one store, of the stage's value. -/
def out2_3 (x0 : Vec F S5000x192 .f32) (x1 : Vec F S64x192 .f32) (x2 : Vec F S1x64 .f32) : Vec F S5000x64 .f32 :=
  View.canon [⟨r2_o, k2_pay1 (View.ld x0 r2_x) (View.ld x1 r2_w) (View.ld x2 r2_b)⟩]

/-- The one store is of the whole block, so it covers it. -/
theorem cover2_3 (p0 : Vec F S5000x64 .f32) (y : S5000x64.Idx) :
    ∃ pc ∈ ([⟨r2_o, p0⟩] : List (View.Piece (Elt F) S5000x64 .f32)), y ∈ pc.1.set :=
  View.cover_of_tiled [⟨r2_o, p0⟩] S5000x64.size (by rfl) y

set_option maxHeartbeats 1000000 in
/-- The body on whole staging buffers, the inputs' at contents `x0 x1 x2` and the output's at anything, runs to the end
    leaving the inputs' as they were and the output's at `out2_3 x0 x1 x2`. -/
theorem sound_kernel2 (c : Dev nD) (E : Set ℕ) (i : grid2.Coords)
    (arg1 : Memref sig .tc .vmem S5000x192 .f32) (harg1 : arg1.IsWhole) (arg2 : Memref sig .tc .vmem S64x192 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x192 .f32) (x1 : Vec F S64x192 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__dense_kernel i arg1 harg1 arg2 harg2 arg3 harg3 arg4 harg4) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The region's proof data on core `c`: the arrays as the region finds them; after the body at point `t` each input's
    buffer still at its block and the output's at `out2_3` of the three input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Stage

end
-- ==== Proof.KiRegion3.lean ====
/-
  Region 3 of the program: one dense stage, run block by block over the rows.
  At every grid point the body reads a block of 5000x192 rows-by-features of the stage's input, the whole weight matrix
  and the whole bias row, and overwrites the point's block of the output with one value computed from those three
  (the output's own old contents are read once and never used).  Stated here, for any contents `V` of the buffers
  when the region is entered and at any float model: what each window's block is at a point, what the body leaves in
  the output block (the canonical reading of its one whole-block store), the body's triple, and the proof data and
  body obligation the pipeline library asks of a region.
-/
import proofs.«115876_j36043365548319_1_alg».proof.Proof.Gen.KernelIdeal.Launch
import proofs.«115876_j36043365548319_1_alg».proof.Proof.Gen.KernelIdeal.Skeleton
import proofs.«115876_j36043365548319_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether the pipeline fetched it there or not
    (an unfetched point has the block index of the point before it), for any proof data whose array is `V`'s and whose
    body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether the pipeline fetched it there or not
    (an unfetched point has the block index of the point before it), for any proof data whose array is `V`'s and whose
    body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether the pipeline fetched it there or not
    (an unfetched point has the block index of the point before it), for any proof data whose array is `V`'s and whose
    body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each of the four buffers whole -/

abbrev r3_x : Rect S5000x192 := Rect.unit (s := S5000x192) ![0, 0] S5000x192.size inb_S5000x192_S5000x192_0_0
abbrev r3_w : Rect S64x192 := Rect.unit (s := S64x192) ![0, 0] S64x192.size inb_S64x192_S64x192_0_0
abbrev r3_b : Rect S1x64 := Rect.unit (s := S1x64) ![0, 0] S1x64.size inb_S1x64_S1x64_0_0
abbrev r3_o : Rect S5000x64 := Rect.unit (s := S5000x64) ![0, 0] S5000x64.size inb_S5000x64_S5000x64_0_0

/-- What the body leaves in the output block, from the three input blocks: its one store, of the stage's value. -/
def out3_3 (x0 : Vec F S5000x192 .f32) (x1 : Vec F S64x192 .f32) (x2 : Vec F S1x64 .f32) : Vec F S5000x64 .f32 :=
  View.canon [⟨r3_o, k3_pay1 (View.ld x0 r3_x) (View.ld x1 r3_w) (View.ld x2 r3_b)⟩]

/-- The one store is of the whole block, so it covers it. -/
theorem cover3_3 (p0 : Vec F S5000x64 .f32) (y : S5000x64.Idx) :
    ∃ pc ∈ ([⟨r3_o, p0⟩] : List (View.Piece (Elt F) S5000x64 .f32)), y ∈ pc.1.set :=
  View.cover_of_tiled [⟨r3_o, p0⟩] S5000x64.size (by rfl) y

set_option maxHeartbeats 1000000 in
/-- The body on whole staging buffers, the inputs' at contents `x0 x1 x2` and the output's at anything, runs to the end
    leaving the inputs' as they were and the output's at `out3_3 x0 x1 x2`. -/
theorem sound_kernel3 (c : Dev nD) (E : Set ℕ) (i : grid3.Coords)
    (arg1 : Memref sig .tc .vmem S5000x192 .f32) (harg1 : arg1.IsWhole) (arg2 : Memref sig .tc .vmem S64x192 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x192 .f32) (x1 : Vec F S64x192 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__dense_kernel i arg1 harg1 arg2 harg2 arg3 harg3 arg4 harg4) K := by
  simp only [cc3__dense_kernel_eq_skeleton]; unfold cc3__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The region's proof data on core `c`: the arrays as the region finds them; after the body at point `t` each input's
    buffer still at its block and the output's at `out3_3` of the three input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Stage

end
-- ==== Proof.KiRegion4.lean ====
/-
  Region 4 of the program: one dense stage, run block by block over the rows.
  At every grid point the body reads a block of 5000x64 rows-by-features of the stage's input, the whole weight matrix
  and the whole bias row, and overwrites the point's block of the output with one value computed from those three
  (the output's own old contents are read once and never used).  Stated here, for any contents `V` of the buffers
  when the region is entered and at any float model: what each window's block is at a point, what the body leaves in
  the output block (the canonical reading of its one whole-block store), the body's triple, and the proof data and
  body obligation the pipeline library asks of a region.
-/
import proofs.«115876_j36043365548319_1_alg».proof.Proof.Gen.KernelIdeal.Launch
import proofs.«115876_j36043365548319_1_alg».proof.Proof.Gen.KernelIdeal.Skeleton
import proofs.«115876_j36043365548319_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, whether the pipeline fetched it there or not
    (an unfetched point has the block index of the point before it), for any proof data whose array is `V`'s and whose
    body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, whether the pipeline fetched it there or not
    (an unfetched point has the block index of the point before it), for any proof data whose array is `V`'s and whose
    body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, whether the pipeline fetched it there or not
    (an unfetched point has the block index of the point before it), for any proof data whose array is `V`'s and whose
    body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each of the four buffers whole -/

abbrev r4_x : Rect S5000x64 := Rect.unit (s := S5000x64) ![0, 0] S5000x64.size inb_S5000x64_S5000x64_0_0
abbrev r4_w : Rect S64x64 := Rect.unit (s := S64x64) ![0, 0] S64x64.size inb_S64x64_S64x64_0_0
abbrev r4_b : Rect S1x64 := Rect.unit (s := S1x64) ![0, 0] S1x64.size inb_S1x64_S1x64_0_0
abbrev r4_o : Rect S5000x64 := Rect.unit (s := S5000x64) ![0, 0] S5000x64.size inb_S5000x64_S5000x64_0_0

/-- What the body leaves in the output block, from the three input blocks: its one store, of the stage's value. -/
def out4_3 (x0 : Vec F S5000x64 .f32) (x1 : Vec F S64x64 .f32) (x2 : Vec F S1x64 .f32) : Vec F S5000x64 .f32 :=
  View.canon [⟨r4_o, k4_pay1 (View.ld x0 r4_x) (View.ld x1 r4_w) (View.ld x2 r4_b)⟩]

/-- The one store is of the whole block, so it covers it. -/
theorem cover4_3 (p0 : Vec F S5000x64 .f32) (y : S5000x64.Idx) :
    ∃ pc ∈ ([⟨r4_o, p0⟩] : List (View.Piece (Elt F) S5000x64 .f32)), y ∈ pc.1.set :=
  View.cover_of_tiled [⟨r4_o, p0⟩] S5000x64.size (by rfl) y

set_option maxHeartbeats 1000000 in
/-- The body on whole staging buffers, the inputs' at contents `x0 x1 x2` and the output's at anything, runs to the end
    leaving the inputs' as they were and the output's at `out4_3 x0 x1 x2`. -/
theorem sound_kernel4 (c : Dev nD) (E : Set ℕ) (i : grid4.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__dense_kernel i arg1 harg1 arg2 harg2 arg3 harg3 arg4 harg4) K := by
  simp only [cc4__dense_kernel_eq_skeleton]; unfold cc4__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The region's proof data on core `c`: the arrays as the region finds them; after the body at point `t` each input's
    buffer still at its block and the output's at `out4_3` of the three input blocks; the invariant the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Stage

end
-- ==== Proof.KiRegion5.lean ====
/-
  Region 5 of the program: one dense stage, run block by block over the rows.
  At every grid point the body reads a block of 5000x64 rows-by-features of the stage's input, the whole weight matrix
  and the whole bias row, and overwrites the point's block of the output with one value computed from those three
  (the output's own old contents are read once and never used).  Stated here, for any contents `V` of the buffers
  when the region is entered and at any float model: what each window's block is at a point, what the body leaves in
  the output block (the canonical reading of its one whole-block store), the body's triple, and the proof data and
  body obligation the pipeline library asks of a region.
-/
import proofs.«115876_j36043365548319_1_alg».proof.Proof.Gen.KernelIdeal.Launch
import proofs.«115876_j36043365548319_1_alg».proof.Proof.Gen.KernelIdeal.Skeleton
import proofs.«115876_j36043365548319_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, whether the pipeline fetched it there or not
    (an unfetched point has the block index of the point before it), for any proof data whose array is `V`'s and whose
    body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, whether the pipeline fetched it there or not
    (an unfetched point has the block index of the point before it), for any proof data whose array is `V`'s and whose
    body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, whether the pipeline fetched it there or not
    (an unfetched point has the block index of the point before it), for any proof data whose array is `V`'s and whose
    body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each of the four buffers whole -/

abbrev r5_x : Rect S5000x64 := Rect.unit (s := S5000x64) ![0, 0] S5000x64.size inb_S5000x64_S5000x64_0_0
abbrev r5_w : Rect S2x64 := Rect.unit (s := S2x64) ![0, 0] S2x64.size inb_S2x64_S2x64_0_0
abbrev r5_b : Rect S1x2 := Rect.unit (s := S1x2) ![0, 0] S1x2.size inb_S1x2_S1x2_0_0
abbrev r5_o : Rect S5000x2 := Rect.unit (s := S5000x2) ![0, 0] S5000x2.size inb_S5000x2_S5000x2_0_0

/-- What the body leaves in the output block, from the three input blocks: its one store, of the stage's value. -/
def out5_3 (x0 : Vec F S5000x64 .f32) (x1 : Vec F S2x64 .f32) (x2 : Vec F S1x2 .f32) : Vec F S5000x2 .f32 :=
  View.canon [⟨r5_o, k5_pay1 (View.ld x0 r5_x) (View.ld x1 r5_w) (View.ld x2 r5_b)⟩]

/-- The one store is of the whole block, so it covers it. -/
theorem cover5_3 (p0 : Vec F S5000x2 .f32) (y : S5000x2.Idx) :
    ∃ pc ∈ ([⟨r5_o, p0⟩] : List (View.Piece (Elt F) S5000x2 .f32)), y ∈ pc.1.set :=
  View.cover_of_tiled [⟨r5_o, p0⟩] S5000x2.size (by rfl) y

set_option maxHeartbeats 1000000 in
/-- The body on whole staging buffers, the inputs' at contents `x0 x1 x2` and the output's at anything, runs to the end
    leaving the inputs' as they were and the output's at `out5_3 x0 x1 x2`. -/
theorem sound_kernel5 (c : Dev nD) (E : Set ℕ) (i : grid5.Coords)
    (arg1 : Memref sig .tc .vmem S5000x64 .f32) (harg1 : arg1.IsWhole) (arg2 : Memref sig .tc .vmem S2x64 .f32) (harg2 : arg2.IsWhole)
    (arg3 : Memref sig .tc .vmem S1x2 .f32) (harg3 : arg3.IsWhole) (arg4 : Memref sig .tc .vmem S5000x2 .f32) (harg4 : arg4.IsWhole)
    (x0 : Vec F S5000x64 .f32) (x1 : Vec F S2x64 .f32) (x2 : Vec F S1x2 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__dense_kernel i arg1 harg1 arg2 harg2 arg3 harg3 arg4 harg4) K := by
  simp only [cc5__dense_kernel_eq_skeleton]; unfold cc5__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The region's proof data on core `c`: the arrays as the region finds them; after the body at point `t` each input's
    buffer still at its block and the output's at `out5_3` of the three input blocks; the invariant the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' buffers hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Stage

end
-- ==== Proof.KiRun.lean ====
/-
  The whole run of the program: six dense stages among stretches of host operations.
  The buffers' contents at every boundary are a fold from the launch memory: a stretch of host operations applies them
  (`StableHlo.after`), and a stage changes one buffer only, its output, to what its blocks' write-backs leave
  (`arrAt` of the stage's proof data at the last point).  Every stage is a region of the pipeline library entered
  from "every unscoped buffer at the boundary's contents" and left at the next boundary's; the launch theorem for
  several regions then says every weakly fair execution terminates, without a fault, with every unscoped buffer at
  the last boundary's contents `W12`.
-/
import proofs.«115876_j36043365548319_1_alg».proof.Proof.KiRegion0
import proofs.«115876_j36043365548319_1_alg».proof.Proof.KiRegion1
import proofs.«115876_j36043365548319_1_alg».proof.Proof.KiRegion2
import proofs.«115876_j36043365548319_1_alg».proof.Proof.KiRegion3
import proofs.«115876_j36043365548319_1_alg».proof.Proof.KiRegion4
import proofs.«115876_j36043365548319_1_alg».proof.Proof.KiRegion5
import proofs.«115876_j36043365548319_1_alg».proof.Proof.Gen.KernelIdeal.Regions

set_option maxRecDepth 16384

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)

/-- After the host stretch `hostOps0`: stage 0's entry. -/
abbrev W1 : Dev nD → Valuation τ sig (Elt F) := fun c => StableHlo.after hostOps0 (W0 m ρ c)
/-- The same read at the TensorCore's references. -/
abbrev U1 : (c : Dev nD) → (b : Ref sig .tc) → Buf (Elt F) ((c : Thread nD τ).loc b) := fun c b => W1 m ρ c b
/-- What stage 0 leaves in its output array `main_v10`: its blocks' write-backs folded over the grid. -/
def res0 (c : Dev nD) : Buf (Elt F) ((c : Thread nD τ).loc main_v10) := (dat0 (U1 m ρ) c).arrAt 3 cfg0.N
/-- At stage 0's exit: `main_v10` at what the stage leaves, every other buffer as entered. -/
def W2 (c : Dev nD) : Valuation τ sig (Elt F) := Function.update (W1 m ρ c) main_v10 (res0 m ρ c)
abbrev U2 : (c : Dev nD) → (b : Ref sig .tc) → Buf (Elt F) ((c : Thread nD τ).loc b) := fun c b => W2 m ρ c b
theorem W2_out (c : Dev nD) : W2 m ρ c main_v10 = res0 m ρ c := by
  unfold W2; exact Function.update_self _ _ _
theorem W2_of (c : Dev nD) (r : Ref sig .tc) (h : r ≠ main_v10) : W2 m ρ c r = W1 m ρ c r := by
  unfold W2; exact Function.update_of_ne (StableHlo.devRef_ne_of_ne h) _ _
theorem W1_of (c : Dev nD) (r : Ref sig .tc) (h : r ∉ (hostOps0_W : List (Ref sig .tc))) : W1 m ρ c r = W0 m ρ c r :=
  StableHlo.after_of_writes_sub hostOps0 _ hostOps0_writes h
/-- At the exit each array of the stage holds what the pipeline leaves (an input: what it held; the output: the
    write-backs), and every other buffer what it held at entry. -/
theorem hF0 (c : Dev nD) (w : Fin cfg0.W) : (dat0 (U1 m ρ) c).arrAt w cfg0.N = U2 m ρ c (Pipeline.arrRef spec0 w) :=
  match w with
  | ⟨0, _⟩ => (((dat0 (U1 m ρ) c).arrAt_in 0 rfl _).trans (A_eq0 (U1 m ρ) c 0)).trans (W2_of m ρ c main_arg0 (by decide)).symm
  | ⟨1, _⟩ => (((dat0 (U1 m ρ) c).arrAt_in 1 rfl _).trans (A_eq0 (U1 m ρ) c 1)).trans (W2_of m ρ c main_arg3 (by decide)).symm
  | ⟨2, _⟩ => (((dat0 (U1 m ρ) c).arrAt_in 2 rfl _).trans (A_eq0 (U1 m ρ) c 2)).trans (W2_of m ρ c main_v9 (by decide)).symm
  | ⟨3, _⟩ => (W2_out m ρ c).symm
theorem hrest0 (c : Dev nD) : ∀ b, b ∉ Finset.univ.image (Pipeline.arrRef spec0) → U2 m ρ c b = U1 m ρ c b :=
  fun b hb => W2_of m ρ c b fun e => hb (Finset.mem_image.mpr ⟨3, Finset.mem_univ _, e.symm⟩)

/-- After the host stretch `hostOps1`: stage 1's entry. -/
abbrev W3 : Dev nD → Valuation τ sig (Elt F) := fun c => StableHlo.after hostOps1 (W2 m ρ c)
/-- The same read at the TensorCore's references. -/
abbrev U3 : (c : Dev nD) → (b : Ref sig .tc) → Buf (Elt F) ((c : Thread nD τ).loc b) := fun c b => W3 m ρ c b
/-- What stage 1 leaves in its output array `main_v12`: its blocks' write-backs folded over the grid. -/
def res1 (c : Dev nD) : Buf (Elt F) ((c : Thread nD τ).loc main_v12) := (dat1 (U3 m ρ) c).arrAt 3 cfg1.N
/-- At stage 1's exit: `main_v12` at what the stage leaves, every other buffer as entered. -/
def W4 (c : Dev nD) : Valuation τ sig (Elt F) := Function.update (W3 m ρ c) main_v12 (res1 m ρ c)
abbrev U4 : (c : Dev nD) → (b : Ref sig .tc) → Buf (Elt F) ((c : Thread nD τ).loc b) := fun c b => W4 m ρ c b
theorem W4_out (c : Dev nD) : W4 m ρ c main_v12 = res1 m ρ c := by
  unfold W4; exact Function.update_self _ _ _
theorem W4_of (c : Dev nD) (r : Ref sig .tc) (h : r ≠ main_v12) : W4 m ρ c r = W3 m ρ c r := by
  unfold W4; exact Function.update_of_ne (StableHlo.devRef_ne_of_ne h) _ _
theorem W3_of (c : Dev nD) (r : Ref sig .tc) (h : r ∉ (hostOps1_W : List (Ref sig .tc))) : W3 m ρ c r = W2 m ρ c r :=
  StableHlo.after_of_writes_sub hostOps1 _ hostOps1_writes h
/-- At the exit each array of the stage holds what the pipeline leaves (an input: what it held; the output: the
    write-backs), and every other buffer what it held at entry. -/
theorem hF1 (c : Dev nD) (w : Fin cfg1.W) : (dat1 (U3 m ρ) c).arrAt w cfg1.N = U4 m ρ c (Pipeline.arrRef spec1 w) :=
  match w with
  | ⟨0, _⟩ => (((dat1 (U3 m ρ) c).arrAt_in 0 rfl _).trans (A_eq1 (U3 m ρ) c 0)).trans (W4_of m ρ c main_v10 (by decide)).symm
  | ⟨1, _⟩ => (((dat1 (U3 m ρ) c).arrAt_in 1 rfl _).trans (A_eq1 (U3 m ρ) c 1)).trans (W4_of m ρ c main_arg5 (by decide)).symm
  | ⟨2, _⟩ => (((dat1 (U3 m ρ) c).arrAt_in 2 rfl _).trans (A_eq1 (U3 m ρ) c 2)).trans (W4_of m ρ c main_v11 (by decide)).symm
  | ⟨3, _⟩ => (W4_out m ρ c).symm
theorem hrest1 (c : Dev nD) : ∀ b, b ∉ Finset.univ.image (Pipeline.arrRef spec1) → U4 m ρ c b = U3 m ρ c b :=
  fun b hb => W4_of m ρ c b fun e => hb (Finset.mem_image.mpr ⟨3, Finset.mem_univ _, e.symm⟩)

/-- After the host stretch `hostOps2`: stage 2's entry. -/
abbrev W5 : Dev nD → Valuation τ sig (Elt F) := fun c => StableHlo.after hostOps2 (W4 m ρ c)
/-- The same read at the TensorCore's references. -/
abbrev U5 : (c : Dev nD) → (b : Ref sig .tc) → Buf (Elt F) ((c : Thread nD τ).loc b) := fun c b => W5 m ρ c b
/-- What stage 2 leaves in its output array `main_v54`: its blocks' write-backs folded over the grid. -/
def res2 (c : Dev nD) : Buf (Elt F) ((c : Thread nD τ).loc main_v54) := (dat2 (U5 m ρ) c).arrAt 3 cfg2.N
/-- At stage 2's exit: `main_v54` at what the stage leaves, every other buffer as entered. -/
def W6 (c : Dev nD) : Valuation τ sig (Elt F) := Function.update (W5 m ρ c) main_v54 (res2 m ρ c)
abbrev U6 : (c : Dev nD) → (b : Ref sig .tc) → Buf (Elt F) ((c : Thread nD τ).loc b) := fun c b => W6 m ρ c b
theorem W6_out (c : Dev nD) : W6 m ρ c main_v54 = res2 m ρ c := by
  unfold W6; exact Function.update_self _ _ _
theorem W6_of (c : Dev nD) (r : Ref sig .tc) (h : r ≠ main_v54) : W6 m ρ c r = W5 m ρ c r := by
  unfold W6; exact Function.update_of_ne (StableHlo.devRef_ne_of_ne h) _ _
theorem W5_of (c : Dev nD) (r : Ref sig .tc) (h : r ∉ (hostOps2_W : List (Ref sig .tc))) : W5 m ρ c r = W4 m ρ c r :=
  StableHlo.after_of_writes_sub hostOps2 _ hostOps2_writes h
/-- At the exit each array of the stage holds what the pipeline leaves (an input: what it held; the output: the
    write-backs), and every other buffer what it held at entry. -/
theorem hF2 (c : Dev nD) (w : Fin cfg2.W) : (dat2 (U5 m ρ) c).arrAt w cfg2.N = U6 m ρ c (Pipeline.arrRef spec2 w) :=
  match w with
  | ⟨0, _⟩ => (((dat2 (U5 m ρ) c).arrAt_in 0 rfl _).trans (A_eq2 (U5 m ρ) c 0)).trans (W6_of m ρ c main_v52 (by decide)).symm
  | ⟨1, _⟩ => (((dat2 (U5 m ρ) c).arrAt_in 1 rfl _).trans (A_eq2 (U5 m ρ) c 1)).trans (W6_of m ρ c main_arg7 (by decide)).symm
  | ⟨2, _⟩ => (((dat2 (U5 m ρ) c).arrAt_in 2 rfl _).trans (A_eq2 (U5 m ρ) c 2)).trans (W6_of m ρ c main_v53 (by decide)).symm
  | ⟨3, _⟩ => (W6_out m ρ c).symm
theorem hrest2 (c : Dev nD) : ∀ b, b ∉ Finset.univ.image (Pipeline.arrRef spec2) → U6 m ρ c b = U5 m ρ c b :=
  fun b hb => W6_of m ρ c b fun e => hb (Finset.mem_image.mpr ⟨3, Finset.mem_univ _, e.symm⟩)

/-- After the host stretch `hostOps3`: stage 3's entry. -/
abbrev W7 : Dev nD → Valuation τ sig (Elt F) := fun c => StableHlo.after hostOps3 (W6 m ρ c)
/-- The same read at the TensorCore's references. -/
abbrev U7 : (c : Dev nD) → (b : Ref sig .tc) → Buf (Elt F) ((c : Thread nD τ).loc b) := fun c b => W7 m ρ c b
/-- What stage 3 leaves in its output array `main_v96`: its blocks' write-backs folded over the grid. -/
def res3 (c : Dev nD) : Buf (Elt F) ((c : Thread nD τ).loc main_v96) := (dat3 (U7 m ρ) c).arrAt 3 cfg3.N
/-- At stage 3's exit: `main_v96` at what the stage leaves, every other buffer as entered. -/
def W8 (c : Dev nD) : Valuation τ sig (Elt F) := Function.update (W7 m ρ c) main_v96 (res3 m ρ c)
abbrev U8 : (c : Dev nD) → (b : Ref sig .tc) → Buf (Elt F) ((c : Thread nD τ).loc b) := fun c b => W8 m ρ c b
theorem W8_out (c : Dev nD) : W8 m ρ c main_v96 = res3 m ρ c := by
  unfold W8; exact Function.update_self _ _ _
theorem W8_of (c : Dev nD) (r : Ref sig .tc) (h : r ≠ main_v96) : W8 m ρ c r = W7 m ρ c r := by
  unfold W8; exact Function.update_of_ne (StableHlo.devRef_ne_of_ne h) _ _
theorem W7_of (c : Dev nD) (r : Ref sig .tc) (h : r ∉ (hostOps3_W : List (Ref sig .tc))) : W7 m ρ c r = W6 m ρ c r :=
  StableHlo.after_of_writes_sub hostOps3 _ hostOps3_writes h
/-- At the exit each array of the stage holds what the pipeline leaves (an input: what it held; the output: the
    write-backs), and every other buffer what it held at entry. -/
theorem hF3 (c : Dev nD) (w : Fin cfg3.W) : (dat3 (U7 m ρ) c).arrAt w cfg3.N = U8 m ρ c (Pipeline.arrRef spec3 w) :=
  match w with
  | ⟨0, _⟩ => (((dat3 (U7 m ρ) c).arrAt_in 0 rfl _).trans (A_eq3 (U7 m ρ) c 0)).trans (W8_of m ρ c main_v94 (by decide)).symm
  | ⟨1, _⟩ => (((dat3 (U7 m ρ) c).arrAt_in 1 rfl _).trans (A_eq3 (U7 m ρ) c 1)).trans (W8_of m ρ c main_arg9 (by decide)).symm
  | ⟨2, _⟩ => (((dat3 (U7 m ρ) c).arrAt_in 2 rfl _).trans (A_eq3 (U7 m ρ) c 2)).trans (W8_of m ρ c main_v95 (by decide)).symm
  | ⟨3, _⟩ => (W8_out m ρ c).symm
theorem hrest3 (c : Dev nD) : ∀ b, b ∉ Finset.univ.image (Pipeline.arrRef spec3) → U8 m ρ c b = U7 m ρ c b :=
  fun b hb => W8_of m ρ c b fun e => hb (Finset.mem_image.mpr ⟨3, Finset.mem_univ _, e.symm⟩)

/-- After the host stretch `hostOps4`: stage 4's entry. -/
abbrev W9 : Dev nD → Valuation τ sig (Elt F) := fun c => StableHlo.after hostOps4 (W8 m ρ c)
/-- The same read at the TensorCore's references. -/
abbrev U9 : (c : Dev nD) → (b : Ref sig .tc) → Buf (Elt F) ((c : Thread nD τ).loc b) := fun c b => W9 m ρ c b
/-- What stage 4 leaves in its output array `main_v98`: its blocks' write-backs folded over the grid. -/
def res4 (c : Dev nD) : Buf (Elt F) ((c : Thread nD τ).loc main_v98) := (dat4 (U9 m ρ) c).arrAt 3 cfg4.N
/-- At stage 4's exit: `main_v98` at what the stage leaves, every other buffer as entered. -/
def W10 (c : Dev nD) : Valuation τ sig (Elt F) := Function.update (W9 m ρ c) main_v98 (res4 m ρ c)
abbrev U10 : (c : Dev nD) → (b : Ref sig .tc) → Buf (Elt F) ((c : Thread nD τ).loc b) := fun c b => W10 m ρ c b
theorem W10_out (c : Dev nD) : W10 m ρ c main_v98 = res4 m ρ c := by
  unfold W10; exact Function.update_self _ _ _
theorem W10_of (c : Dev nD) (r : Ref sig .tc) (h : r ≠ main_v98) : W10 m ρ c r = W9 m ρ c r := by
  unfold W10; exact Function.update_of_ne (StableHlo.devRef_ne_of_ne h) _ _
theorem W9_of (c : Dev nD) (r : Ref sig .tc) (h : r ∉ (hostOps4_W : List (Ref sig .tc))) : W9 m ρ c r = W8 m ρ c r :=
  StableHlo.after_of_writes_sub hostOps4 _ hostOps4_writes h
/-- At the exit each array of the stage holds what the pipeline leaves (an input: what it held; the output: the
    write-backs), and every other buffer what it held at entry. -/
theorem hF4 (c : Dev nD) (w : Fin cfg4.W) : (dat4 (U9 m ρ) c).arrAt w cfg4.N = U10 m ρ c (Pipeline.arrRef spec4 w) :=
  match w with
  | ⟨0, _⟩ => (((dat4 (U9 m ρ) c).arrAt_in 0 rfl _).trans (A_eq4 (U9 m ρ) c 0)).trans (W10_of m ρ c main_v96 (by decide)).symm
  | ⟨1, _⟩ => (((dat4 (U9 m ρ) c).arrAt_in 1 rfl _).trans (A_eq4 (U9 m ρ) c 1)).trans (W10_of m ρ c main_arg11 (by decide)).symm
  | ⟨2, _⟩ => (((dat4 (U9 m ρ) c).arrAt_in 2 rfl _).trans (A_eq4 (U9 m ρ) c 2)).trans (W10_of m ρ c main_v97 (by decide)).symm
  | ⟨3, _⟩ => (W10_out m ρ c).symm
theorem hrest4 (c : Dev nD) : ∀ b, b ∉ Finset.univ.image (Pipeline.arrRef spec4) → U10 m ρ c b = U9 m ρ c b :=
  fun b hb => W10_of m ρ c b fun e => hb (Finset.mem_image.mpr ⟨3, Finset.mem_univ _, e.symm⟩)

/-- After the host stretch `hostOps5`: stage 5's entry. -/
abbrev W11 : Dev nD → Valuation τ sig (Elt F) := fun c => StableHlo.after hostOps5 (W10 m ρ c)
/-- The same read at the TensorCore's references. -/
abbrev U11 : (c : Dev nD) → (b : Ref sig .tc) → Buf (Elt F) ((c : Thread nD τ).loc b) := fun c b => W11 m ρ c b
/-- What stage 5 leaves in its output array `main_v100`: its blocks' write-backs folded over the grid. -/
def res5 (c : Dev nD) : Buf (Elt F) ((c : Thread nD τ).loc main_v100) := (dat5 (U11 m ρ) c).arrAt 3 cfg5.N
/-- At stage 5's exit: `main_v100` at what the stage leaves, every other buffer as entered. -/
def W12 (c : Dev nD) : Valuation τ sig (Elt F) := Function.update (W11 m ρ c) main_v100 (res5 m ρ c)
abbrev U12 : (c : Dev nD) → (b : Ref sig .tc) → Buf (Elt F) ((c : Thread nD τ).loc b) := fun c b => W12 m ρ c b
theorem W12_out (c : Dev nD) : W12 m ρ c main_v100 = res5 m ρ c := by
  unfold W12; exact Function.update_self _ _ _
theorem W12_of (c : Dev nD) (r : Ref sig .tc) (h : r ≠ main_v100) : W12 m ρ c r = W11 m ρ c r := by
  unfold W12; exact Function.update_of_ne (StableHlo.devRef_ne_of_ne h) _ _
theorem W11_of (c : Dev nD) (r : Ref sig .tc) (h : r ∉ (hostOps5_W : List (Ref sig .tc))) : W11 m ρ c r = W10 m ρ c r :=
  StableHlo.after_of_writes_sub hostOps5 _ hostOps5_writes h
/-- At the exit each array of the stage holds what the pipeline leaves (an input: what it held; the output: the
    write-backs), and every other buffer what it held at entry. -/
theorem hF5 (c : Dev nD) (w : Fin cfg5.W) : (dat5 (U11 m ρ) c).arrAt w cfg5.N = U12 m ρ c (Pipeline.arrRef spec5 w) :=
  match w with
  | ⟨0, _⟩ => (((dat5 (U11 m ρ) c).arrAt_in 0 rfl _).trans (A_eq5 (U11 m ρ) c 0)).trans (W12_of m ρ c main_v98 (by decide)).symm
  | ⟨1, _⟩ => (((dat5 (U11 m ρ) c).arrAt_in 1 rfl _).trans (A_eq5 (U11 m ρ) c 1)).trans (W12_of m ρ c main_arg13 (by decide)).symm
  | ⟨2, _⟩ => (((dat5 (U11 m ρ) c).arrAt_in 2 rfl _).trans (A_eq5 (U11 m ρ) c 2)).trans (W12_of m ρ c main_v99 (by decide)).symm
  | ⟨3, _⟩ => (W12_out m ρ c).symm
theorem hrest5 (c : Dev nD) : ∀ b, b ∉ Finset.univ.image (Pipeline.arrRef spec5) → U12 m ρ c b = U11 m ρ c b :=
  fun b hb => W12_of m ρ c b fun e => hb (Finset.mem_image.mpr ⟨3, Finset.mem_univ _, e.symm⟩)

/-! ## The proof data family and the thread state -/

abbrev adm' : (p : Fin 6) → (pcfgs (F := F) p).Adm := fun p => (cfgs p).toPCfg_adm
/-- Every stage's proof data, each at its entry contents — a literal match on the stage's number. -/
def pdats : (p : Fin 6) → (c : Dev nD) → Dat τ (Elt F) Unit ℕ (UR sig nD τ) ℕ (Pipeline.pin (pcfgs (F := F)) adm' p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
  | ⟨4, _⟩ => fun c => dat4 (U9 m ρ) c
  | ⟨5, _⟩ => fun c => dat5 (U11 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W12`, the generator register at some state. -/
abbrev Tₙ (c : Dev nD) : sProp 𝕄 := iprop(StableHlo.held (c : Thread nD τ) (Pipeline.ucRefs τ sig) (W12 m ρ c) ∗ ∃ r, prngReg c r)

/-! ## The stages as regions -/

set_option backward.isDefEq.respectTransparency.types false in
/-- Stage 0 over the thread state: entered from every unscoped buffer at `W1`, left at `W2`.  Its arrays are split out
    of the unscoped buffers and put back at the exit contents; the generator register goes into the stage's invariant
    and comes back; nothing is owed; the kernel has no semaphore of its own. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 1 over the thread state: entered from every unscoped buffer at `W3`, left at `W4`.  Its arrays are split out
    of the unscoped buffers and put back at the exit contents; the generator register goes into the stage's invariant
    and comes back; nothing is owed; the kernel has no semaphore of its own. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 2 over the thread state: entered from every unscoped buffer at `W5`, left at `W6`.  Its arrays are split out
    of the unscoped buffers and put back at the exit contents; the generator register goes into the stage's invariant
    and comes back; nothing is owed; the kernel has no semaphore of its own. -/
def reg2 : Pipeline.RegionSeg (pcfgs (F := F)) adm' (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm' (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 3 over the thread state: entered from every unscoped buffer at `W7`, left at `W8`.  Its arrays are split out
    of the unscoped buffers and put back at the exit contents; the generator register goes into the stage's invariant
    and comes back; nothing is owed; the kernel has no semaphore of its own. -/
def reg3 : Pipeline.RegionSeg (pcfgs (F := F)) adm' (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (U7 m ρ c)
  hentry c := by
    rw [Pipeline.ownSems0_none]
    have hsplit := Pipeline.arrays_of_unscopedBufs (p := 3) (pcfgs (F := F)) adm' (pdats m ρ) launch3.win launch3.arr_whole c
      ((pdats m ρ 3 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm' (Ix := Unit) (Name := ℕ) (U := UR sig nD τ) (Lvl := ℕ)
      launch3.win launch3.arr_whole c (pdats m ρ) ((pdats m ρ 3 c).share_full fun _ => rfl)
      (U7 m ρ c) (U8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 4 over the thread state: entered from every unscoped buffer at `W9`, left at `W10`.  Its arrays are split out
    of the unscoped buffers and put back at the exit contents; the generator register goes into the stage's invariant
    and comes back; nothing is owed; the kernel has no semaphore of its own. -/
def reg4 : Pipeline.RegionSeg (pcfgs (F := F)) adm' (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (U9 m ρ c)
  hentry c := by
    rw [Pipeline.ownSems0_none]
    have hsplit := Pipeline.arrays_of_unscopedBufs (p := 4) (pcfgs (F := F)) adm' (pdats m ρ) launch4.win launch4.arr_whole c
      ((pdats m ρ 4 c).share_full fun _ => rfl) (U9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm' (Ix := Unit) (Name := ℕ) (U := UR sig nD τ) (Lvl := ℕ)
      launch4.win launch4.arr_whole c (pdats m ρ) ((pdats m ρ 4 c).share_full fun _ => rfl)
      (U9 m ρ c) (U10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 5 over the thread state: entered from every unscoped buffer at `W11`, left at `W12`.  Its arrays are split out
    of the unscoped buffers and put back at the exit contents; the generator register goes into the stage's invariant
    and comes back; nothing is owed; the kernel has no semaphore of its own. -/
def reg5 : Pipeline.RegionSeg (pcfgs (F := F)) adm' (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (U11 m ρ c)
  hentry c := by
    rw [Pipeline.ownSems0_none]
    have hsplit := Pipeline.arrays_of_unscopedBufs (p := 5) (pcfgs (F := F)) adm' (pdats m ρ) launch5.win launch5.arr_whole c
      ((pdats m ρ 5 c).share_full fun _ => rfl) (U11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm' (Ix := Unit) (Name := ℕ) (U := UR sig nD τ) (Lvl := ℕ)
      launch5.win launch5.arr_whole c (pdats m ρ) ((pdats m ρ 5 c).share_full fun _ => rfl)
      (U11 m ρ c) (U12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's twelve segments in order: a host segment per stretch from its boundary's contents, a region per stage. -/
abbrev segs : List (Pipeline.Seg (pcfgs (F := F)) adm' (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ) ]
/-- The program IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of the program on the TensorCores terminates,
    nothing faulting, and in every final state each unscoped buffer holds the last boundary's contents `W12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-! ## What reaches the end untouched -/

/-- A buffer that no host stretch writes and that is no stage's output holds at the end what it held at launch. -/
theorem W12_keep (c : Dev nD) (r : Ref sig .tc)
    (h1 : r ∉ (hostOps0_W : List (Ref sig .tc))) (h2 : r ≠ main_v10) (h3 : r ∉ (hostOps1_W : List (Ref sig .tc))) (h4 : r ≠ main_v12) (h5 : r ∉ (hostOps2_W : List (Ref sig .tc))) (h6 : r ≠ main_v54) (h7 : r ∉ (hostOps3_W : List (Ref sig .tc))) (h8 : r ≠ main_v96) (h9 : r ∉ (hostOps4_W : List (Ref sig .tc))) (h10 : r ≠ main_v98) (h11 : r ∉ (hostOps5_W : List (Ref sig .tc))) (h12 : r ≠ main_v100) :
    W12 m ρ c r = W0 m ρ c r :=
  (W12_of m ρ c r h12).trans <| (W11_of m ρ c r h11).trans <| (W10_of m ρ c r h10).trans <| (W9_of m ρ c r h9).trans <| (W8_of m ρ c r h8).trans <| (W7_of m ρ c r h7).trans <| (W6_of m ρ c r h6).trans <| (W5_of m ρ c r h5).trans <| (W4_of m ρ c r h4).trans <| (W3_of m ρ c r h3).trans <| (W2_of m ρ c r h2).trans <| W1_of m ρ c r h1

end Cert.KernelIdeal.Stage

end
-- ==== Proof.KiFrame.lean ====
/-
  The frame of the program: it runs to the end, faults nowhere, and every argument array ends holding its launch
  contents.  No host operation writes an argument and no stage's output is one, so the last boundary's contents at an
  argument's buffer are the launch memory's; the run ends with every unscoped buffer at the last boundary's contents.
-/
import proofs.«115876_j36043365548319_1_alg».proof.Proof.KiRun

set_option maxRecDepth 16384

noncomputable section

namespace Cert.KernelIdeal.Stage

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- An unscoped buffer that nothing writes is, in any final state of the run, as launched. -/
theorem kept_of (r : PUnit × MemSt nD τ sig (Elt F))
    (h : ∀ c : Dev nD, ∀ b ∈ Pipeline.ucRefs τ sig, r.2.mem (((c : Thread nD τ)).1, b) = W12 m ρ c b)
    (c : Dev nD) (a : Ref sig .tc) (hu : ¬ (Proc.devRef .tc a : DevRef τ sig).isScoped)
    (h1 : a ∉ (hostOps0_W : List (Ref sig .tc))) (h2 : a ≠ main_v10) (h3 : a ∉ (hostOps1_W : List (Ref sig .tc))) (h4 : a ≠ main_v12) (h5 : a ∉ (hostOps2_W : List (Ref sig .tc))) (h6 : a ≠ main_v54) (h7 : a ∉ (hostOps3_W : List (Ref sig .tc))) (h8 : a ≠ main_v96) (h9 : a ∉ (hostOps4_W : List (Ref sig .tc))) (h10 : a ≠ main_v98) (h11 : a ∉ (hostOps5_W : List (Ref sig .tc))) (h12 : a ≠ main_v100) :
    r.2.mem ((c.tc : Thread nD τ).loc a) = m ((c.tc : Thread nD τ).loc a) :=
  (h c _ (mem_uc a hu)).trans ((W12_keep m ρ c a h1 h2 h3 h4 h5 h6 h7 h8 h9 h10 h11 h12).trans rfl)

/-- In any final state of the run every argument array is as launched. -/
theorem kept_all (r : PUnit × MemSt nD τ sig (Elt F))
    (h : ∀ c : Dev nD, ∀ b ∈ Pipeline.ucRefs τ sig, r.2.mem (((c : Thread nD τ)).1, b) = W12 m ρ c b) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨kept_of m ρ r h c main_arg0 (by decide) (by decide) (by decide) (by decide) (by decide) (by decide) (by decide) (by decide) (by decide) (by decide) (by decide) (by decide) (by decide),
    kept_of m ρ r h c main_arg1 (by decide) (by decide) (by decide) (by decide) (by decide) (by decide) (by decide) (by decide) (by decide) (by decide) (by decide) (by decide) (by decide),
    kept_of m ρ r h c main_arg2 (by decide) (by decide) (by decide) (by decide) (by decide) (by decide) (by decide) (by decide) (by decide) (by decide) (by decide) (by decide) (by decide),
    kept_of m ρ r h c main_arg3 (by decide) (by decide) (by decide) (by decide) (by decide) (by decide) (by decide) (by decide) (by decide) (by decide) (by decide) (by decide) (by decide),
    kept_of m ρ r h c main_arg4 (by decide) (by decide) (by decide) (by decide) (by decide) (by decide) (by decide) (by decide) (by decide) (by decide) (by decide) (by decide) (by decide),
    kept_of m ρ r h c main_arg5 (by decide) (by decide) (by decide) (by decide) (by decide) (by decide) (by decide) (by decide) (by decide) (by decide) (by decide) (by decide) (by decide),
    kept_of m ρ r h c main_arg6 (by decide) (by decide) (by decide) (by decide) (by decide) (by decide) (by decide) (by decide) (by decide) (by decide) (by decide) (by decide) (by decide),
    kept_of m ρ r h c main_arg7 (by decide) (by decide) (by decide) (by decide) (by decide) (by decide) (by decide) (by decide) (by decide) (by decide) (by decide) (by decide) (by decide),
    kept_of m ρ r h c main_arg8 (by decide) (by decide) (by decide) (by decide) (by decide) (by decide) (by decide) (by decide) (by decide) (by decide) (by decide) (by decide) (by decide),
    kept_of m ρ r h c main_arg9 (by decide) (by decide) (by decide) (by decide) (by decide) (by decide) (by decide) (by decide) (by decide) (by decide) (by decide) (by decide) (by decide),
    kept_of m ρ r h c main_arg10 (by decide) (by decide) (by decide) (by decide) (by decide) (by decide) (by decide) (by decide) (by decide) (by decide) (by decide) (by decide) (by decide),
    kept_of m ρ r h c main_arg11 (by decide) (by decide) (by decide) (by decide) (by decide) (by decide) (by decide) (by decide) (by decide) (by decide) (by decide) (by decide) (by decide),
    kept_of m ρ r h c main_arg12 (by decide) (by decide) (by decide) (by decide) (by decide) (by decide) (by decide) (by decide) (by decide) (by decide) (by decide) (by decide) (by decide),
    kept_of m ρ r h c main_arg13 (by decide) (by decide) (by decide) (by decide) (by decide) (by decide) (by decide) (by decide) (by decide) (by decide) (by decide) (by decide) (by decide),
    kept_of m ρ r h c main_arg14 (by decide) (by decide) (by decide) (by decide) (by decide) (by decide) (by decide) (by decide) (by decide) (by decide) (by decide) (by decide) (by decide)⟩

/-- THE FRAME, at any float model. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => kept_all m ρ r h c) (run_all m ρ)

end Cert.KernelIdeal.Stage

end
-- ==== Proof.StageVal.lean ====
/-
  The value of one dense stage at one output position.

  A dense stage maps a row x of the input and a row w of the weight matrix to the inner product of the two rows
  plus a bias, optionally followed by the maximum with zero. On the extended reals every operation is exact, so
  the value is a closed expression in the two rows and the bias.
-/
import Idealize.ShloMosaic.PureOps.Ideal
import Idealize.ShloMosaic.Lib.ValueIdx

noncomputable section

namespace Cert.StageLaw

open Idealize.ShloMosaic Idealize.ShloMosaic.ValueIdx
open scoped BigOperators

/-- The stage without the rectifier: the inner product of the two rows plus the bias. -/
noncomputable def linVal {kk : Nat} (xr wr : Fin kk → EReal) (bias : EReal) : EReal :=
  (∑ k : Fin kk, xr k * wr k) + bias

/-- The stage with the rectifier: the maximum of the linear value and the zero of f32. -/
noncomputable def reluVal {kk : Nat} (xr wr : Fin kk → EReal) (bias : EReal) : EReal :=
  max (linVal xr wr bias) (Ideal.ofBits .f32 0x00000000#32)

end Cert.StageLaw

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.LibMergeRows.lean ====
/-
  Two leading axes merged into one, and split again, read at an index.

  An a × b × c array reshaped to r × c with r = a · b keeps its row-major order, so row (p, q) of the a × b grid of
  length-c rows becomes flat row b · p + q: the reshaped array at (b · p + q, k) is the array at (p, q, k), and an
  r × c array reshaped to a × b × c reads, at (p, q, k), the flat array at (b · p + q, k). For any element type and any
  extents; the number of flat rows is a separate variable with the equation r = a · b as a hypothesis, so that a
  literal such as 65536 need not be spelt as a product.
-/
import Idealize.ShloMosaic.Lib.Pipeline.Value
import Idealize.ShloMosaic.Lib.ValueIdx

noncomputable section

namespace Cert.Lib.MergeRows

open Idealize.ShloMosaic Idealize.ShloMosaic.ValueIdx

variable {a b c r : Nat}

/-- Flat row b · p + q of the r = a · b rows. -/
abbrev flatRow (hr : r = a * b) (p : Fin a) (q : Fin b) : Fin r :=
  ⟨p.val * b + q.val, by
    have hp := p.isLt
    have hq := q.isLt
    have h1 : p.val * b + b ≤ a * b := by
      have := Nat.mul_le_mul_right b (Nat.succ_le_of_lt hp)
      rwa [Nat.succ_mul] at this
    omega⟩

/-- The merged array at (b · p + q, k) is the array at (p, q, k). -/
theorem merge_apply {α : Type} (hr : r = a * b) (x : (⟨3, ![a, b, c]⟩ : Shape).Idx → α)
    (h : (⟨3, ![a, b, c]⟩ : Shape).ShapeCasts ⟨2, ![r, c]⟩) (p : Fin a) (q : Fin b) (k : Fin c) :
    shapeCast ⟨2, ![r, c]⟩ x h (ix2 (flatRow hr p q) k) = x (ix3 p q k) :=
  shapeCast_apply x h _ _ (by
    rw [Shape.rowMajor_val_two, Shape.rowMajor_val_three]
    rfl)

/-- The split array at (p, q, k) is the flat array at (b · p + q, k). -/
theorem split_apply {α : Type} (hr : r = a * b) (y : (⟨2, ![r, c]⟩ : Shape).Idx → α)
    (h : (⟨2, ![r, c]⟩ : Shape).ShapeCasts ⟨3, ![a, b, c]⟩) (p : Fin a) (q : Fin b) (k : Fin c) :
    shapeCast ⟨3, ![a, b, c]⟩ y h (ix3 p q k) = y (ix2 (flatRow hr p q) k) :=
  shapeCast_apply y h _ _ (by
    rw [Shape.rowMajor_val_two, Shape.rowMajor_val_three]
    rfl)

/-- A length-b vector reshaped to a 1 × b row reads, at (0, q), the vector at q. -/
theorem row_apply {α : Type} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) :=
  shapeCast_apply v h _ _ (by
    rw [Shape.rowMajor_val_two, Shape.rowMajor_val_one]
    show q.val = 0 * b + q.val
    omega)

/-- Entry (k, o) of the transpose of an a × b matrix is entry (o, k) of the matrix. -/
theorem transpose_apply {α : Type} (L : (⟨2, ![a, b]⟩ : Shape).Idx → α)
    (h : (⟨2, ![a, b]⟩ : Shape).Transposes [1, 0] ⟨2, ![b, a]⟩) (k : Fin b) (o : Fin a) :
    transpose ⟨2, ![b, a]⟩ [1, 0] L h (ix2 k o) = L (ix2 o k) :=
  Idealize.ShloMosaic.transpose_apply [1, 0] L h (ix2 k o) (ix2 o k) fun ax => by
    match ax with
    | ⟨0, _⟩ => rfl
    | ⟨1, _⟩ => rfl

end Cert.Lib.MergeRows

end
-- ==== Proof.PayAt.lean ====
/-
  The kernel's arithmetic for one block, read at one output position.

  Each block computes, from a block x of input rows, the weight matrix w and the bias row, the matrix product of x
  with the transpose of w, adds the bias row to every row, and (in all stages but the last) takes the maximum with
  zero. On the extended reals the narrowing to sixteen bits is the identity and every operation is exact, so the entry
  at row p and column j is the inner product of row p of x and row j of w, plus the bias at j, rectified.
-/
import proofs.«115876_j36043365548319_1_alg».proof.Proof.Gen.KernelIdeal.Skeleton
import proofs.«115876_j36043365548319_1_alg».proof.Proof.StageVal
import proofs.«115876_j36043365548319_1_alg».proof.Proof.LibPlainDot
import proofs.«115876_j36043365548319_1_alg».proof.Proof.LibRowBroadcasts
import proofs.«115876_j36043365548319_1_alg».proof.Proof.LibMergeRows

noncomputable section

namespace Cert.StageLaw

open Idealize.ShloMosaic Idealize.ShloMosaic.ValueIdx
open Cert.KernelIdeal Cert.KernelIdeal.Gen
open scoped BigOperators

/-- A cast between equal two-axis shapes reads the same position. -/
theorem castSame_apply {α : Type} {a b : Nat} (v : (⟨2, ![a, b]⟩ : Shape).Idx → α)
    (h : (⟨2, ![a, b]⟩ : Shape).ShapeCasts ⟨2, ![a, b]⟩) (i : (⟨2, ![a, b]⟩ : Shape).Idx) :
    shapeCast ⟨2, ![a, b]⟩ v h i = v i :=
  shapeCast_apply v h _ _ rfl

theorem pay0_apply (x : Vec Ideal Cert.KernelIdeal.S5000x128 .f32) (w : Vec Ideal Cert.KernelIdeal.S64x128 .f32)
    (br : Vec Ideal Cert.KernelIdeal.S1x64 .f32) (p : Fin 5000) (j : Fin 64) :
    Cert.KernelIdeal.Gen.k0_pay1 (F := Ideal) x w br (ix2 p j)
      = reluVal (fun k : Fin 128 => x (ix2 p k)) (fun k => w (ix2 j k)) (br (ix2 (0 : Fin 1) j)) := by
  have hdot : (matmul dot_S5000x128_S128x64_S5000x64_1_0_0_1_n_n none
        (truncf .bf16 x bitsLt_bf16_f32 : FVec Ideal S5000x128 .bf16)
        (transpose S128x64 [1, 0] (truncf .bf16 w bitsLt_bf16_f32 : FVec Ideal S64x128 .bf16) transposes_S64x128_p1_0_S128x64)
        (constant S5000x64 .f32 0x00000000#32) : FVec Ideal S5000x64 .f32) (ix2 p j)
      = ∑ k : Fin 128, x (ix2 p k) * w (ix2 j k) := by
    refine (Cert.Lib.PlainDot.matmul_zero_apply dot_S5000x128_S128x64_S5000x64_1_0_0_1_n_n_wf none _ _ p j).trans ?_
    refine Finset.sum_congr rfl fun k _ => ?_
    rw [Cert.Lib.MergeRows.transpose_apply]
    rfl
  have hb : (broadcastTo S5000x64 (shapeCast S1x64 br shapeCasts_S1x64_S1x64) broadcasts_S1x64_S5000x64 :
        FVec Ideal S5000x64 .f32) (ix2 p j) = br (ix2 (0 : Fin 1) j) := by
    refine (Cert.Lib.Rows.bcastRow_apply _ broadcasts_S1x64_S5000x64 p j).trans ?_
    exact castSame_apply br shapeCasts_S1x64_S1x64 _
  show max (_ + _) _ = _
  rw [hdot, hb]
  rfl

theorem pay1_apply (x : Vec Ideal Cert.KernelIdeal.S5000x64 .f32) (w : Vec Ideal Cert.KernelIdeal.S64x64 .f32)
    (br : Vec Ideal Cert.KernelIdeal.S1x64 .f32) (p : Fin 5000) (j : Fin 64) :
    Cert.KernelIdeal.Gen.k1_pay1 (F := Ideal) x w br (ix2 p j)
      = reluVal (fun k : Fin 64 => x (ix2 p k)) (fun k => w (ix2 j k)) (br (ix2 (0 : Fin 1) j)) := by
  have hdot : (matmul dot_S5000x64_S64x64_S5000x64_1_0_0_1_n_n none
        (truncf .bf16 (shapeCast S5000x64 x shapeCasts_S5000x64_S5000x64 : FVec Ideal S5000x64 .f32) bitsLt_bf16_f32 : FVec Ideal S5000x64 .bf16)
        (transpose S64x64 [1, 0] (truncf .bf16 w bitsLt_bf16_f32 : FVec Ideal S64x64 .bf16) transposes_S64x64_p1_0_S64x64)
        (constant S5000x64 .f32 0x00000000#32) : FVec Ideal S5000x64 .f32) (ix2 p j)
      = ∑ k : Fin 64, x (ix2 p k) * w (ix2 j k) := by
    refine (Cert.Lib.PlainDot.matmul_zero_apply dot_S5000x64_S64x64_S5000x64_1_0_0_1_n_n_wf none _ _ p j).trans ?_
    refine Finset.sum_congr rfl fun k _ => ?_
    rw [Cert.Lib.MergeRows.transpose_apply]
    exact congrArg (· * w (ix2 j k)) (castSame_apply x shapeCasts_S5000x64_S5000x64 (ix2 p k))
  have hb : (broadcastTo S5000x64 (shapeCast S1x64 br shapeCasts_S1x64_S1x64) broadcasts_S1x64_S5000x64 :
        FVec Ideal S5000x64 .f32) (ix2 p j) = br (ix2 (0 : Fin 1) j) := by
    refine (Cert.Lib.Rows.bcastRow_apply _ broadcasts_S1x64_S5000x64 p j).trans ?_
    exact castSame_apply br shapeCasts_S1x64_S1x64 _
  show max (_ + _) _ = _
  rw [hdot, hb]
  rfl

theorem pay2_apply (x : Vec Ideal Cert.KernelIdeal.S5000x192 .f32) (w : Vec Ideal Cert.KernelIdeal.S64x192 .f32)
    (br : Vec Ideal Cert.KernelIdeal.S1x64 .f32) (p : Fin 5000) (j : Fin 64) :
    Cert.KernelIdeal.Gen.k2_pay1 (F := Ideal) x w br (ix2 p j)
      = reluVal (fun k : Fin 192 => x (ix2 p k)) (fun k => w (ix2 j k)) (br (ix2 (0 : Fin 1) j)) := by
  have hdot : (matmul dot_S5000x192_S192x64_S5000x64_1_0_0_1_n_n none
        (truncf .bf16 (shapeCast S5000x192 x shapeCasts_S5000x192_S5000x192 : FVec Ideal S5000x192 .f32) bitsLt_bf16_f32 : FVec Ideal S5000x192 .bf16)
        (transpose S192x64 [1, 0] (truncf .bf16 w bitsLt_bf16_f32 : FVec Ideal S64x192 .bf16) transposes_S64x192_p1_0_S192x64)
        (constant S5000x64 .f32 0x00000000#32) : FVec Ideal S5000x64 .f32) (ix2 p j)
      = ∑ k : Fin 192, x (ix2 p k) * w (ix2 j k) := by
    refine (Cert.Lib.PlainDot.matmul_zero_apply dot_S5000x192_S192x64_S5000x64_1_0_0_1_n_n_wf none _ _ p j).trans ?_
    refine Finset.sum_congr rfl fun k _ => ?_
    rw [Cert.Lib.MergeRows.transpose_apply]
    exact congrArg (· * w (ix2 j k)) (castSame_apply x shapeCasts_S5000x192_S5000x192 (ix2 p k))
  have hb : (broadcastTo S5000x64 (shapeCast S1x64 br shapeCasts_S1x64_S1x64) broadcasts_S1x64_S5000x64 :
        FVec Ideal S5000x64 .f32) (ix2 p j) = br (ix2 (0 : Fin 1) j) := by
    refine (Cert.Lib.Rows.bcastRow_apply _ broadcasts_S1x64_S5000x64 p j).trans ?_
    exact castSame_apply br shapeCasts_S1x64_S1x64 _
  show max (_ + _) _ = _
  rw [hdot, hb]
  rfl

theorem pay3_apply (x : Vec Ideal Cert.KernelIdeal.S5000x192 .f32) (w : Vec Ideal Cert.KernelIdeal.S64x192 .f32)
    (br : Vec Ideal Cert.KernelIdeal.S1x64 .f32) (p : Fin 5000) (j : Fin 64) :
    Cert.KernelIdeal.Gen.k3_pay1 (F := Ideal) x w br (ix2 p j)
      = reluVal (fun k : Fin 192 => x (ix2 p k)) (fun k => w (ix2 j k)) (br (ix2 (0 : Fin 1) j)) := by
  have hdot : (matmul dot_S5000x192_S192x64_S5000x64_1_0_0_1_n_n none
        (truncf .bf16 (shapeCast S5000x192 x shapeCasts_S5000x192_S5000x192 : FVec Ideal S5000x192 .f32) bitsLt_bf16_f32 : FVec Ideal S5000x192 .bf16)
        (transpose S192x64 [1, 0] (truncf .bf16 w bitsLt_bf16_f32 : FVec Ideal S64x192 .bf16) transposes_S64x192_p1_0_S192x64)
        (constant S5000x64 .f32 0x00000000#32) : FVec Ideal S5000x64 .f32) (ix2 p j)
      = ∑ k : Fin 192, x (ix2 p k) * w (ix2 j k) := by
    refine (Cert.Lib.PlainDot.matmul_zero_apply dot_S5000x192_S192x64_S5000x64_1_0_0_1_n_n_wf none _ _ p j).trans ?_
    refine Finset.sum_congr rfl fun k _ => ?_
    rw [Cert.Lib.MergeRows.transpose_apply]
    exact congrArg (· * w (ix2 j k)) (castSame_apply x shapeCasts_S5000x192_S5000x192 (ix2 p k))
  have hb : (broadcastTo S5000x64 (shapeCast S1x64 br shapeCasts_S1x64_S1x64) broadcasts_S1x64_S5000x64 :
        FVec Ideal S5000x64 .f32) (ix2 p j) = br (ix2 (0 : Fin 1) j) := by
    refine (Cert.Lib.Rows.bcastRow_apply _ broadcasts_S1x64_S5000x64 p j).trans ?_
    exact castSame_apply br shapeCasts_S1x64_S1x64 _
  show max (_ + _) _ = _
  rw [hdot, hb]
  rfl

theorem pay4_apply (x : Vec Ideal Cert.KernelIdeal.S5000x64 .f32) (w : Vec Ideal Cert.KernelIdeal.S64x64 .f32)
    (br : Vec Ideal Cert.KernelIdeal.S1x64 .f32) (p : Fin 5000) (j : Fin 64) :
    Cert.KernelIdeal.Gen.k4_pay1 (F := Ideal) x w br (ix2 p j)
      = reluVal (fun k : Fin 64 => x (ix2 p k)) (fun k => w (ix2 j k)) (br (ix2 (0 : Fin 1) j)) := by
  have hdot : (matmul dot_S5000x64_S64x64_S5000x64_1_0_0_1_n_n none
        (truncf .bf16 (shapeCast S5000x64 x shapeCasts_S5000x64_S5000x64 : FVec Ideal S5000x64 .f32) bitsLt_bf16_f32 : FVec Ideal S5000x64 .bf16)
        (transpose S64x64 [1, 0] (truncf .bf16 w bitsLt_bf16_f32 : FVec Ideal S64x64 .bf16) transposes_S64x64_p1_0_S64x64)
        (constant S5000x64 .f32 0x00000000#32) : FVec Ideal S5000x64 .f32) (ix2 p j)
      = ∑ k : Fin 64, x (ix2 p k) * w (ix2 j k) := by
    refine (Cert.Lib.PlainDot.matmul_zero_apply dot_S5000x64_S64x64_S5000x64_1_0_0_1_n_n_wf none _ _ p j).trans ?_
    refine Finset.sum_congr rfl fun k _ => ?_
    rw [Cert.Lib.MergeRows.transpose_apply]
    exact congrArg (· * w (ix2 j k)) (castSame_apply x shapeCasts_S5000x64_S5000x64 (ix2 p k))
  have hb : (broadcastTo S5000x64 (shapeCast S1x64 br shapeCasts_S1x64_S1x64) broadcasts_S1x64_S5000x64 :
        FVec Ideal S5000x64 .f32) (ix2 p j) = br (ix2 (0 : Fin 1) j) := by
    refine (Cert.Lib.Rows.bcastRow_apply _ broadcasts_S1x64_S5000x64 p j).trans ?_
    exact castSame_apply br shapeCasts_S1x64_S1x64 _
  show max (_ + _) _ = _
  rw [hdot, hb]
  rfl

theorem pay5_apply (x : Vec Ideal Cert.KernelIdeal.S5000x64 .f32) (w : Vec Ideal Cert.KernelIdeal.S2x64 .f32)
    (br : Vec Ideal Cert.KernelIdeal.S1x2 .f32) (p : Fin 5000) (j : Fin 2) :
    Cert.KernelIdeal.Gen.k5_pay1 (F := Ideal) x w br (ix2 p j)
      = linVal (fun k : Fin 64 => x (ix2 p k)) (fun k => w (ix2 j k)) (br (ix2 (0 : Fin 1) j)) := by
  have hdot : (matmul dot_S5000x64_S64x2_S5000x2_1_0_0_1_n_n none
        (truncf .bf16 (shapeCast S5000x64 x shapeCasts_S5000x64_S5000x64 : FVec Ideal S5000x64 .f32) bitsLt_bf16_f32 : FVec Ideal S5000x64 .bf16)
        (transpose S64x2 [1, 0] (truncf .bf16 w bitsLt_bf16_f32 : FVec Ideal S2x64 .bf16) transposes_S2x64_p1_0_S64x2)
        (constant S5000x2 .f32 0x00000000#32) : FVec Ideal S5000x2 .f32) (ix2 p j)
      = ∑ k : Fin 64, x (ix2 p k) * w (ix2 j k) := by
    refine (Cert.Lib.PlainDot.matmul_zero_apply dot_S5000x64_S64x2_S5000x2_1_0_0_1_n_n_wf none _ _ p j).trans ?_
    refine Finset.sum_congr rfl fun k _ => ?_
    rw [Cert.Lib.MergeRows.transpose_apply]
    exact congrArg (· * w (ix2 j k)) (castSame_apply x shapeCasts_S5000x64_S5000x64 (ix2 p k))
  have hb : (broadcastTo S5000x2 (shapeCast S1x2 br shapeCasts_S1x2_S1x2) broadcasts_S1x2_S5000x2 :
        FVec Ideal S5000x2 .f32) (ix2 p j) = br (ix2 (0 : Fin 1) j) := by
    refine (Cert.Lib.Rows.bcastRow_apply _ broadcasts_S1x2_S5000x2 p j).trans ?_
    exact castSame_apply br shapeCasts_S1x2_S1x2 _
  show _ + _ = _
  rw [hdot, hb]
  rfl

end Cert.StageLaw

end
-- ==== Proof.KiFinal0.lean ====
/-
  Stage 0's output array after the stage, as ONE function of the three arrays the stage reads.
  The stage's blocks are row blocks: point `t` reads rows 5000·t … 5000·t + 4999 of the input, the whole weight matrix and the
  whole bias row, and writes the same rows of the output; entry (p, j) of what it writes is the stage's value of row p
  of its input block against row j of the weights, plus the bias at j.  Since a row of the result depends on that row of
  the input only, block `t` of the whole-array function below IS what point `t` writes, and the ten blocks cover the array.
-/
import proofs.«115876_j36043365548319_1_alg».proof.Proof.KiRegion0
import proofs.«115876_j36043365548319_1_alg».proof.Proof.PayAt
import Idealize.ShloMosaic.Lib.Pipeline.Value
import Idealize.ShloMosaic.Lib.ValueIdx

set_option maxRecDepth 16384

noncomputable section

namespace Cert.KernelIdeal.Stage

open Cert.KernelIdeal Cert.KernelIdeal.Gen Cert.StageLaw
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The index maps over the grid: the input's and the output's row block move together, one block per point; the
    weights and the bias stay at their one block; nothing moves along the columns. -/
theorem idx0 : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0 ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- Every row block is some point's. -/
theorem onto0 : ∀ q : Fin 10, ∃ t : Fin cfg0.N, win0_3.index t = ![q.val, 0] :=
  (by decide +kernel : ∀ q : Fin 10, ∃ t : Fin grid0.N, win0_3.index t = ![q.val, 0])

/-- The stage's whole result: entry (r, j) is the stage's value of row r of `X` against row j of `W`, plus `B` at (0, j). -/
def whole0 (X : S50000x128.Idx → EReal) (W : S64x128.Idx → EReal) (B : S1x64.Idx → EReal) : S50000x64.Idx → EReal :=
  fun i => reluVal (fun k : Fin 128 => X (ix2 (⟨(i 0).val, (i 0).isLt⟩ : Fin 50000) k))
    (fun k : Fin 128 => W (ix2 (⟨(i 1).val, (i 1).isLt⟩ : Fin 64) k)) (B (ix2 (0 : Fin 1) (⟨(i 1).val, (i 1).isLt⟩ : Fin 64)))

/-- WHAT POINT `t` WRITES BACK is block `t` of the whole result of the arrays as the stage finds them. -/
theorem flushed0 (c : Dev nD) (t : Fin cfg0.N) :
    (dat0 V c).flushed 3 t = ((cfg0.win 3).blk t).view.read (Elt Ideal) (whole0 (V c main_arg0) (V c main_arg3) (V c main_v9)) := by
  show (cfg0.win 3).cut (grid0.coords t) ((dat0 V c).after 3 t) = _
  rw [after0_3]
  unfold out0_3
  rw [View.canon_unit_zero hz0]
  simp only [View.ld_unit_zero (S := S5000x128) hz0, View.ld_unit_zero (S := S64x128) hz0, View.ld_unit_zero (S := S1x64) hz0]
  obtain ⟨e0, e1, e2, e3, e4, e5, e6, e7⟩ := idx0 t
  funext y
  obtain ⟨p, j, rfl⟩ : ∃ (p : Fin 5000) (j : Fin 64), y = ix2 p j := ⟨y 0, y 1, eq_ix2 y⟩
  refine (pay0_apply _ _ _ p j).trans ?_
  show reluVal _ _ _ = reluVal _ _ _
  refine congr (congr (congrArg reluVal ?_) ?_) ?_
  · funext k
    show V c main_arg0 (((cfg0.win 0).blk t).view.emb (ix2 p k)) = V c main_arg0 _
    refine congrArg _ (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  · funext k
    show V c main_arg3 (((cfg0.win 1).blk t).view.emb (ix2 j k)) = V c main_arg3 _
    refine congrArg _ (funext fun a => Fin.ext ?_)
    match a with
    | ⟨0, _⟩ => show win0_1.index t (0 : Fin 2) * 64 + 1 * j.val = win0_3.index t (1 : Fin 2) * 64 + 1 * j.val; omega
    | ⟨1, _⟩ => show win0_1.index t (1 : Fin 2) * 128 + 1 * k.val = k.val; omega
  · show V c main_v9 (((cfg0.win 2).blk t).view.emb (ix2 (0 : Fin 1) j)) = V c main_v9 _
    refine congrArg _ (funext fun a => Fin.ext ?_)
    match a with
    | ⟨0, _⟩ => show win0_2.index t (0 : Fin 2) * 1 + 1 * 0 = 0; omega
    | ⟨1, _⟩ => show win0_2.index t (1 : Fin 2) * 64 + 1 * j.val = win0_3.index t (1 : Fin 2) * 64 + 1 * j.val; omega

/-- An index of the output array is in point `t`'s block iff each coordinate is in the block's range on its axis. -/
theorem mem_blk0 (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v10).slice (win0_3.rect t)).set ↔ _
  rw [View.set_slice_whole, Rect.mem_set_unit]
  exact Iff.rfl

/-- The ten row blocks cover the output array: row r lies in block r / 5000. -/
theorem cover0 (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- THE OUTPUT ARRAY after the stage: the whole result of the arrays as the stage finds them. -/
theorem final0 (c : Dev nD) :
    (dat0 V c).arrAt 3 cfg0.N = whole0 (V c main_arg0) (V c main_arg3) (V c main_v9) :=
  (dat0 V c).arrAt_eq_of_cover 3 _ (fun t _ => flushed0 V c t) (cover0)

end Cert.KernelIdeal.Stage

end
-- ==== Proof.KiFinal1.lean ====
/-
  Stage 1's output array after the stage, as ONE function of the three arrays the stage reads.
  The stage's blocks are row blocks: point `t` reads rows 5000·t … 5000·t + 4999 of the input, the whole weight matrix and the
  whole bias row, and writes the same rows of the output; entry (p, j) of what it writes is the stage's value of row p
  of its input block against row j of the weights, plus the bias at j.  Since a row of the result depends on that row of
  the input only, block `t` of the whole-array function below IS what point `t` writes, and the ten blocks cover the array.
-/
import proofs.«115876_j36043365548319_1_alg».proof.Proof.KiRegion1
import proofs.«115876_j36043365548319_1_alg».proof.Proof.PayAt
import Idealize.ShloMosaic.Lib.Pipeline.Value
import Idealize.ShloMosaic.Lib.ValueIdx

set_option maxRecDepth 16384

noncomputable section

namespace Cert.KernelIdeal.Stage

open Cert.KernelIdeal Cert.KernelIdeal.Gen Cert.StageLaw
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The index maps over the grid: the input's and the output's row block move together, one block per point; the
    weights and the bias stay at their one block; nothing moves along the columns. -/
theorem idx1 : ∀ t : Fin cfg1.N, win1_0.index t (0 : Fin 2) = win1_3.index t (0 : Fin 2) ∧ win1_0.index t (1 : Fin 2) = 0
    ∧ win1_1.index t (0 : Fin 2) = 0 ∧ win1_1.index t (1 : Fin 2) = 0 ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every row block is some point's. -/
theorem onto1 : ∀ q : Fin 10, ∃ t : Fin cfg1.N, win1_3.index t = ![q.val, 0] :=
  (by decide +kernel : ∀ q : Fin 10, ∃ t : Fin grid1.N, win1_3.index t = ![q.val, 0])

/-- The stage's whole result: entry (r, j) is the stage's value of row r of `X` against row j of `W`, plus `B` at (0, j). -/
def whole1 (X : S50000x64.Idx → EReal) (W : S64x64.Idx → EReal) (B : S1x64.Idx → EReal) : S50000x64.Idx → EReal :=
  fun i => reluVal (fun k : Fin 64 => X (ix2 (⟨(i 0).val, (i 0).isLt⟩ : Fin 50000) k))
    (fun k : Fin 64 => W (ix2 (⟨(i 1).val, (i 1).isLt⟩ : Fin 64) k)) (B (ix2 (0 : Fin 1) (⟨(i 1).val, (i 1).isLt⟩ : Fin 64)))

/-- WHAT POINT `t` WRITES BACK is block `t` of the whole result of the arrays as the stage finds them. -/
theorem flushed1 (c : Dev nD) (t : Fin cfg1.N) :
    (dat1 V c).flushed 3 t = ((cfg1.win 3).blk t).view.read (Elt Ideal) (whole1 (V c main_v10) (V c main_arg5) (V c main_v11)) := by
  show (cfg1.win 3).cut (grid1.coords t) ((dat1 V c).after 3 t) = _
  rw [after1_3]
  unfold out1_3
  rw [View.canon_unit_zero hz1]
  simp only [View.ld_unit_zero (S := S5000x64) hz1, View.ld_unit_zero (S := S64x64) hz1, View.ld_unit_zero (S := S1x64) hz1]
  obtain ⟨e0, e1, e2, e3, e4, e5, e6, e7⟩ := idx1 t
  funext y
  obtain ⟨p, j, rfl⟩ : ∃ (p : Fin 5000) (j : Fin 64), y = ix2 p j := ⟨y 0, y 1, eq_ix2 y⟩
  refine (pay1_apply _ _ _ p j).trans ?_
  show reluVal _ _ _ = reluVal _ _ _
  refine congr (congr (congrArg reluVal ?_) ?_) ?_
  · funext k
    show V c main_v10 (((cfg1.win 0).blk t).view.emb (ix2 p k)) = V c main_v10 _
    refine congrArg _ (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 64 + 1 * k.val = k.val; omega
  · funext k
    show V c main_arg5 (((cfg1.win 1).blk t).view.emb (ix2 j k)) = V c main_arg5 _
    refine congrArg _ (funext fun a => Fin.ext ?_)
    match a with
    | ⟨0, _⟩ => show win1_1.index t (0 : Fin 2) * 64 + 1 * j.val = win1_3.index t (1 : Fin 2) * 64 + 1 * j.val; omega
    | ⟨1, _⟩ => show win1_1.index t (1 : Fin 2) * 64 + 1 * k.val = k.val; omega
  · show V c main_v11 (((cfg1.win 2).blk t).view.emb (ix2 (0 : Fin 1) j)) = V c main_v11 _
    refine congrArg _ (funext fun a => Fin.ext ?_)
    match a with
    | ⟨0, _⟩ => show win1_2.index t (0 : Fin 2) * 1 + 1 * 0 = 0; omega
    | ⟨1, _⟩ => show win1_2.index t (1 : Fin 2) * 64 + 1 * j.val = win1_3.index t (1 : Fin 2) * 64 + 1 * j.val; omega

/-- An index of the output array is in point `t`'s block iff each coordinate is in the block's range on its axis. -/
theorem mem_blk1 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v12).slice (win1_3.rect t)).set ↔ _
  rw [View.set_slice_whole, Rect.mem_set_unit]
  exact Iff.rfl

/-- The ten row blocks cover the output array: row r lies in block r / 5000. -/
theorem cover1 (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- THE OUTPUT ARRAY after the stage: the whole result of the arrays as the stage finds them. -/
theorem final1 (c : Dev nD) :
    (dat1 V c).arrAt 3 cfg1.N = whole1 (V c main_v10) (V c main_arg5) (V c main_v11) :=
  (dat1 V c).arrAt_eq_of_cover 3 _ (fun t _ => flushed1 V c t) (cover1)

end Cert.KernelIdeal.Stage

end
-- ==== Proof.KiFinal2.lean ====
/-
  Stage 2's output array after the stage, as ONE function of the three arrays the stage reads.
  The stage's blocks are row blocks: point `t` reads rows 5000·t … 5000·t + 4999 of the input, the whole weight matrix and the
  whole bias row, and writes the same rows of the output; entry (p, j) of what it writes is the stage's value of row p
  of its input block against row j of the weights, plus the bias at j.  Since a row of the result depends on that row of
  the input only, block `t` of the whole-array function below IS what point `t` writes, and the ten blocks cover the array.
-/
import proofs.«115876_j36043365548319_1_alg».proof.Proof.KiRegion2
import proofs.«115876_j36043365548319_1_alg».proof.Proof.PayAt
import Idealize.ShloMosaic.Lib.Pipeline.Value
import Idealize.ShloMosaic.Lib.ValueIdx

set_option maxRecDepth 16384

noncomputable section

namespace Cert.KernelIdeal.Stage

open Cert.KernelIdeal Cert.KernelIdeal.Gen Cert.StageLaw
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The index maps over the grid: the input's and the output's row block move together, one block per point; the
    weights and the bias stay at their one block; nothing moves along the columns. -/
theorem idx2 : ∀ t : Fin cfg2.N, win2_0.index t (0 : Fin 2) = win2_3.index t (0 : Fin 2) ∧ win2_0.index t (1 : Fin 2) = 0
    ∧ win2_1.index t (0 : Fin 2) = 0 ∧ win2_1.index t (1 : Fin 2) = 0 ∧ win2_2.index t (0 : Fin 2) = 0 ∧ win2_2.index t (1 : Fin 2) = 0
    ∧ win2_3.index t (1 : Fin 2) = 0 ∧ win2_3.index t (0 : Fin 2) ≤ 9 :=
  (by decide +kernel : ∀ t : Fin grid2.N, _)

/-- Every row block is some point's. -/
theorem onto2 : ∀ q : Fin 10, ∃ t : Fin cfg2.N, win2_3.index t = ![q.val, 0] :=
  (by decide +kernel : ∀ q : Fin 10, ∃ t : Fin grid2.N, win2_3.index t = ![q.val, 0])

/-- The stage's whole result: entry (r, j) is the stage's value of row r of `X` against row j of `W`, plus `B` at (0, j). -/
def whole2 (X : S50000x192.Idx → EReal) (W : S64x192.Idx → EReal) (B : S1x64.Idx → EReal) : S50000x64.Idx → EReal :=
  fun i => reluVal (fun k : Fin 192 => X (ix2 (⟨(i 0).val, (i 0).isLt⟩ : Fin 50000) k))
    (fun k : Fin 192 => W (ix2 (⟨(i 1).val, (i 1).isLt⟩ : Fin 64) k)) (B (ix2 (0 : Fin 1) (⟨(i 1).val, (i 1).isLt⟩ : Fin 64)))

/-- WHAT POINT `t` WRITES BACK is block `t` of the whole result of the arrays as the stage finds them. -/
theorem flushed2 (c : Dev nD) (t : Fin cfg2.N) :
    (dat2 V c).flushed 3 t = ((cfg2.win 3).blk t).view.read (Elt Ideal) (whole2 (V c main_v52) (V c main_arg7) (V c main_v53)) := by
  show (cfg2.win 3).cut (grid2.coords t) ((dat2 V c).after 3 t) = _
  rw [after2_3]
  unfold out2_3
  rw [View.canon_unit_zero hz2]
  simp only [View.ld_unit_zero (S := S5000x192) hz2, View.ld_unit_zero (S := S64x192) hz2, View.ld_unit_zero (S := S1x64) hz2]
  obtain ⟨e0, e1, e2, e3, e4, e5, e6, e7⟩ := idx2 t
  funext y
  obtain ⟨p, j, rfl⟩ : ∃ (p : Fin 5000) (j : Fin 64), y = ix2 p j := ⟨y 0, y 1, eq_ix2 y⟩
  refine (pay2_apply _ _ _ p j).trans ?_
  show reluVal _ _ _ = reluVal _ _ _
  refine congr (congr (congrArg reluVal ?_) ?_) ?_
  · funext k
    show V c main_v52 (((cfg2.win 0).blk t).view.emb (ix2 p k)) = V c main_v52 _
    refine congrArg _ (funext fun a => Fin.ext ?_)
    match a with
    | ⟨0, _⟩ => show win2_0.index t (0 : Fin 2) * 5000 + 1 * p.val = win2_3.index t (0 : Fin 2) * 5000 + 1 * p.val; omega
    | ⟨1, _⟩ => show win2_0.index t (1 : Fin 2) * 192 + 1 * k.val = k.val; omega
  · funext k
    show V c main_arg7 (((cfg2.win 1).blk t).view.emb (ix2 j k)) = V c main_arg7 _
    refine congrArg _ (funext fun a => Fin.ext ?_)
    match a with
    | ⟨0, _⟩ => show win2_1.index t (0 : Fin 2) * 64 + 1 * j.val = win2_3.index t (1 : Fin 2) * 64 + 1 * j.val; omega
    | ⟨1, _⟩ => show win2_1.index t (1 : Fin 2) * 192 + 1 * k.val = k.val; omega
  · show V c main_v53 (((cfg2.win 2).blk t).view.emb (ix2 (0 : Fin 1) j)) = V c main_v53 _
    refine congrArg _ (funext fun a => Fin.ext ?_)
    match a with
    | ⟨0, _⟩ => show win2_2.index t (0 : Fin 2) * 1 + 1 * 0 = 0; omega
    | ⟨1, _⟩ => show win2_2.index t (1 : Fin 2) * 64 + 1 * j.val = win2_3.index t (1 : Fin 2) * 64 + 1 * j.val; omega

/-- An index of the output array is in point `t`'s block iff each coordinate is in the block's range on its axis. -/
theorem mem_blk2 (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v54).slice (win2_3.rect t)).set ↔ _
  rw [View.set_slice_whole, Rect.mem_set_unit]
  exact Iff.rfl

/-- The ten row blocks cover the output array: row r lies in block r / 5000. -/
theorem cover2 (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  obtain ⟨t, ht⟩ := onto2 ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- THE OUTPUT ARRAY after the stage: the whole result of the arrays as the stage finds them. -/
theorem final2 (c : Dev nD) :
    (dat2 V c).arrAt 3 cfg2.N = whole2 (V c main_v52) (V c main_arg7) (V c main_v53) :=
  (dat2 V c).arrAt_eq_of_cover 3 _ (fun t _ => flushed2 V c t) (cover2)

end Cert.KernelIdeal.Stage

end
-- ==== Proof.KiFinal3.lean ====
/-
  Stage 3's output array after the stage, as ONE function of the three arrays the stage reads.
  The stage's blocks are row blocks: point `t` reads rows 5000·t … 5000·t + 4999 of the input, the whole weight matrix and the
  whole bias row, and writes the same rows of the output; entry (p, j) of what it writes is the stage's value of row p
  of its input block against row j of the weights, plus the bias at j.  Since a row of the result depends on that row of
  the input only, block `t` of the whole-array function below IS what point `t` writes, and the ten blocks cover the array.
-/
import proofs.«115876_j36043365548319_1_alg».proof.Proof.KiRegion3
import proofs.«115876_j36043365548319_1_alg».proof.Proof.PayAt
import Idealize.ShloMosaic.Lib.Pipeline.Value
import Idealize.ShloMosaic.Lib.ValueIdx

set_option maxRecDepth 16384

noncomputable section

namespace Cert.KernelIdeal.Stage

open Cert.KernelIdeal Cert.KernelIdeal.Gen Cert.StageLaw
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The index maps over the grid: the input's and the output's row block move together, one block per point; the
    weights and the bias stay at their one block; nothing moves along the columns. -/
theorem idx3 : ∀ t : Fin cfg3.N, win3_0.index t (0 : Fin 2) = win3_3.index t (0 : Fin 2) ∧ win3_0.index t (1 : Fin 2) = 0
    ∧ win3_1.index t (0 : Fin 2) = 0 ∧ win3_1.index t (1 : Fin 2) = 0 ∧ win3_2.index t (0 : Fin 2) = 0 ∧ win3_2.index t (1 : Fin 2) = 0
    ∧ win3_3.index t (1 : Fin 2) = 0 ∧ win3_3.index t (0 : Fin 2) ≤ 9 :=
  (by decide +kernel : ∀ t : Fin grid3.N, _)

/-- Every row block is some point's. -/
theorem onto3 : ∀ q : Fin 10, ∃ t : Fin cfg3.N, win3_3.index t = ![q.val, 0] :=
  (by decide +kernel : ∀ q : Fin 10, ∃ t : Fin grid3.N, win3_3.index t = ![q.val, 0])

/-- The stage's whole result: entry (r, j) is the stage's value of row r of `X` against row j of `W`, plus `B` at (0, j). -/
def whole3 (X : S50000x192.Idx → EReal) (W : S64x192.Idx → EReal) (B : S1x64.Idx → EReal) : S50000x64.Idx → EReal :=
  fun i => reluVal (fun k : Fin 192 => X (ix2 (⟨(i 0).val, (i 0).isLt⟩ : Fin 50000) k))
    (fun k : Fin 192 => W (ix2 (⟨(i 1).val, (i 1).isLt⟩ : Fin 64) k)) (B (ix2 (0 : Fin 1) (⟨(i 1).val, (i 1).isLt⟩ : Fin 64)))

/-- WHAT POINT `t` WRITES BACK is block `t` of the whole result of the arrays as the stage finds them. -/
theorem flushed3 (c : Dev nD) (t : Fin cfg3.N) :
    (dat3 V c).flushed 3 t = ((cfg3.win 3).blk t).view.read (Elt Ideal) (whole3 (V c main_v94) (V c main_arg9) (V c main_v95)) := by
  show (cfg3.win 3).cut (grid3.coords t) ((dat3 V c).after 3 t) = _
  rw [after3_3]
  unfold out3_3
  rw [View.canon_unit_zero hz3]
  simp only [View.ld_unit_zero (S := S5000x192) hz3, View.ld_unit_zero (S := S64x192) hz3, View.ld_unit_zero (S := S1x64) hz3]
  obtain ⟨e0, e1, e2, e3, e4, e5, e6, e7⟩ := idx3 t
  funext y
  obtain ⟨p, j, rfl⟩ : ∃ (p : Fin 5000) (j : Fin 64), y = ix2 p j := ⟨y 0, y 1, eq_ix2 y⟩
  refine (pay3_apply _ _ _ p j).trans ?_
  show reluVal _ _ _ = reluVal _ _ _
  refine congr (congr (congrArg reluVal ?_) ?_) ?_
  · funext k
    show V c main_v94 (((cfg3.win 0).blk t).view.emb (ix2 p k)) = V c main_v94 _
    refine congrArg _ (funext fun a => Fin.ext ?_)
    match a with
    | ⟨0, _⟩ => show win3_0.index t (0 : Fin 2) * 5000 + 1 * p.val = win3_3.index t (0 : Fin 2) * 5000 + 1 * p.val; omega
    | ⟨1, _⟩ => show win3_0.index t (1 : Fin 2) * 192 + 1 * k.val = k.val; omega
  · funext k
    show V c main_arg9 (((cfg3.win 1).blk t).view.emb (ix2 j k)) = V c main_arg9 _
    refine congrArg _ (funext fun a => Fin.ext ?_)
    match a with
    | ⟨0, _⟩ => show win3_1.index t (0 : Fin 2) * 64 + 1 * j.val = win3_3.index t (1 : Fin 2) * 64 + 1 * j.val; omega
    | ⟨1, _⟩ => show win3_1.index t (1 : Fin 2) * 192 + 1 * k.val = k.val; omega
  · show V c main_v95 (((cfg3.win 2).blk t).view.emb (ix2 (0 : Fin 1) j)) = V c main_v95 _
    refine congrArg _ (funext fun a => Fin.ext ?_)
    match a with
    | ⟨0, _⟩ => show win3_2.index t (0 : Fin 2) * 1 + 1 * 0 = 0; omega
    | ⟨1, _⟩ => show win3_2.index t (1 : Fin 2) * 64 + 1 * j.val = win3_3.index t (1 : Fin 2) * 64 + 1 * j.val; omega

/-- An index of the output array is in point `t`'s block iff each coordinate is in the block's range on its axis. -/
theorem mem_blk3 (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v96).slice (win3_3.rect t)).set ↔ _
  rw [View.set_slice_whole, Rect.mem_set_unit]
  exact Iff.rfl

/-- The ten row blocks cover the output array: row r lies in block r / 5000. -/
theorem cover3 (i : S50000x64.Idx) : ∃ t : Fin cfg3.N, (cfg3.win 3).flush t = true ∧ i ∈ ((cfg3.win 3).blk t).view.set := by
  have hi0 : (i 0).val < 50000 := (i 0).isLt
  have hi1 : (i 1).val < 64 := (i 1).isLt
  obtain ⟨t, ht⟩ := onto3 ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- THE OUTPUT ARRAY after the stage: the whole result of the arrays as the stage finds them. -/
theorem final3 (c : Dev nD) :
    (dat3 V c).arrAt 3 cfg3.N = whole3 (V c main_v94) (V c main_arg9) (V c main_v95) :=
  (dat3 V c).arrAt_eq_of_cover 3 _ (fun t _ => flushed3 V c t) (cover3)

end Cert.KernelIdeal.Stage

end
-- ==== Proof.KiFinal4.lean ====
/-
  Stage 4's output array after the stage, as ONE function of the three arrays the stage reads.
  The stage's blocks are row blocks: point `t` reads rows 5000·t … 5000·t + 4999 of the input, the whole weight matrix and the
  whole bias row, and writes the same rows of the output; entry (p, j) of what it writes is the stage's value of row p
  of its input block against row j of the weights, plus the bias at j.  Since a row of the result depends on that row of
  the input only, block `t` of the whole-array function below IS what point `t` writes, and the ten blocks cover the array.
-/
import proofs.«115876_j36043365548319_1_alg».proof.Proof.KiRegion4
import proofs.«115876_j36043365548319_1_alg».proof.Proof.PayAt
import Idealize.ShloMosaic.Lib.Pipeline.Value
import Idealize.ShloMosaic.Lib.ValueIdx

set_option maxRecDepth 16384

noncomputable section

namespace Cert.KernelIdeal.Stage

open Cert.KernelIdeal Cert.KernelIdeal.Gen Cert.StageLaw
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- The index maps over the grid: the input's and the output's row block move together, one block per point; the
    weights and the bias stay at their one block; nothing moves along the columns. -/
theorem idx4 : ∀ t : Fin cfg4.N, win4_0.index t (0 : Fin 2) = win4_3.index t (0 : Fin 2) ∧ win4_0.index t (1 : Fin 2) = 0
    ∧ win4_1.index t (0 : Fin 2) = 0 ∧ win4_1.index t (1 : Fin 2) = 0 ∧ win4_2.index t (0 : Fin 2) = 0 ∧ win4_2.index t (1 : Fin 2) = 0
    ∧ win4_3.index t (1 : Fin 2) = 0 ∧ win4_3.index t (0 : Fin 2) ≤ 9 :=
  (by decide +kernel : ∀ t : Fin grid4.N, _)

/-- Every row block is some point's. -/
theorem onto4 : ∀ q : Fin 10, ∃ t : Fin cfg4.N, win4_3.index t = ![q.val, 0] :=
  (by decide +kernel : ∀ q : Fin 10, ∃ t : Fin grid4.N, win4_3.index t = ![q.val, 0])

/-- The stage's whole result: entry (r, j) is the stage's value of row r of `X` against row j of `W`, plus `B` at (0, j). -/
def whole4 (X : S50000x64.Idx → EReal) (W : S64x64.Idx → EReal) (B : S1x64.Idx → EReal) : S50000x64.Idx → EReal :=
  fun i => reluVal (fun k : Fin 64 => X (ix2 (⟨(i 0).val, (i 0).isLt⟩ : Fin 50000) k))
    (fun k : Fin 64 => W (ix2 (⟨(i 1).val, (i 1).isLt⟩ : Fin 64) k)) (B (ix2 (0 : Fin 1) (⟨(i 1).val, (i 1).isLt⟩ : Fin 64)))

/-- WHAT POINT `t` WRITES BACK is block `t` of the whole result of the arrays as the stage finds them. -/
theorem flushed4 (c : Dev nD) (t : Fin cfg4.N) :
    (dat4 V c).flushed 3 t = ((cfg4.win 3).blk t).view.read (Elt Ideal) (whole4 (V c main_v96) (V c main_arg11) (V c main_v97)) := by
  show (cfg4.win 3).cut (grid4.coords t) ((dat4 V c).after 3 t) = _
  rw [after4_3]
  unfold out4_3
  rw [View.canon_unit_zero hz4]
  simp only [View.ld_unit_zero (S := S5000x64) hz4, View.ld_unit_zero (S := S64x64) hz4, View.ld_unit_zero (S := S1x64) hz4]
  obtain ⟨e0, e1, e2, e3, e4, e5, e6, e7⟩ := idx4 t
  funext y
  obtain ⟨p, j, rfl⟩ : ∃ (p : Fin 5000) (j : Fin 64), y = ix2 p j := ⟨y 0, y 1, eq_ix2 y⟩
  refine (pay4_apply _ _ _ p j).trans ?_
  show reluVal _ _ _ = reluVal _ _ _
  refine congr (congr (congrArg reluVal ?_) ?_) ?_
  · funext k
    show V c main_v96 (((cfg4.win 0).blk t).view.emb (ix2 p k)) = V c main_v96 _
    refine congrArg _ (funext fun a => Fin.ext ?_)
    match a with
    | ⟨0, _⟩ => show win4_0.index t (0 : Fin 2) * 5000 + 1 * p.val = win4_3.index t (0 : Fin 2) * 5000 + 1 * p.val; omega
    | ⟨1, _⟩ => show win4_0.index t (1 : Fin 2) * 64 + 1 * k.val = k.val; omega
  · funext k
    show V c main_arg11 (((cfg4.win 1).blk t).view.emb (ix2 j k)) = V c main_arg11 _
    refine congrArg _ (funext fun a => Fin.ext ?_)
    match a with
    | ⟨0, _⟩ => show win4_1.index t (0 : Fin 2) * 64 + 1 * j.val = win4_3.index t (1 : Fin 2) * 64 + 1 * j.val; omega
    | ⟨1, _⟩ => show win4_1.index t (1 : Fin 2) * 64 + 1 * k.val = k.val; omega
  · show V c main_v97 (((cfg4.win 2).blk t).view.emb (ix2 (0 : Fin 1) j)) = V c main_v97 _
    refine congrArg _ (funext fun a => Fin.ext ?_)
    match a with
    | ⟨0, _⟩ => show win4_2.index t (0 : Fin 2) * 1 + 1 * 0 = 0; omega
    | ⟨1, _⟩ => show win4_2.index t (1 : Fin 2) * 64 + 1 * j.val = win4_3.index t (1 : Fin 2) * 64 + 1 * j.val; omega

/-- An index of the output array is in point `t`'s block iff each coordinate is in the block's range on its axis. -/
theorem mem_blk4 (t : Fin cfg4.N) (i : S50000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v98).slice (win4_3.rect t)).set ↔ _
  rw [View.set_slice_whole, Rect.mem_set_unit]
  exact Iff.rfl

/-- The ten row blocks cover the output array: row r lies in block r / 5000. -/
theorem cover4 (i : S50000x64.Idx) : ∃ t : Fin cfg4.N, (cfg4.win 3).flush t = true ∧ i ∈ ((cfg4.win 3).blk t).view.set := by
  have hi0 : (i 0).val < 50000 := (i 0).isLt
  have hi1 : (i 1).val < 64 := (i 1).isLt
  obtain ⟨t, ht⟩ := onto4 ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

/-- THE OUTPUT ARRAY after the stage: the whole result of the arrays as the stage finds them. -/
theorem final4 (c : Dev nD) :
    (dat4 V c).arrAt 3 cfg4.N = whole4 (V c main_v96) (V c main_arg11) (V c main_v97) :=
  (dat4 V c).arrAt_eq_of_cover 3 _ (fun t _ => flushed4 V c t) (cover4)

end Cert.KernelIdeal.Stage

end
-- ==== Proof.KiFinal5.lean ====
/-
  Stage 5's output array after the stage, as ONE function of the three arrays the stage reads.
  The stage's blocks are row blocks: point `t` reads rows 5000·t … 5000·t + 4999 of the input, the whole weight matrix and the
  whole bias row, and writes the same rows of the output; entry (p, j) of what it writes is the stage's value of row p
  of its input block against row j of the weights, plus the bias at j.  Since a row of the result depends on that row of
  the input only, block `t` of the whole-array function below IS what point `t` writes, and the ten blocks cover the array.
-/
import proofs.«115876_j36043365548319_1_alg».proof.Proof.KiRegion5
import proofs.«115876_j36043365548319_1_alg».proof.Proof.PayAt
import Idealize.ShloMosaic.Lib.Pipeline.Value
import Idealize.ShloMosaic.Lib.ValueIdx

set_option maxRecDepth 16384

noncomputable section

namespace Cert.KernelIdeal.Stage

open Cert.KernelIdeal Cert.KernelIdeal.Gen Cert.StageLaw
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

/-- The index maps over the grid: the input's and the output's row block move together, one block per point; the
    weights and the bias stay at their one block; nothing moves along the columns. -/
theorem idx5 : ∀ t : Fin cfg5.N, win5_0.index t (0 : Fin 2) = win5_3.index t (0 : Fin 2) ∧ win5_0.index t (1 : Fin 2) = 0
    ∧ win5_1.index t (0 : Fin 2) = 0 ∧ win5_1.index t (1 : Fin 2) = 0 ∧ win5_2.index t (0 : Fin 2) = 0 ∧ win5_2.index t (1 : Fin 2) = 0
    ∧ win5_3.index t (1 : Fin 2) = 0 ∧ win5_3.index t (0 : Fin 2) ≤ 9 :=
  (by decide +kernel : ∀ t : Fin grid5.N, _)

/-- Every row block is some point's. -/
theorem onto5 : ∀ q : Fin 10, ∃ t : Fin cfg5.N, win5_3.index t = ![q.val, 0] :=
  (by decide +kernel : ∀ q : Fin 10, ∃ t : Fin grid5.N, win5_3.index t = ![q.val, 0])

/-- The stage's whole result: entry (r, j) is the stage's value of row r of `X` against row j of `W`, plus `B` at (0, j). -/
def whole5 (X : S50000x64.Idx → EReal) (W : S2x64.Idx → EReal) (B : S1x2.Idx → EReal) : S50000x2.Idx → EReal :=
  fun i => linVal (fun k : Fin 64 => X (ix2 (⟨(i 0).val, (i 0).isLt⟩ : Fin 50000) k))
    (fun k : Fin 64 => W (ix2 (⟨(i 1).val, (i 1).isLt⟩ : Fin 2) k)) (B (ix2 (0 : Fin 1) (⟨(i 1).val, (i 1).isLt⟩ : Fin 2)))

/-- WHAT POINT `t` WRITES BACK is block `t` of the whole result of the arrays as the stage finds them. -/
theorem flushed5 (c : Dev nD) (t : Fin cfg5.N) :
    (dat5 V c).flushed 3 t = ((cfg5.win 3).blk t).view.read (Elt Ideal) (whole5 (V c main_v98) (V c main_arg13) (V c main_v99)) := by
  show (cfg5.win 3).cut (grid5.coords t) ((dat5 V c).after 3 t) = _
  rw [after5_3]
  unfold out5_3
  rw [View.canon_unit_zero hz5]
  simp only [View.ld_unit_zero (S := S5000x64) hz5, View.ld_unit_zero (S := S2x64) hz5, View.ld_unit_zero (S := S1x2) hz5]
  obtain ⟨e0, e1, e2, e3, e4, e5, e6, e7⟩ := idx5 t
  funext y
  obtain ⟨p, j, rfl⟩ : ∃ (p : Fin 5000) (j : Fin 2), y = ix2 p j := ⟨y 0, y 1, eq_ix2 y⟩
  refine (pay5_apply _ _ _ p j).trans ?_
  show linVal _ _ _ = linVal _ _ _
  refine congr (congr (congrArg linVal ?_) ?_) ?_
  · funext k
    show V c main_v98 (((cfg5.win 0).blk t).view.emb (ix2 p k)) = V c main_v98 _
    refine congrArg _ (funext fun a => Fin.ext ?_)
    match a with
    | ⟨0, _⟩ => show win5_0.index t (0 : Fin 2) * 5000 + 1 * p.val = win5_3.index t (0 : Fin 2) * 5000 + 1 * p.val; omega
    | ⟨1, _⟩ => show win5_0.index t (1 : Fin 2) * 64 + 1 * k.val = k.val; omega
  · funext k
    show V c main_arg13 (((cfg5.win 1).blk t).view.emb (ix2 j k)) = V c main_arg13 _
    refine congrArg _ (funext fun a => Fin.ext ?_)
    match a with
    | ⟨0, _⟩ => show win5_1.index t (0 : Fin 2) * 2 + 1 * j.val = win5_3.index t (1 : Fin 2) * 2 + 1 * j.val; omega
    | ⟨1, _⟩ => show win5_1.index t (1 : Fin 2) * 64 + 1 * k.val = k.val; omega
  · show V c main_v99 (((cfg5.win 2).blk t).view.emb (ix2 (0 : Fin 1) j)) = V c main_v99 _
    refine congrArg _ (funext fun a => Fin.ext ?_)
    match a with
    | ⟨0, _⟩ => show win5_2.index t (0 : Fin 2) * 1 + 1 * 0 = 0; omega
    | ⟨1, _⟩ => show win5_2.index t (1 : Fin 2) * 2 + 1 * j.val = win5_3.index t (1 : Fin 2) * 2 + 1 * j.val; omega

/-- An index of the output array is in point `t`'s block iff each coordinate is in the block's range on its axis. -/
theorem mem_blk5 (t : Fin cfg5.N) (i : S50000x2.Idx) :
    i ∈ ((cfg5.win 3).blk t).view.set ↔ ∀ a : Fin 2, win5_3.index t a * S5000x2.size a ≤ (i a).val ∧ (i a).val < win5_3.index t a * S5000x2.size a + S5000x2.size a := by
  show i ∈ ((View.whole main_v100).slice (win5_3.rect t)).set ↔ _
  rw [View.set_slice_whole, Rect.mem_set_unit]
  exact Iff.rfl

/-- The ten row blocks cover the output array: row r lies in block r / 5000. -/
theorem cover5 (i : S50000x2.Idx) : ∃ t : Fin cfg5.N, (cfg5.win 3).flush t = true ∧ i ∈ ((cfg5.win 3).blk t).view.set := by
  have hi0 : (i 0).val < 50000 := (i 0).isLt
  have hi1 : (i 1).val < 2 := (i 1).isLt
  obtain ⟨t, ht⟩ := onto5 ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_blk5]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 2 ≤ (i 1).val ∧ (i 1).val < win5_3.index t (1 : Fin 2) * 2 + 2; omega

/-- THE OUTPUT ARRAY after the stage: the whole result of the arrays as the stage finds them. -/
theorem final5 (c : Dev nD) :
    (dat5 V c).arrAt 3 cfg5.N = whole5 (V c main_v98) (V c main_arg13) (V c main_v99) :=
  (dat5 V c).arrAt_eq_of_cover 3 _ (fun t _ => flushed5 V c t) (cover5)

end Cert.KernelIdeal.Stage

end
-- ==== Proof.HostChain.lean ====
/-
  The host operations of the kernel's program, read as values.

  Between its stages the program runs plain array operations: the inverse square root of the node degrees, the
  reshaping of each bias vector to a one-row matrix, and twice the same stretch of forty operations that builds the
  three Chebyshev terms of a feature matrix over the graph and joins them side by side. Each lemma below states what
  one buffer holds after one stretch, from any contents before it, as a closed term in the contents of the buffers
  the stretch reads. The Chebyshev stretch is named once, as a function of the feature matrix, the degree column
  and the two edge lists; the reference program's corresponding values are the same function of its own operands.
-/
import proofs.«115876_j36043365548319_1_alg».proof.Proof.Gen.KernelIdeal.Launch
import Idealize.ShloMosaic.PureOps.Ideal

noncomputable section

namespace Cert.HostChain

open Cert.KernelIdeal Cert.KernelIdeal.Gen Idealize.ShloMosaic Idealize.ShloMosaic.TcCoe

/-! ## Reading a stretch of host operations

The contents after a stretch are a fold over its operations. At a buffer, each operation either wrote it, and the fold
is the operation's function of what its operands held before it, or did not, and the fold is what was there. -/

/-- Reads the fold of a literal stretch at a literal buffer, in one pass: every operation's result at its own buffer
    is its function of its operands' contents, and at any other buffer what was there (the two buffers told apart as
    references). A join of several arrays reads its operands through a literal family of references, which is
    evaluated at each position. -/
macro "host_results" : tactic =>
  `(tactic| (simp (disch := decide) only [StableHlo.after_cons, StableHlo.after_nil, Matrix.cons_val,
      StableHlo.nullary_result', StableHlo.unary_result', StableHlo.binary_result', StableHlo.ternary_result',
      StableHlo.reshape_result', StableHlo.nary_result',
      StableHlo.nullary_result_ne', StableHlo.unary_result_ne', StableHlo.binary_result_ne', StableHlo.ternary_result_ne',
      StableHlo.reshape_result_ne', StableHlo.nary_result_ne']))

/-! ## The arrays' types -/

/-- Matrices of 50000 rows of 64, columns of 50000 rows, lists of 800000 edges, and the joined 50000 rows of 192. -/
abbrev Feat : Type := (⟨S50000x64, .f32⟩ : BufTy).Contents (Elt Ideal)
abbrev DegCol : Type := (⟨S50000x1, .f32⟩ : BufTy).Contents (Elt Ideal)
abbrev Edges : Type := (⟨S800000, .i32⟩ : BufTy).Contents (Elt Ideal)
abbrev Feat3 : Type := (⟨S50000x192, .f32⟩ : BufTy).Contents (Elt Ideal)

/-! ## The degree column -/

/-- The inverse square root of each node's in-degree, the degree taken as at least one, as a column: the count of
    the edges into each node, its maximum with one, that to the power minus one half. -/
def degCol (dst : Edges) : DegCol :=
  broadcastInDim S50000x1 ![0] bcast_S50000_S50000x1_0
    (Host.powf (F := Ideal) (φ := .f32)
      (maximumf (F := Ideal) (φ := .f32)
        (Host.scatterAdd (F := Ideal) (φ := .f32) scatter_S50000_S800000x1_S800000_n_0_0_1
          (broadcastInDim S50000 ![] bcast_S_S50000 (constant (F := Ideal) S_ .f32 0x00000000#32))
          (broadcastInDim S800000x1 ![0] bcast_S800000_S800000x1_0 dst)
          (broadcastInDim S800000 ![] bcast_S_S800000 (constant (F := Ideal) S_ .f32 0x3F800000#32)))
        (broadcastInDim S50000 ![] bcast_S_S50000 (constant (F := Ideal) S_ .f32 0x3F800000#32)))
      (broadcastInDim S50000 ![] bcast_S_S50000 (constant (F := Ideal) S_ .f32 0xBF000000#32)))

/-- After the first stretch the degree buffer holds the degree column of the edges' targets. -/
theorem deg_eq (V : Valuation τ sig (Elt Ideal)) :
    StableHlo.after hostOps0 V main_v8 = degCol (V main_arg2) := by
  dsimp only [hostOps0]; host_results; rfl

/-! ## The bias vectors as one-row matrices -/

/-- The first stage's bias, a vector of 64, as a matrix of one row. -/
theorem bias0_eq (V : Valuation τ sig (Elt Ideal)) :
    StableHlo.after hostOps0 V main_v9
      = (shapeCast S1x64 (V main_arg4 : (⟨S64, .f32⟩ : BufTy).Contents (Elt Ideal)) shapeCasts_S64_S1x64
          : (⟨S1x64, .f32⟩ : BufTy).Contents (Elt Ideal)) := by
  dsimp only [hostOps0]; after_results; rfl

/-- The second stage's bias as a matrix of one row. -/
theorem bias1_eq (V : Valuation τ sig (Elt Ideal)) :
    StableHlo.after hostOps1 V main_v11
      = (shapeCast S1x64 (V main_arg6 : (⟨S64, .f32⟩ : BufTy).Contents (Elt Ideal)) shapeCasts_S64_S1x64
          : (⟨S1x64, .f32⟩ : BufTy).Contents (Elt Ideal)) := by
  dsimp only [hostOps1]; after_results; rfl

/-- The fifth stage's bias as a matrix of one row. -/
theorem bias4_eq (V : Valuation τ sig (Elt Ideal)) :
    StableHlo.after hostOps4 V main_v97
      = (shapeCast S1x64 (V main_arg12 : (⟨S64, .f32⟩ : BufTy).Contents (Elt Ideal)) shapeCasts_S64_S1x64
          : (⟨S1x64, .f32⟩ : BufTy).Contents (Elt Ideal)) := by
  dsimp only [hostOps4]; after_results; rfl

/-- The last stage's bias, a vector of 2, as a matrix of one row. -/
theorem bias5_eq (V : Valuation τ sig (Elt Ideal)) :
    StableHlo.after hostOps5 V main_v99
      = (shapeCast S1x2 (V main_arg14 : (⟨S2, .f32⟩ : BufTy).Contents (Elt Ideal)) shapeCasts_S2_S1x2
          : (⟨S1x2, .f32⟩ : BufTy).Contents (Elt Ideal)) := by
  dsimp only [hostOps5]; after_results; rfl

/-- The third stage's bias as a matrix of one row. -/
theorem bias2_eq (V : Valuation τ sig (Elt Ideal)) :
    StableHlo.after hostOps2 V main_v53
      = (shapeCast S1x64 (V main_arg8 : (⟨S64, .f32⟩ : BufTy).Contents (Elt Ideal)) shapeCasts_S64_S1x64
          : (⟨S1x64, .f32⟩ : BufTy).Contents (Elt Ideal)) := by
  dsimp only [hostOps2]; host_results; rfl

/-- The fourth stage's bias as a matrix of one row. -/
theorem bias3_eq (V : Valuation τ sig (Elt Ideal)) :
    StableHlo.after hostOps3 V main_v95
      = (shapeCast S1x64 (V main_arg10 : (⟨S64, .f32⟩ : BufTy).Contents (Elt Ideal)) shapeCasts_S64_S1x64
          : (⟨S1x64, .f32⟩ : BufTy).Contents (Elt Ideal)) := by
  dsimp only [hostOps3]; host_results; rfl

/-! ## The Chebyshev stretch as one function

From a feature matrix `h`, the degree column `d` (the inverse square roots of the node degrees) and the two edge lists,
the stretch computes the three terms `h`, `T₁ = -(L h) + 0·h` and `T₂ = (-2·(L T₁) + 0·T₁) - h`, where `L y` scales
the rows of `y` by `d`, sums over each node's incoming edges the rows at the edges' sources, and scales the rows by
`d` again; and joins the three side by side. -/

/-- The matrix whose every entry is the f32 value of the given bits. -/
def splat (b : BitVec 32) : Feat :=
  broadcastInDim S50000x64 ![] bcast_S_S50000x64 (constant (F := Ideal) S_ .f32 b)

/-- Each row of `y` times the row's entry of the column `d`. -/
def scaleRows (d : DegCol) (y : Feat) : Feat :=
  mulf (F := Ideal) (φ := .f32) y (broadcastInDim S50000x64 ![0, 1] bcast_S50000x1_S50000x64_0_1 d)

/-- The edges' source nodes as a column of row numbers: a negative entry counts from the end. -/
def srcRows (src : Edges) : (⟨S800000x1, .i32⟩ : BufTy).Contents (Elt Ideal) :=
  broadcastInDim S800000x1 ![0] bcast_S800000_S800000x1_0
    (select
      (cmpi .slt src (broadcastInDim S800000 ![] bcast_S_S800000 (constantI S_ 32 0#32 : (⟨S_, .i32⟩ : BufTy).Contents (Elt Ideal))))
      (addi src (broadcastInDim S800000 ![] bcast_S_S800000 (constantI S_ 32 50000#32 : (⟨S_, .i32⟩ : BufTy).Contents (Elt Ideal))))
      src : Edges)

/-- For each node, the sum over the edges into it of the rows of `y` at the edges' sources. -/
def sumOverEdges (y : Feat) (src dst : Edges) : Feat :=
  Host.scatterAdd (F := Ideal) (φ := .f32) scatter_S50000x64_S800000x1_S800000x64_1_0_0_1 (splat 0x00000000#32)
    (broadcastInDim S800000x1 ![0] bcast_S800000_S800000x1_0 dst)
    (Host.gather gather_S50000x64_S800000x1_S800000x64_1_0_n_n_0_1_164 y (srcRows src))

/-- The degree-normalized neighbour sum: scale the rows, sum over the edges, scale the rows. -/
def lap (d : DegCol) (src dst : Edges) (y : Feat) : Feat :=
  scaleRows d (sumOverEdges (scaleRows d y) src dst)

/-- The second Chebyshev term. -/
def cheb1 (h : Feat) (d : DegCol) (src dst : Edges) : Feat :=
  addf (F := Ideal) (φ := .f32) (mulf (F := Ideal) (φ := .f32) (splat 0xBF800000#32) (lap d src dst h)) (mulf (F := Ideal) (φ := .f32) h (splat 0x00000000#32))

/-- The third Chebyshev term. -/
def cheb2 (h : Feat) (d : DegCol) (src dst : Edges) : Feat :=
  subf (F := Ideal) (φ := .f32) (addf (F := Ideal) (φ := .f32) (mulf (F := Ideal) (φ := .f32) (splat 0xC0000000#32) (lap d src dst (cheb1 h d src dst))) (mulf (F := Ideal) (φ := .f32) (cheb1 h d src dst) (splat 0x00000000#32))) h

/-- The three Chebyshev terms side by side. -/
def cheb (h : Feat) (d : DegCol) (src dst : Edges) : Feat3 :=
  concatenate S50000x192 1 [⟨S50000x64, h⟩, ⟨S50000x64, cheb1 h d src dst⟩, ⟨S50000x64, cheb2 h d src dst⟩]
    concatenates_S50000x64_S50000x64_S50000x64_S50000x192_d1

/-- Joining three matrices respects equality of each. -/
theorem concat3_congr {a a' b b' c c' : Feat} (ha : a = a') (hb : b = b') (hc : c = c') :
    (concatenate S50000x192 1 [⟨S50000x64, a⟩, ⟨S50000x64, b⟩, ⟨S50000x64, c⟩]
        concatenates_S50000x64_S50000x64_S50000x64_S50000x192_d1 : Feat3)
      = concatenate S50000x192 1 [⟨S50000x64, a'⟩, ⟨S50000x64, b'⟩, ⟨S50000x64, c'⟩]
        concatenates_S50000x64_S50000x64_S50000x64_S50000x192_d1 := by
  subst ha hb hc; rfl

set_option maxHeartbeats 1000000 in
set_option maxRecDepth 4096 in
/-- The third stage's input: the Chebyshev terms of the second stage's output. -/
theorem cheb2_eq (V : Valuation τ sig (Elt Ideal)) :
    StableHlo.after hostOps2 V main_v52 = cheb (V main_v12) (V main_v8) (V main_arg1) (V main_arg2) := by
  dsimp only [hostOps2]
  host_results
  unfold cheb
  refine concat3_congr ?_ ?_ ?_
  · host_results
  · host_results; rfl
  · host_results; rfl

set_option maxHeartbeats 1000000 in
set_option maxRecDepth 4096 in
/-- The fourth stage's input: the Chebyshev terms of the third stage's output. -/
theorem cheb3_eq (V : Valuation τ sig (Elt Ideal)) :
    StableHlo.after hostOps3 V main_v94 = cheb (V main_v54) (V main_v8) (V main_arg1) (V main_arg2) := by
  dsimp only [hostOps3]
  host_results
  unfold cheb
  refine concat3_congr ?_ ?_ ?_
  · host_results
  · host_results; rfl
  · host_results; rfl

end Cert.HostChain
end
-- ==== Proof.KiValue.lean ====
/-
  The value the kernel's program leaves in its result, as one term over the launch memory.
  Reading the last boundary's contents backwards: the result buffer holds the sixth stage's whole result; a stage's
  input is the stage before it (stages 1, 4, 5), or the Chebyshev stretch of host operations applied to the stage
  before it, the inverse-square-root degree column and the edge lists (stages 2, 3), or an argument (stage 0); its
  weights are an argument, and its bias row an argument vector cast to a row.  Buffers that nothing writes in between
  are read through the boundaries unchanged.
-/
import proofs.«115876_j36043365548319_1_alg».proof.Proof.KiRun
import proofs.«115876_j36043365548319_1_alg».proof.Proof.KiFinal0
import proofs.«115876_j36043365548319_1_alg».proof.Proof.KiFinal1
import proofs.«115876_j36043365548319_1_alg».proof.Proof.KiFinal2
import proofs.«115876_j36043365548319_1_alg».proof.Proof.KiFinal3
import proofs.«115876_j36043365548319_1_alg».proof.Proof.KiFinal4
import proofs.«115876_j36043365548319_1_alg».proof.Proof.KiFinal5
import proofs.«115876_j36043365548319_1_alg».proof.Proof.HostChain

set_option maxRecDepth 16384

noncomputable section

namespace Cert.KernelIdeal.Stage

open Cert.KernelIdeal Cert.KernelIdeal.Gen Cert.StageLaw Cert.HostChain
open Idealize.ShloMosaic Idealize.ShloMosaic.TcCoe Idealize.SL.Sem

variable (m : (ℓ : Loc nD τ sig) → Buf (Elt Ideal) ℓ) (ρ : Dev nD → PrngReg)

/-- The degree column, as every later boundary still holds it. -/
abbrev dcol (c : Dev nD) : DegCol := degCol (W0 m ρ c main_arg2)

/-- The six stages' results, each from the one before. -/
def s0 (c : Dev nD) : Feat := whole0 (W0 m ρ c main_arg0) (W0 m ρ c main_arg3) (shapeCast S1x64 (W0 m ρ c main_arg4 : (⟨S64, .f32⟩ : BufTy).Contents (Elt Ideal)) shapeCasts_S64_S1x64 : (⟨S1x64, .f32⟩ : BufTy).Contents (Elt Ideal))
def s1 (c : Dev nD) : Feat := whole1 (s0 m ρ c) (W0 m ρ c main_arg5) (shapeCast S1x64 (W0 m ρ c main_arg6 : (⟨S64, .f32⟩ : BufTy).Contents (Elt Ideal)) shapeCasts_S64_S1x64 : (⟨S1x64, .f32⟩ : BufTy).Contents (Elt Ideal))
def s2 (c : Dev nD) : Feat := whole2 (cheb (s1 m ρ c) (dcol m ρ c) (W0 m ρ c main_arg1) (W0 m ρ c main_arg2)) (W0 m ρ c main_arg7) (shapeCast S1x64 (W0 m ρ c main_arg8 : (⟨S64, .f32⟩ : BufTy).Contents (Elt Ideal)) shapeCasts_S64_S1x64 : (⟨S1x64, .f32⟩ : BufTy).Contents (Elt Ideal))
def s3 (c : Dev nD) : Feat := whole3 (cheb (s2 m ρ c) (dcol m ρ c) (W0 m ρ c main_arg1) (W0 m ρ c main_arg2)) (W0 m ρ c main_arg9) (shapeCast S1x64 (W0 m ρ c main_arg10 : (⟨S64, .f32⟩ : BufTy).Contents (Elt Ideal)) shapeCasts_S64_S1x64 : (⟨S1x64, .f32⟩ : BufTy).Contents (Elt Ideal))
def s4 (c : Dev nD) : Feat := whole4 (s3 m ρ c) (W0 m ρ c main_arg11) (shapeCast S1x64 (W0 m ρ c main_arg12 : (⟨S64, .f32⟩ : BufTy).Contents (Elt Ideal)) shapeCasts_S64_S1x64 : (⟨S1x64, .f32⟩ : BufTy).Contents (Elt Ideal))
def s5 (c : Dev nD) : (⟨S50000x2, .f32⟩ : BufTy).Contents (Elt Ideal) := whole5 (s4 m ρ c) (W0 m ρ c main_arg13) (shapeCast S1x2 (W0 m ρ c main_arg14 : (⟨S2, .f32⟩ : BufTy).Contents (Elt Ideal)) shapeCasts_S2_S1x2 : (⟨S1x2, .f32⟩ : BufTy).Contents (Elt Ideal))

theorem res0_eq (c : Dev nD) : res0 m ρ c = s0 m ρ c :=
  (final0 (U1 m ρ) c).trans (congr (congr (congrArg whole0 ((W1_of m ρ c main_arg0 (by decide)))) ((W1_of m ρ c main_arg3 (by decide)))) (bias0_eq (W0 m ρ c)))

theorem res1_eq (c : Dev nD) : res1 m ρ c = s1 m ρ c :=
  (final1 (U3 m ρ) c).trans (congr (congr (congrArg whole1 (((W3_of m ρ c main_v10 (by decide)).trans (W2_out m ρ c)).trans (res0_eq m ρ c)))
    ((W3_of m ρ c main_arg5 (by decide)).trans <| (W2_of m ρ c main_arg5 (by decide)).trans <| (W1_of m ρ c main_arg5 (by decide)))) ((bias1_eq (W2 m ρ c)).trans (congrArg (fun v => shapeCast S1x64 v shapeCasts_S64_S1x64) ((W2_of m ρ c main_arg6 (by decide)).trans <| (W1_of m ρ c main_arg6 (by decide))))))

theorem dcol4 (c : Dev nD) : W4 m ρ c main_v8 = dcol m ρ c :=
  ((W4_of m ρ c main_v8 (by decide)).trans <| (W3_of m ρ c main_v8 (by decide)).trans <| (W2_of m ρ c main_v8 (by decide))).trans (deg_eq (W0 m ρ c))
theorem dcol6 (c : Dev nD) : W6 m ρ c main_v8 = dcol m ρ c :=
  ((W6_of m ρ c main_v8 (by decide)).trans <| (W5_of m ρ c main_v8 (by decide))).trans (dcol4 m ρ c)

theorem res2_eq (c : Dev nD) : res2 m ρ c = s2 m ρ c :=
  (final2 (U5 m ρ) c).trans (congr (congr (congrArg whole2 ((cheb2_eq (W4 m ρ c)).trans
      (congr (congr (congr (congrArg cheb ((W4_out m ρ c).trans (res1_eq m ρ c))) (dcol4 m ρ c)) ((W4_of m ρ c main_arg1 (by decide)).trans <| (W3_of m ρ c main_arg1 (by decide)).trans <| (W2_of m ρ c main_arg1 (by decide)).trans <| (W1_of m ρ c main_arg1 (by decide)))) ((W4_of m ρ c main_arg2 (by decide)).trans <| (W3_of m ρ c main_arg2 (by decide)).trans <| (W2_of m ρ c main_arg2 (by decide)).trans <| (W1_of m ρ c main_arg2 (by decide))))))
    ((W5_of m ρ c main_arg7 (by decide)).trans <| (W4_of m ρ c main_arg7 (by decide)).trans <| (W3_of m ρ c main_arg7 (by decide)).trans <| (W2_of m ρ c main_arg7 (by decide)).trans <| (W1_of m ρ c main_arg7 (by decide)))) ((bias2_eq (W4 m ρ c)).trans (congrArg (fun v => shapeCast S1x64 v shapeCasts_S64_S1x64) ((W4_of m ρ c main_arg8 (by decide)).trans <| (W3_of m ρ c main_arg8 (by decide)).trans <| (W2_of m ρ c main_arg8 (by decide)).trans <| (W1_of m ρ c main_arg8 (by decide))))))

theorem res3_eq (c : Dev nD) : res3 m ρ c = s3 m ρ c :=
  (final3 (U7 m ρ) c).trans (congr (congr (congrArg whole3 ((cheb3_eq (W6 m ρ c)).trans
      (congr (congr (congr (congrArg cheb ((W6_out m ρ c).trans (res2_eq m ρ c))) (dcol6 m ρ c)) ((W6_of m ρ c main_arg1 (by decide)).trans <| (W5_of m ρ c main_arg1 (by decide)).trans <| (W4_of m ρ c main_arg1 (by decide)).trans <| (W3_of m ρ c main_arg1 (by decide)).trans <| (W2_of m ρ c main_arg1 (by decide)).trans <| (W1_of m ρ c main_arg1 (by decide)))) ((W6_of m ρ c main_arg2 (by decide)).trans <| (W5_of m ρ c main_arg2 (by decide)).trans <| (W4_of m ρ c main_arg2 (by decide)).trans <| (W3_of m ρ c main_arg2 (by decide)).trans <| (W2_of m ρ c main_arg2 (by decide)).trans <| (W1_of m ρ c main_arg2 (by decide))))))
    ((W7_of m ρ c main_arg9 (by decide)).trans <| (W6_of m ρ c main_arg9 (by decide)).trans <| (W5_of m ρ c main_arg9 (by decide)).trans <| (W4_of m ρ c main_arg9 (by decide)).trans <| (W3_of m ρ c main_arg9 (by decide)).trans <| (W2_of m ρ c main_arg9 (by decide)).trans <| (W1_of m ρ c main_arg9 (by decide)))) ((bias3_eq (W6 m ρ c)).trans (congrArg (fun v => shapeCast S1x64 v shapeCasts_S64_S1x64) ((W6_of m ρ c main_arg10 (by decide)).trans <| (W5_of m ρ c main_arg10 (by decide)).trans <| (W4_of m ρ c main_arg10 (by decide)).trans <| (W3_of m ρ c main_arg10 (by decide)).trans <| (W2_of m ρ c main_arg10 (by decide)).trans <| (W1_of m ρ c main_arg10 (by decide))))))

theorem res4_eq (c : Dev nD) : res4 m ρ c = s4 m ρ c :=
  (final4 (U9 m ρ) c).trans (congr (congr (congrArg whole4 (((W9_of m ρ c main_v96 (by decide)).trans (W8_out m ρ c)).trans (res3_eq m ρ c)))
    ((W9_of m ρ c main_arg11 (by decide)).trans <| (W8_of m ρ c main_arg11 (by decide)).trans <| (W7_of m ρ c main_arg11 (by decide)).trans <| (W6_of m ρ c main_arg11 (by decide)).trans <| (W5_of m ρ c main_arg11 (by decide)).trans <| (W4_of m ρ c main_arg11 (by decide)).trans <| (W3_of m ρ c main_arg11 (by decide)).trans <| (W2_of m ρ c main_arg11 (by decide)).trans <| (W1_of m ρ c main_arg11 (by decide)))) ((bias4_eq (W8 m ρ c)).trans (congrArg (fun v => shapeCast S1x64 v shapeCasts_S64_S1x64) ((W8_of m ρ c main_arg12 (by decide)).trans <| (W7_of m ρ c main_arg12 (by decide)).trans <| (W6_of m ρ c main_arg12 (by decide)).trans <| (W5_of m ρ c main_arg12 (by decide)).trans <| (W4_of m ρ c main_arg12 (by decide)).trans <| (W3_of m ρ c main_arg12 (by decide)).trans <| (W2_of m ρ c main_arg12 (by decide)).trans <| (W1_of m ρ c main_arg12 (by decide))))))

theorem res5_eq (c : Dev nD) : res5 m ρ c = s5 m ρ c :=
  (final5 (U11 m ρ) c).trans (congr (congr (congrArg whole5 (((W11_of m ρ c main_v98 (by decide)).trans (W10_out m ρ c)).trans (res4_eq m ρ c)))
    ((W11_of m ρ c main_arg13 (by decide)).trans <| (W10_of m ρ c main_arg13 (by decide)).trans <| (W9_of m ρ c main_arg13 (by decide)).trans <| (W8_of m ρ c main_arg13 (by decide)).trans <| (W7_of m ρ c main_arg13 (by decide)).trans <| (W6_of m ρ c main_arg13 (by decide)).trans <| (W5_of m ρ c main_arg13 (by decide)).trans <| (W4_of m ρ c main_arg13 (by decide)).trans <| (W3_of m ρ c main_arg13 (by decide)).trans <| (W2_of m ρ c main_arg13 (by decide)).trans <| (W1_of m ρ c main_arg13 (by decide)))) ((bias5_eq (W10 m ρ c)).trans (congrArg (fun v => shapeCast S1x2 v shapeCasts_S2_S1x2) ((W10_of m ρ c main_arg14 (by decide)).trans <| (W9_of m ρ c main_arg14 (by decide)).trans <| (W8_of m ρ c main_arg14 (by decide)).trans <| (W7_of m ρ c main_arg14 (by decide)).trans <| (W6_of m ρ c main_arg14 (by decide)).trans <| (W5_of m ρ c main_arg14 (by decide)).trans <| (W4_of m ρ c main_arg14 (by decide)).trans <| (W3_of m ρ c main_arg14 (by decide)).trans <| (W2_of m ρ c main_arg14 (by decide)).trans <| (W1_of m ρ c main_arg14 (by decide))))))

/-- THE RESULT: at the last boundary the result buffer holds the sixth stage's value. -/
theorem result_eq (c : Dev nD) : W12 m ρ c main_v100 = s5 m ρ c :=
  (W12_out m ρ c).trans (res5_eq m ρ c)

end Cert.KernelIdeal.Stage

end
-- ==== Proof.RefStageDefs.lean ====
/-
  The reference's dense stages as functions of their operands, read at one output position.

  Each stage of the reference transposes the weight matrix, multiplies the input by it, adds the bias vector
  broadcast first to a one-row matrix and then down every row, and (in all stages but the last) takes the maximum with a
  matrix of zeros. On the extended reals every operation is exact, so the entry at row r and column j is the inner
  product of row r of the input and row j of the weights, plus the bias at j, rectified. The stage is first proved
  over variable extents and then read off at each stage's shapes; each stage's input is kept as a variable.
-/
import proofs.«115876_j36043365548319_1_alg».proof.Proof.Gen.ReferenceIdeal
import proofs.«115876_j36043365548319_1_alg».proof.Proof.StageVal
import proofs.«115876_j36043365548319_1_alg».proof.Proof.LibPlainDot
import proofs.«115876_j36043365548319_1_alg».proof.Proof.LibRowBroadcasts
import proofs.«115876_j36043365548319_1_alg».proof.Proof.LibMergeRows

noncomputable section

namespace Cert.StageLaw

open Idealize.ShloMosaic Idealize.ShloMosaic.ValueIdx
open Cert.ReferenceIdeal Cert.ReferenceIdeal.Gen
open scoped BigOperators

section general

variable {a c b : Nat}

/-- A length-b vector broadcast along dimension 1 to a 1 × b row reads, at (·, q), the vector at q. -/
theorem dimVec_apply {α : Type} (v : (⟨1, ![b]⟩ : Shape).Idx → α)
    (hb : (⟨1, ![b]⟩ : Shape).BroadcastsInDim ⟨2, ![1, b]⟩ ![1]) (u : Fin 1) (q : Fin b) :
    broadcastInDim ⟨2, ![1, b]⟩ ![1] hb v (ix2 u q) = v (ix1 q) :=
  broadcastInDim_apply _ hb v (ix2 u q) (ix1 q) fun ax => by
    match ax with
    | ⟨0, _⟩ =>
      show q.val = if b = 1 then 0 else q.val
      split
      · have := q.isLt; omega
      · rfl

/-- A scalar broadcast to a matrix reads the scalar everywhere. -/
theorem dimScalar_apply {α : Type} (v : (⟨0, ![]⟩ : Shape).Idx → α)
    (h0 : (⟨0, ![]⟩ : Shape).BroadcastsInDim ⟨2, ![a, b]⟩ ![]) (i : (⟨2, ![a, b]⟩ : Shape).Idx) :
    broadcastInDim ⟨2, ![a, b]⟩ ![] h0 v i = v ix0 :=
  broadcastInDim_apply _ h0 v i ix0 fun ax => ax.elim0

/-- The product with the transposed weights, at (r, j): the inner product of row r and row j. -/
theorem denseDot_apply (wf : DotDims.WF ⟨2, ![a, c]⟩ ⟨2, ![c, b]⟩ ⟨2, ![a, b]⟩ [1] [0] [0] [1] [] [])
    (hT : (⟨2, ![b, c]⟩ : Shape).Transposes [1, 0] ⟨2, ![c, b]⟩)
    (X : FVec Ideal ⟨2, ![a, c]⟩ .f32) (W : FVec Ideal ⟨2, ![b, c]⟩ .f32) (r : Fin a) (j : Fin b) :
    Host.dotGeneral (F := Ideal) (Cert.Lib.PlainDot.dims wf) none X (transpose ⟨2, ![c, b]⟩ [1, 0] W hT) (ix2 r j)
      = ∑ k : Fin c, X (ix2 r k) * W (ix2 j k) := by
  refine (Cert.Lib.PlainDot.dotGeneral_apply wf none X _ r j).trans ?_
  refine Finset.sum_congr rfl fun k _ => ?_
  rw [Cert.Lib.MergeRows.transpose_apply]

/-- The bias vector, made a row and broadcast down the rows, at (r, j): the bias at j. -/
theorem denseBias_apply (hb1 : (⟨1, ![b]⟩ : Shape).BroadcastsInDim ⟨2, ![1, b]⟩ ![1])
    (hb2 : (⟨2, ![1, b]⟩ : Shape).BroadcastsInDim ⟨2, ![a, b]⟩ ![0, 1])
    (bv : FVec Ideal ⟨1, ![b]⟩ .f32) (r : Fin a) (j : Fin b) :
    broadcastInDim ⟨2, ![a, b]⟩ ![0, 1] hb2 (broadcastInDim ⟨2, ![1, b]⟩ ![1] hb1 bv) (ix2 r j) = bv (ix1 j) :=
  (Cert.Lib.Rows.dimRow_apply _ hb2 r j).trans (dimVec_apply bv hb1 0 j)

/-- A stage without the rectifier, at (r, j). -/
theorem denseLin_apply (wf : DotDims.WF ⟨2, ![a, c]⟩ ⟨2, ![c, b]⟩ ⟨2, ![a, b]⟩ [1] [0] [0] [1] [] [])
    (hT : (⟨2, ![b, c]⟩ : Shape).Transposes [1, 0] ⟨2, ![c, b]⟩)
    (hb1 : (⟨1, ![b]⟩ : Shape).BroadcastsInDim ⟨2, ![1, b]⟩ ![1])
    (hb2 : (⟨2, ![1, b]⟩ : Shape).BroadcastsInDim ⟨2, ![a, b]⟩ ![0, 1])
    (X : FVec Ideal ⟨2, ![a, c]⟩ .f32) (W : FVec Ideal ⟨2, ![b, c]⟩ .f32) (bv : FVec Ideal ⟨1, ![b]⟩ .f32)
    (r : Fin a) (j : Fin b) :
    addf (Host.dotGeneral (F := Ideal) (Cert.Lib.PlainDot.dims wf) none X (transpose ⟨2, ![c, b]⟩ [1, 0] W hT))
        (broadcastInDim ⟨2, ![a, b]⟩ ![0, 1] hb2 (broadcastInDim ⟨2, ![1, b]⟩ ![1] hb1 bv)) (ix2 r j)
      = linVal (fun k : Fin c => X (ix2 r k)) (fun k => W (ix2 j k)) (bv (ix1 j)) := by
  show _ + _ = _
  rw [denseDot_apply wf hT X W r j, denseBias_apply hb1 hb2 bv r j]
  rfl

/-- A stage with the rectifier, at (r, j). -/
theorem denseRelu_apply (wf : DotDims.WF ⟨2, ![a, c]⟩ ⟨2, ![c, b]⟩ ⟨2, ![a, b]⟩ [1] [0] [0] [1] [] [])
    (hT : (⟨2, ![b, c]⟩ : Shape).Transposes [1, 0] ⟨2, ![c, b]⟩)
    (hb1 : (⟨1, ![b]⟩ : Shape).BroadcastsInDim ⟨2, ![1, b]⟩ ![1])
    (hb2 : (⟨2, ![1, b]⟩ : Shape).BroadcastsInDim ⟨2, ![a, b]⟩ ![0, 1])
    (h0 : (⟨0, ![]⟩ : Shape).BroadcastsInDim ⟨2, ![a, b]⟩ ![])
    (X : FVec Ideal ⟨2, ![a, c]⟩ .f32) (W : FVec Ideal ⟨2, ![b, c]⟩ .f32) (bv : FVec Ideal ⟨1, ![b]⟩ .f32)
    (r : Fin a) (j : Fin b) :
    maximumf
        (addf (Host.dotGeneral (F := Ideal) (Cert.Lib.PlainDot.dims wf) none X (transpose ⟨2, ![c, b]⟩ [1, 0] W hT))
          (broadcastInDim ⟨2, ![a, b]⟩ ![0, 1] hb2 (broadcastInDim ⟨2, ![1, b]⟩ ![1] hb1 bv)))
        (broadcastInDim ⟨2, ![a, b]⟩ ![] h0 (constant (F := Ideal) ⟨0, ![]⟩ .f32 0x00000000#32)) (ix2 r j)
      = reluVal (fun k : Fin c => X (ix2 r k)) (fun k => W (ix2 j k)) (bv (ix1 j)) := by
  show max _ _ = _
  rw [denseLin_apply wf hT hb1 hb2 X W bv r j, dimScalar_apply _ h0 (ix2 r j)]
  rfl

end general

/-- Stage 0 of the reference as a function of its input, its weights and its bias. -/
noncomputable def refStage0 (X : FVec Ideal S50000x128 .f32) (W : FVec Ideal S64x128 .f32) (b : FVec Ideal S64 .f32) :
    FVec Ideal S50000x64 .f32 :=
  maximumf
    (addf (Host.dotGeneral dot_S50000x128_S128x64_S50000x64_1_0_0_1_n_n none X (transpose S128x64 [1, 0] W transposes_S64x128_S128x64_1_0))
      (broadcastInDim S50000x64 ![0, 1] bcast_S1x64_S50000x64_0_1 (broadcastInDim S1x64 ![1] bcast_S64_S1x64_1 b)))
    (broadcastInDim S50000x64 ![] bcast_S_S50000x64 (constant S_ .f32 0x00000000#32))

theorem refStage0_apply (X : FVec Ideal S50000x128 .f32) (W : FVec Ideal S64x128 .f32) (b : FVec Ideal S64 .f32)
    (r : Fin 50000) (j : Fin 64) :
    refStage0 X W b (ix2 r j)
      = reluVal (fun k : Fin 128 => X (ix2 r k)) (fun k => W (ix2 j k)) (b (ix1 j)) :=
  denseRelu_apply dot_S50000x128_S128x64_S50000x64_1_0_0_1_n_n_wf transposes_S64x128_S128x64_1_0 bcast_S64_S1x64_1
    bcast_S1x64_S50000x64_0_1 bcast_S_S50000x64 X W b r j

/-- Stage 1 of the reference as a function of its input, its weights and its bias. -/
noncomputable def refStage1 (X : FVec Ideal S50000x64 .f32) (W : FVec Ideal S64x64 .f32) (b : FVec Ideal S64 .f32) :
    FVec Ideal S50000x64 .f32 :=
  maximumf
    (addf (Host.dotGeneral dot_S50000x64_S64x64_S50000x64_1_0_0_1_n_n none X (transpose S64x64 [1, 0] W transposes_S64x64_S64x64_1_0))
      (broadcastInDim S50000x64 ![0, 1] bcast_S1x64_S50000x64_0_1 (broadcastInDim S1x64 ![1] bcast_S64_S1x64_1 b)))
    (broadcastInDim S50000x64 ![] bcast_S_S50000x64 (constant S_ .f32 0x00000000#32))

theorem refStage1_apply (X : FVec Ideal S50000x64 .f32) (W : FVec Ideal S64x64 .f32) (b : FVec Ideal S64 .f32)
    (r : Fin 50000) (j : Fin 64) :
    refStage1 X W b (ix2 r j)
      = reluVal (fun k : Fin 64 => X (ix2 r k)) (fun k => W (ix2 j k)) (b (ix1 j)) :=
  denseRelu_apply dot_S50000x64_S64x64_S50000x64_1_0_0_1_n_n_wf transposes_S64x64_S64x64_1_0 bcast_S64_S1x64_1
    bcast_S1x64_S50000x64_0_1 bcast_S_S50000x64 X W b r j

/-- Stage 2 of the reference as a function of its input, its weights and its bias. -/
noncomputable def refStage2 (X : FVec Ideal S50000x192 .f32) (W : FVec Ideal S64x192 .f32) (b : FVec Ideal S64 .f32) :
    FVec Ideal S50000x64 .f32 :=
  maximumf
    (addf (Host.dotGeneral dot_S50000x192_S192x64_S50000x64_1_0_0_1_n_n none X (transpose S192x64 [1, 0] W transposes_S64x192_S192x64_1_0))
      (broadcastInDim S50000x64 ![0, 1] bcast_S1x64_S50000x64_0_1 (broadcastInDim S1x64 ![1] bcast_S64_S1x64_1 b)))
    (broadcastInDim S50000x64 ![] bcast_S_S50000x64 (constant S_ .f32 0x00000000#32))

theorem refStage2_apply (X : FVec Ideal S50000x192 .f32) (W : FVec Ideal S64x192 .f32) (b : FVec Ideal S64 .f32)
    (r : Fin 50000) (j : Fin 64) :
    refStage2 X W b (ix2 r j)
      = reluVal (fun k : Fin 192 => X (ix2 r k)) (fun k => W (ix2 j k)) (b (ix1 j)) :=
  denseRelu_apply dot_S50000x192_S192x64_S50000x64_1_0_0_1_n_n_wf transposes_S64x192_S192x64_1_0 bcast_S64_S1x64_1
    bcast_S1x64_S50000x64_0_1 bcast_S_S50000x64 X W b r j

/-- Stage 3 of the reference as a function of its input, its weights and its bias. -/
noncomputable def refStage3 (X : FVec Ideal S50000x192 .f32) (W : FVec Ideal S64x192 .f32) (b : FVec Ideal S64 .f32) :
    FVec Ideal S50000x64 .f32 :=
  maximumf
    (addf (Host.dotGeneral dot_S50000x192_S192x64_S50000x64_1_0_0_1_n_n none X (transpose S192x64 [1, 0] W transposes_S64x192_S192x64_1_0))
      (broadcastInDim S50000x64 ![0, 1] bcast_S1x64_S50000x64_0_1 (broadcastInDim S1x64 ![1] bcast_S64_S1x64_1 b)))
    (broadcastInDim S50000x64 ![] bcast_S_S50000x64 (constant S_ .f32 0x00000000#32))

theorem refStage3_apply (X : FVec Ideal S50000x192 .f32) (W : FVec Ideal S64x192 .f32) (b : FVec Ideal S64 .f32)
    (r : Fin 50000) (j : Fin 64) :
    refStage3 X W b (ix2 r j)
      = reluVal (fun k : Fin 192 => X (ix2 r k)) (fun k => W (ix2 j k)) (b (ix1 j)) :=
  denseRelu_apply dot_S50000x192_S192x64_S50000x64_1_0_0_1_n_n_wf transposes_S64x192_S192x64_1_0 bcast_S64_S1x64_1
    bcast_S1x64_S50000x64_0_1 bcast_S_S50000x64 X W b r j

/-- Stage 4 of the reference as a function of its input, its weights and its bias. -/
noncomputable def refStage4 (X : FVec Ideal S50000x64 .f32) (W : FVec Ideal S64x64 .f32) (b : FVec Ideal S64 .f32) :
    FVec Ideal S50000x64 .f32 :=
  maximumf
    (addf (Host.dotGeneral dot_S50000x64_S64x64_S50000x64_1_0_0_1_n_n none X (transpose S64x64 [1, 0] W transposes_S64x64_S64x64_1_0))
      (broadcastInDim S50000x64 ![0, 1] bcast_S1x64_S50000x64_0_1 (broadcastInDim S1x64 ![1] bcast_S64_S1x64_1 b)))
    (broadcastInDim S50000x64 ![] bcast_S_S50000x64 (constant S_ .f32 0x00000000#32))

theorem refStage4_apply (X : FVec Ideal S50000x64 .f32) (W : FVec Ideal S64x64 .f32) (b : FVec Ideal S64 .f32)
    (r : Fin 50000) (j : Fin 64) :
    refStage4 X W b (ix2 r j)
      = reluVal (fun k : Fin 64 => X (ix2 r k)) (fun k => W (ix2 j k)) (b (ix1 j)) :=
  denseRelu_apply dot_S50000x64_S64x64_S50000x64_1_0_0_1_n_n_wf transposes_S64x64_S64x64_1_0 bcast_S64_S1x64_1
    bcast_S1x64_S50000x64_0_1 bcast_S_S50000x64 X W b r j

/-- Stage 5 of the reference (no rectifier) as a function of its input, its weights and its bias. -/
noncomputable def refStage5 (X : FVec Ideal S50000x64 .f32) (W : FVec Ideal S2x64 .f32) (b : FVec Ideal S2 .f32) :
    FVec Ideal S50000x2 .f32 :=
  addf (Host.dotGeneral dot_S50000x64_S64x2_S50000x2_1_0_0_1_n_n none X (transpose S64x2 [1, 0] W transposes_S2x64_S64x2_1_0))
    (broadcastInDim S50000x2 ![0, 1] bcast_S1x2_S50000x2_0_1 (broadcastInDim S1x2 ![1] bcast_S2_S1x2_1 b))

theorem refStage5_apply (X : FVec Ideal S50000x64 .f32) (W : FVec Ideal S2x64 .f32) (b : FVec Ideal S2 .f32)
    (r : Fin 50000) (j : Fin 2) :
    refStage5 X W b (ix2 r j)
      = linVal (fun k : Fin 64 => X (ix2 r k)) (fun k => W (ix2 j k)) (b (ix1 j)) :=
  denseLin_apply dot_S50000x64_S64x2_S50000x2_1_0_0_1_n_n_wf transposes_S2x64_S64x2_1_0 bcast_S2_S1x2_1
    bcast_S1x2_S50000x2_0_1 X W b r j

end Cert.StageLaw

end
-- ==== Proof.RefChain.lean ====
/-
  The reference's six stages and two graph stretches, composed, are the kernel's result.
  A dense stage on the host is the whole-array function of the stage: at (r, j) both are the stage's value of row r of
  the input against row j of the weights, plus the bias at j (the bias vector cast to a row reads, at (0, j), the
  vector at j).  Composing the six stages with the two graph stretches between them, from the launch arguments, gives
  stage by stage the values the kernel's boundaries hold.
-/
import proofs.«115876_j36043365548319_1_alg».proof.Proof.RefStageDefs
import proofs.«115876_j36043365548319_1_alg».proof.Proof.KiValue
import proofs.«115876_j36043365548319_1_alg».proof.Proof.LibMergeRows

set_option maxRecDepth 16384

noncomputable section

namespace Cert.RefChain

open Cert.StageLaw Cert.HostChain Cert.KernelIdeal.Stage
open Idealize.ShloMosaic Idealize.ShloMosaic.TcCoe Idealize.ShloMosaic.ValueIdx Idealize.SL.Sem
open Cert.KernelIdeal (nD τ sig main_arg0 main_arg1 main_arg2 main_arg3 main_arg4 main_arg5 main_arg6 main_arg7 main_arg8 main_arg9 main_arg10 main_arg11 main_arg12 main_arg13 main_arg14)

/-- Stage 0 on the host is the same whole-array function: at (r, j) both are the stage's value of row r of `X` against
    row j of `W`, plus `b` at j (the bias vector cast to a row reads, at (0, j), the vector at j). -/
theorem stage0_eq (X : (⟨Cert.ReferenceIdeal.S50000x128, .f32⟩ : BufTy).Contents (Elt Ideal)) (W : (⟨Cert.ReferenceIdeal.S64x128, .f32⟩ : BufTy).Contents (Elt Ideal))
    (b : (⟨Cert.ReferenceIdeal.S64, .f32⟩ : BufTy).Contents (Elt Ideal))
    (h : Cert.KernelIdeal.S64.ShapeCasts Cert.KernelIdeal.S1x64) :
    refStage0 X W b = whole0 X W (shapeCast Cert.KernelIdeal.S1x64 b h) := by
  funext i
  obtain ⟨r, j, rfl⟩ : ∃ (r : Fin 50000) (j : Fin 64), i = ix2 r j := ⟨i 0, i 1, eq_ix2 i⟩
  refine (refStage0_apply X W b r j).trans ?_
  show reluVal _ _ _ = reluVal _ _ _
  refine congr (congr (congrArg reluVal ?_) ?_) ?_
  · rfl
  · rfl
  · exact (Cert.Lib.MergeRows.row_apply b _ j).symm

/-- Stage 1 on the host is the same whole-array function: at (r, j) both are the stage's value of row r of `X` against
    row j of `W`, plus `b` at j (the bias vector cast to a row reads, at (0, j), the vector at j). -/
theorem stage1_eq (X : (⟨Cert.ReferenceIdeal.S50000x64, .f32⟩ : BufTy).Contents (Elt Ideal)) (W : (⟨Cert.ReferenceIdeal.S64x64, .f32⟩ : BufTy).Contents (Elt Ideal))
    (b : (⟨Cert.ReferenceIdeal.S64, .f32⟩ : BufTy).Contents (Elt Ideal))
    (h : Cert.KernelIdeal.S64.ShapeCasts Cert.KernelIdeal.S1x64) :
    refStage1 X W b = whole1 X W (shapeCast Cert.KernelIdeal.S1x64 b h) := by
  funext i
  obtain ⟨r, j, rfl⟩ : ∃ (r : Fin 50000) (j : Fin 64), i = ix2 r j := ⟨i 0, i 1, eq_ix2 i⟩
  refine (refStage1_apply X W b r j).trans ?_
  show reluVal _ _ _ = reluVal _ _ _
  refine congr (congr (congrArg reluVal ?_) ?_) ?_
  · rfl
  · rfl
  · exact (Cert.Lib.MergeRows.row_apply b _ j).symm

/-- Stage 2 on the host is the same whole-array function: at (r, j) both are the stage's value of row r of `X` against
    row j of `W`, plus `b` at j (the bias vector cast to a row reads, at (0, j), the vector at j). -/
theorem stage2_eq (X : (⟨Cert.ReferenceIdeal.S50000x192, .f32⟩ : BufTy).Contents (Elt Ideal)) (W : (⟨Cert.ReferenceIdeal.S64x192, .f32⟩ : BufTy).Contents (Elt Ideal))
    (b : (⟨Cert.ReferenceIdeal.S64, .f32⟩ : BufTy).Contents (Elt Ideal))
    (h : Cert.KernelIdeal.S64.ShapeCasts Cert.KernelIdeal.S1x64) :
    refStage2 X W b = whole2 X W (shapeCast Cert.KernelIdeal.S1x64 b h) := by
  funext i
  obtain ⟨r, j, rfl⟩ : ∃ (r : Fin 50000) (j : Fin 64), i = ix2 r j := ⟨i 0, i 1, eq_ix2 i⟩
  refine (refStage2_apply X W b r j).trans ?_
  show reluVal _ _ _ = reluVal _ _ _
  refine congr (congr (congrArg reluVal ?_) ?_) ?_
  · rfl
  · rfl
  · exact (Cert.Lib.MergeRows.row_apply b _ j).symm

/-- Stage 3 on the host is the same whole-array function: at (r, j) both are the stage's value of row r of `X` against
    row j of `W`, plus `b` at j (the bias vector cast to a row reads, at (0, j), the vector at j). -/
theorem stage3_eq (X : (⟨Cert.ReferenceIdeal.S50000x192, .f32⟩ : BufTy).Contents (Elt Ideal)) (W : (⟨Cert.ReferenceIdeal.S64x192, .f32⟩ : BufTy).Contents (Elt Ideal))
    (b : (⟨Cert.ReferenceIdeal.S64, .f32⟩ : BufTy).Contents (Elt Ideal))
    (h : Cert.KernelIdeal.S64.ShapeCasts Cert.KernelIdeal.S1x64) :
    refStage3 X W b = whole3 X W (shapeCast Cert.KernelIdeal.S1x64 b h) := by
  funext i
  obtain ⟨r, j, rfl⟩ : ∃ (r : Fin 50000) (j : Fin 64), i = ix2 r j := ⟨i 0, i 1, eq_ix2 i⟩
  refine (refStage3_apply X W b r j).trans ?_
  show reluVal _ _ _ = reluVal _ _ _
  refine congr (congr (congrArg reluVal ?_) ?_) ?_
  · rfl
  · rfl
  · exact (Cert.Lib.MergeRows.row_apply b _ j).symm

/-- Stage 4 on the host is the same whole-array function: at (r, j) both are the stage's value of row r of `X` against
    row j of `W`, plus `b` at j (the bias vector cast to a row reads, at (0, j), the vector at j). -/
theorem stage4_eq (X : (⟨Cert.ReferenceIdeal.S50000x64, .f32⟩ : BufTy).Contents (Elt Ideal)) (W : (⟨Cert.ReferenceIdeal.S64x64, .f32⟩ : BufTy).Contents (Elt Ideal))
    (b : (⟨Cert.ReferenceIdeal.S64, .f32⟩ : BufTy).Contents (Elt Ideal))
    (h : Cert.KernelIdeal.S64.ShapeCasts Cert.KernelIdeal.S1x64) :
    refStage4 X W b = whole4 X W (shapeCast Cert.KernelIdeal.S1x64 b h) := by
  funext i
  obtain ⟨r, j, rfl⟩ : ∃ (r : Fin 50000) (j : Fin 64), i = ix2 r j := ⟨i 0, i 1, eq_ix2 i⟩
  refine (refStage4_apply X W b r j).trans ?_
  show reluVal _ _ _ = reluVal _ _ _
  refine congr (congr (congrArg reluVal ?_) ?_) ?_
  · rfl
  · rfl
  · exact (Cert.Lib.MergeRows.row_apply b _ j).symm

/-- Stage 5 on the host is the same whole-array function: at (r, j) both are the stage's value of row r of `X` against
    row j of `W`, plus `b` at j (the bias vector cast to a row reads, at (0, j), the vector at j). -/
theorem stage5_eq (X : (⟨Cert.ReferenceIdeal.S50000x64, .f32⟩ : BufTy).Contents (Elt Ideal)) (W : (⟨Cert.ReferenceIdeal.S2x64, .f32⟩ : BufTy).Contents (Elt Ideal))
    (b : (⟨Cert.ReferenceIdeal.S2, .f32⟩ : BufTy).Contents (Elt Ideal))
    (h : Cert.KernelIdeal.S2.ShapeCasts Cert.KernelIdeal.S1x2) :
    refStage5 X W b = whole5 X W (shapeCast Cert.KernelIdeal.S1x2 b h) := by
  funext i
  obtain ⟨r, j, rfl⟩ : ∃ (r : Fin 50000) (j : Fin 2), i = ix2 r j := ⟨i 0, i 1, eq_ix2 i⟩
  refine (refStage5_apply X W b r j).trans ?_
  show linVal _ _ _ = linVal _ _ _
  refine congr (congr (congrArg linVal ?_) ?_) ?_
  · rfl
  · rfl
  · exact (Cert.Lib.MergeRows.row_apply b _ j).symm

variable (m : (ℓ : Loc nD τ sig) → Buf (Elt Ideal) ℓ) (ρ : Dev nD → PrngReg) (c : Dev nD)

theorem q14 : refStage0 (W0 m ρ c main_arg0) (W0 m ρ c main_arg3) (W0 m ρ c main_arg4) = s0 m ρ c := stage0_eq _ _ _ _
theorem q20 : refStage1 (refStage0 (W0 m ρ c main_arg0) (W0 m ρ c main_arg3) (W0 m ρ c main_arg4)) (W0 m ρ c main_arg5) (W0 m ρ c main_arg6) = s1 m ρ c :=
  (congrArg (fun X => refStage1 X (W0 m ρ c main_arg5) (W0 m ρ c main_arg6)) (q14 m ρ c)).trans (stage1_eq _ _ _ _)
theorem q66 : refStage2 (cheb (refStage1 (refStage0 (W0 m ρ c main_arg0) (W0 m ρ c main_arg3) (W0 m ρ c main_arg4)) (W0 m ρ c main_arg5) (W0 m ρ c main_arg6)) (degCol (W0 m ρ c main_arg2)) (W0 m ρ c main_arg1) (W0 m ρ c main_arg2)) (W0 m ρ c main_arg7) (W0 m ρ c main_arg8) = s2 m ρ c :=
  (congrArg (fun X => refStage2 (cheb X (degCol (W0 m ρ c main_arg2)) (W0 m ρ c main_arg1) (W0 m ρ c main_arg2)) (W0 m ρ c main_arg7) (W0 m ρ c main_arg8)) (q20 m ρ c)).trans (stage2_eq _ _ _ _)
theorem q112 : refStage3 (cheb (refStage2 (cheb (refStage1 (refStage0 (W0 m ρ c main_arg0) (W0 m ρ c main_arg3) (W0 m ρ c main_arg4)) (W0 m ρ c main_arg5) (W0 m ρ c main_arg6)) (degCol (W0 m ρ c main_arg2)) (W0 m ρ c main_arg1) (W0 m ρ c main_arg2)) (W0 m ρ c main_arg7) (W0 m ρ c main_arg8)) (degCol (W0 m ρ c main_arg2)) (W0 m ρ c main_arg1) (W0 m ρ c main_arg2)) (W0 m ρ c main_arg9) (W0 m ρ c main_arg10) = s3 m ρ c :=
  (congrArg (fun X => refStage3 (cheb X (degCol (W0 m ρ c main_arg2)) (W0 m ρ c main_arg1) (W0 m ρ c main_arg2)) (W0 m ρ c main_arg9) (W0 m ρ c main_arg10)) (q66 m ρ c)).trans (stage3_eq _ _ _ _)
theorem q118 : refStage4 (refStage3 (cheb (refStage2 (cheb (refStage1 (refStage0 (W0 m ρ c main_arg0) (W0 m ρ c main_arg3) (W0 m ρ c main_arg4)) (W0 m ρ c main_arg5) (W0 m ρ c main_arg6)) (degCol (W0 m ρ c main_arg2)) (W0 m ρ c main_arg1) (W0 m ρ c main_arg2)) (W0 m ρ c main_arg7) (W0 m ρ c main_arg8)) (degCol (W0 m ρ c main_arg2)) (W0 m ρ c main_arg1) (W0 m ρ c main_arg2)) (W0 m ρ c main_arg9) (W0 m ρ c main_arg10)) (W0 m ρ c main_arg11) (W0 m ρ c main_arg12) = s4 m ρ c :=
  (congrArg (fun X => refStage4 X (W0 m ρ c main_arg11) (W0 m ρ c main_arg12)) (q112 m ρ c)).trans (stage4_eq _ _ _ _)
/-- THE COMPOSITION of the reference's stages and graph stretches over the launch arguments is the kernel's result. -/
theorem chain_eq : refStage5 (refStage4 (refStage3 (cheb (refStage2 (cheb (refStage1 (refStage0 (W0 m ρ c main_arg0) (W0 m ρ c main_arg3) (W0 m ρ c main_arg4)) (W0 m ρ c main_arg5) (W0 m ρ c main_arg6)) (degCol (W0 m ρ c main_arg2)) (W0 m ρ c main_arg1) (W0 m ρ c main_arg2)) (W0 m ρ c main_arg7) (W0 m ρ c main_arg8)) (degCol (W0 m ρ c main_arg2)) (W0 m ρ c main_arg1) (W0 m ρ c main_arg2)) (W0 m ρ c main_arg9) (W0 m ρ c main_arg10)) (W0 m ρ c main_arg11) (W0 m ρ c main_arg12)) (W0 m ρ c main_arg13) (W0 m ρ c main_arg14) = s5 m ρ c :=
  (congrArg (fun X => refStage5 X (W0 m ρ c main_arg13) (W0 m ρ c main_arg14)) (q118 m ρ c)).trans (stage5_eq _ _ _ _)

/-- The reference's six stages and two graph stretches as ONE function of the fifteen arguments. -/
def comp (a0 : (⟨Cert.ReferenceIdeal.S50000x128, .f32⟩ : BufTy).Contents (Elt Ideal))
    (a1 : (⟨Cert.ReferenceIdeal.S800000, .i32⟩ : BufTy).Contents (Elt Ideal))
    (a2 : (⟨Cert.ReferenceIdeal.S800000, .i32⟩ : BufTy).Contents (Elt Ideal))
    (a3 : (⟨Cert.ReferenceIdeal.S64x128, .f32⟩ : BufTy).Contents (Elt Ideal))
    (a4 : (⟨Cert.ReferenceIdeal.S64, .f32⟩ : BufTy).Contents (Elt Ideal))
    (a5 : (⟨Cert.ReferenceIdeal.S64x64, .f32⟩ : BufTy).Contents (Elt Ideal))
    (a6 : (⟨Cert.ReferenceIdeal.S64, .f32⟩ : BufTy).Contents (Elt Ideal))
    (a7 : (⟨Cert.ReferenceIdeal.S64x192, .f32⟩ : BufTy).Contents (Elt Ideal))
    (a8 : (⟨Cert.ReferenceIdeal.S64, .f32⟩ : BufTy).Contents (Elt Ideal))
    (a9 : (⟨Cert.ReferenceIdeal.S64x192, .f32⟩ : BufTy).Contents (Elt Ideal))
    (a10 : (⟨Cert.ReferenceIdeal.S64, .f32⟩ : BufTy).Contents (Elt Ideal))
    (a11 : (⟨Cert.ReferenceIdeal.S64x64, .f32⟩ : BufTy).Contents (Elt Ideal))
    (a12 : (⟨Cert.ReferenceIdeal.S64, .f32⟩ : BufTy).Contents (Elt Ideal))
    (a13 : (⟨Cert.ReferenceIdeal.S2x64, .f32⟩ : BufTy).Contents (Elt Ideal))
    (a14 : (⟨Cert.ReferenceIdeal.S2, .f32⟩ : BufTy).Contents (Elt Ideal)) :
    (⟨Cert.ReferenceIdeal.S50000x2, .f32⟩ : BufTy).Contents (Elt Ideal) :=
  refStage5 (refStage4 (refStage3 (cheb (refStage2 (cheb (refStage1 (refStage0 a0 a3 a4) a5 a6) (degCol a2) a1 a2) a7 a8) (degCol a2) a1 a2) a9 a10) a11 a12) a13 a14

/-- At the launch arguments it is the kernel's result. -/
theorem comp_eq : comp (W0 m ρ c main_arg0) (W0 m ρ c main_arg1) (W0 m ρ c main_arg2) (W0 m ρ c main_arg3) (W0 m ρ c main_arg4) (W0 m ρ c main_arg5) (W0 m ρ c main_arg6) (W0 m ρ c main_arg7) (W0 m ρ c main_arg8) (W0 m ρ c main_arg9) (W0 m ρ c main_arg10) (W0 m ρ c main_arg11) (W0 m ρ c main_arg12) (W0 m ρ c main_arg13) (W0 m ρ c main_arg14) = s5 m ρ c := chain_eq m ρ c

end Cert.RefChain

end
-- ==== Proof.LibAfterAppend.lean ====
/-
  The contents after two lines of host operations run one after the other.

  The buffers' contents after a list of operations is a fold: each operation in turn rewrites the buffers it writes. Over a
  list that is one line followed by another, the fold is the second line's fold started from the first line's result. This
  lets a long line be read in stretches, the contents between two stretches named once. It holds over any signature and
  any value type.
-/
import Idealize.ShloMosaic.Lib.StableHlo.Run

noncomputable section

namespace Cert.Lib.AfterAppend

open Idealize.ShloMosaic Idealize.ShloMosaic.StableHlo

variable {τ : Topo} {sig : RefSig} {Val : EltTy → Type}

/-- After `l₁` followed by `l₂`: after `l₂`, from what `l₁` left. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib.AfterAppend

end
-- ==== Proof.RefRunHand.lean ====
/-
  The reference program read stretch by stretch.

  The reference is a straight line of array operations. It is cut here where a value is used more than once: the
  degree column, each dense stage, and each of the two Chebyshev stretches is one stretch of the line. What the line
  leaves in a buffer is then read one stretch at a time, from whatever the buffers held before the stretch, and the
  values that later stretches reuse are named once instead of being written out at every use.
-/
import proofs.«115876_j36043365548319_1_alg».proof.ReferenceIdeal
import proofs.«115876_j36043365548319_1_alg».proof.Proof.Gen.ReferenceIdeal
import Idealize.ShloMosaic.Lib.StableHlo.Run
import proofs.«115876_j36043365548319_1_alg».proof.Proof.LibAfterAppend
import proofs.«115876_j36043365548319_1_alg».proof.Proof.HostChain

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

/-! ## The program as stretches of operations -/

/-- 13 operations: the degree column: the count of the edges into each node, at least one, to the power minus one half. -/
abbrev opsA : List (HloOp τ sig (Elt F)) :=
  [ nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg2 main_v2 (broadcastInDim S800000x1 ![0] bcast_S800000_S800000x1_0 : (⟨S800000, .i32⟩ : BufTy).Contents (Elt F) → (⟨S800000x1, .i32⟩ : BufTy).Contents (Elt F)),
    ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v4 (broadcastInDim S50000 ![] bcast_S_S50000 : (⟨S_, .f32⟩ : BufTy).Contents (Elt F) → (⟨S50000, .f32⟩ : BufTy).Contents (Elt F)),
    binary main_v3 main_v4 main_v5 (maximumf : (⟨S50000, .f32⟩ : BufTy).Contents (Elt F) → (⟨S50000, .f32⟩ : BufTy).Contents (Elt F) → (⟨S50000, .f32⟩ : BufTy).Contents (Elt F)),
    nullary main_cst_2 (constant S_ .f32 0xBF000000#32),
    unary main_cst_2 main_v6 (broadcastInDim S50000 ![] bcast_S_S50000 : (⟨S_, .f32⟩ : BufTy).Contents (Elt F) → (⟨S50000, .f32⟩ : BufTy).Contents (Elt F)),
    binary main_v5 main_v6 main_v7 (Host.powf : (⟨S50000, .f32⟩ : BufTy).Contents (Elt F) → (⟨S50000, .f32⟩ : BufTy).Contents (Elt F) → (⟨S50000, .f32⟩ : BufTy).Contents (Elt F)),
    unary main_v7 main_v8 (broadcastInDim S50000x1 ![0] bcast_S50000_S50000x1_0 : (⟨S50000, .f32⟩ : BufTy).Contents (Elt F) → (⟨S50000x1, .f32⟩ : BufTy).Contents (Elt F)) ]

/-- 8 operations: the first dense stage with its rectifier. -/
abbrev opsB : List (HloOp τ sig (Elt F)) :=
  [ unary main_arg3 main_v9 ((transpose S128x64 [1, 0] · transposes_S64x128_S128x64_1_0) : (⟨S64x128, .f32⟩ : BufTy).Contents (Elt F) → (⟨S128x64, .f32⟩ : BufTy).Contents (Elt F)),
    binary main_arg0 main_v9 main_v10 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg4 main_v11 (broadcastInDim S1x64 ![1] bcast_S64_S1x64_1 : (⟨S64, .f32⟩ : BufTy).Contents (Elt F) → (⟨S1x64, .f32⟩ : BufTy).Contents (Elt F)),
    unary main_v11 main_v12 (broadcastInDim S50000x64 ![0, 1] bcast_S1x64_S50000x64_0_1 : (⟨S1x64, .f32⟩ : BufTy).Contents (Elt F) → (⟨S50000x64, .f32⟩ : BufTy).Contents (Elt F)),
    binary main_v10 main_v12 main_v13 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v13) (TRef.of (T := ⟨S50000x64, .f32⟩) main_call0_v0) (TRef.of (T := ⟨S50000x64, .f32⟩) main_v14) maximumf ]

/-- 8 operations: the second dense stage with its rectifier. -/
abbrev opsC : List (HloOp τ sig (Elt F)) :=
  [ unary main_arg5 main_v15 ((transpose S64x64 [1, 0] · transposes_S64x64_S64x64_1_0) : (⟨S64x64, .f32⟩ : BufTy).Contents (Elt F) → (⟨S64x64, .f32⟩ : BufTy).Contents (Elt F)),
    binary main_v14 main_v15 main_v16 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg6 main_v17 (broadcastInDim S1x64 ![1] bcast_S64_S1x64_1 : (⟨S64, .f32⟩ : BufTy).Contents (Elt F) → (⟨S1x64, .f32⟩ : BufTy).Contents (Elt F)),
    unary main_v17 main_v18 (broadcastInDim S50000x64 ![0, 1] bcast_S1x64_S50000x64_0_1 : (⟨S1x64, .f32⟩ : BufTy).Contents (Elt F) → (⟨S50000x64, .f32⟩ : BufTy).Contents (Elt F)),
    binary main_v16 main_v18 main_v19 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v19) (TRef.of (T := ⟨S50000x64, .f32⟩) main_call1_v0) (TRef.of (T := ⟨S50000x64, .f32⟩) main_v20) maximumf ]

/-- 50 operations: the first Chebyshev stretch. -/
abbrev opsD : List (HloOp τ sig (Elt F)) :=
  [ unary main_v8 main_v21 (broadcastInDim S50000x64 ![0, 1] bcast_S50000x1_S50000x64_0_1 : (⟨S50000x1, .f32⟩ : BufTy).Contents (Elt F) → (⟨S50000x64, .f32⟩ : BufTy).Contents (Elt F)),
    binary main_v20 main_v21 main_v22 (mulf : (⟨S50000x64, .f32⟩ : BufTy).Contents (Elt F) → (⟨S50000x64, .f32⟩ : BufTy).Contents (Elt F) → (⟨S50000x64, .f32⟩ : BufTy).Contents (Elt F)),
    nullary main_c (constantI S_ 32 0#32),
    unary main_c main_v23 (broadcastInDim S800000 ![] bcast_S_S800000 : (⟨S_, .i32⟩ : BufTy).Contents (Elt F) → (⟨S800000, .i32⟩ : BufTy).Contents (Elt F)),
    binary main_arg1 main_v23 main_v24 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v25 (broadcastInDim S800000 ![] bcast_S_S800000 : (⟨S_, .i32⟩ : BufTy).Contents (Elt F) → (⟨S800000, .i32⟩ : BufTy).Contents (Elt F)),
    binary main_arg1 main_v25 main_v26 (addi : (⟨S800000, .i32⟩ : BufTy).Contents (Elt F) → (⟨S800000, .i32⟩ : BufTy).Contents (Elt F) → (⟨S800000, .i32⟩ : BufTy).Contents (Elt F)),
    ternary main_v24 main_v26 main_arg1 main_v27 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v27 main_v28 (broadcastInDim S800000x1 ![0] bcast_S800000_S800000x1_0 : (⟨S800000, .i32⟩ : BufTy).Contents (Elt F) → (⟨S800000x1, .i32⟩ : BufTy).Contents (Elt F)),
    binary main_v22 main_v28 main_v29 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_4 (constant S_ .f32 0x00000000#32),
    unary main_cst_4 main_v30 (broadcastInDim S50000x64 ![] bcast_S_S50000x64 : (⟨S_, .f32⟩ : BufTy).Contents (Elt F) → (⟨S50000x64, .f32⟩ : BufTy).Contents (Elt F)),
    unary main_arg2 main_v31 (broadcastInDim S800000x1 ![0] bcast_S800000_S800000x1_0 : (⟨S800000, .i32⟩ : BufTy).Contents (Elt F) → (⟨S800000x1, .i32⟩ : BufTy).Contents (Elt F)),
    ternary main_v30 main_v31 main_v29 main_v32 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v8 main_v33 (broadcastInDim S50000x64 ![0, 1] bcast_S50000x1_S50000x64_0_1 : (⟨S50000x1, .f32⟩ : BufTy).Contents (Elt F) → (⟨S50000x64, .f32⟩ : BufTy).Contents (Elt F)),
    binary main_v32 main_v33 main_v34 (mulf : (⟨S50000x64, .f32⟩ : BufTy).Contents (Elt F) → (⟨S50000x64, .f32⟩ : BufTy).Contents (Elt F) → (⟨S50000x64, .f32⟩ : BufTy).Contents (Elt F)),
    nullary main_cst_5 (constant S_ .f32 0xBF800000#32),
    unary main_cst_5 main_v35 (broadcastInDim S50000x64 ![] bcast_S_S50000x64 : (⟨S_, .f32⟩ : BufTy).Contents (Elt F) → (⟨S50000x64, .f32⟩ : BufTy).Contents (Elt F)),
    binary main_v35 main_v34 main_v36 (mulf : (⟨S50000x64, .f32⟩ : BufTy).Contents (Elt F) → (⟨S50000x64, .f32⟩ : BufTy).Contents (Elt F) → (⟨S50000x64, .f32⟩ : BufTy).Contents (Elt F)),
    nullary main_cst_6 (constant S_ .f32 0x00000000#32),
    unary main_cst_6 main_v37 (broadcastInDim S50000x64 ![] bcast_S_S50000x64 : (⟨S_, .f32⟩ : BufTy).Contents (Elt F) → (⟨S50000x64, .f32⟩ : BufTy).Contents (Elt F)),
    binary main_v20 main_v37 main_v38 (mulf : (⟨S50000x64, .f32⟩ : BufTy).Contents (Elt F) → (⟨S50000x64, .f32⟩ : BufTy).Contents (Elt F) → (⟨S50000x64, .f32⟩ : BufTy).Contents (Elt F)),
    binary main_v36 main_v38 main_v39 (addf : (⟨S50000x64, .f32⟩ : BufTy).Contents (Elt F) → (⟨S50000x64, .f32⟩ : BufTy).Contents (Elt F) → (⟨S50000x64, .f32⟩ : BufTy).Contents (Elt F)),
    unary main_v8 main_v40 (broadcastInDim S50000x64 ![0, 1] bcast_S50000x1_S50000x64_0_1 : (⟨S50000x1, .f32⟩ : BufTy).Contents (Elt F) → (⟨S50000x64, .f32⟩ : BufTy).Contents (Elt F)),
    binary main_v39 main_v40 main_v41 (mulf : (⟨S50000x64, .f32⟩ : BufTy).Contents (Elt F) → (⟨S50000x64, .f32⟩ : BufTy).Contents (Elt F) → (⟨S50000x64, .f32⟩ : BufTy).Contents (Elt F)),
    nullary main_c_7 (constantI S_ 32 0#32),
    unary main_c_7 main_v42 (broadcastInDim S800000 ![] bcast_S_S800000 : (⟨S_, .i32⟩ : BufTy).Contents (Elt F) → (⟨S800000, .i32⟩ : BufTy).Contents (Elt F)),
    binary main_arg1 main_v42 main_v43 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v44 (broadcastInDim S800000 ![] bcast_S_S800000 : (⟨S_, .i32⟩ : BufTy).Contents (Elt F) → (⟨S800000, .i32⟩ : BufTy).Contents (Elt F)),
    binary main_arg1 main_v44 main_v45 (addi : (⟨S800000, .i32⟩ : BufTy).Contents (Elt F) → (⟨S800000, .i32⟩ : BufTy).Contents (Elt F) → (⟨S800000, .i32⟩ : BufTy).Contents (Elt F)),
    ternary main_v43 main_v45 main_arg1 main_v46 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v46 main_v47 (broadcastInDim S800000x1 ![0] bcast_S800000_S800000x1_0 : (⟨S800000, .i32⟩ : BufTy).Contents (Elt F) → (⟨S800000x1, .i32⟩ : BufTy).Contents (Elt F)),
    binary main_v41 main_v47 main_v48 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_9 (constant S_ .f32 0x00000000#32),
    unary main_cst_9 main_v49 (broadcastInDim S50000x64 ![] bcast_S_S50000x64 : (⟨S_, .f32⟩ : BufTy).Contents (Elt F) → (⟨S50000x64, .f32⟩ : BufTy).Contents (Elt F)),
    unary main_arg2 main_v50 (broadcastInDim S800000x1 ![0] bcast_S800000_S800000x1_0 : (⟨S800000, .i32⟩ : BufTy).Contents (Elt F) → (⟨S800000x1, .i32⟩ : BufTy).Contents (Elt F)),
    ternary main_v49 main_v50 main_v48 main_v51 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v8 main_v52 (broadcastInDim S50000x64 ![0, 1] bcast_S50000x1_S50000x64_0_1 : (⟨S50000x1, .f32⟩ : BufTy).Contents (Elt F) → (⟨S50000x64, .f32⟩ : BufTy).Contents (Elt F)),
    binary main_v51 main_v52 main_v53 (mulf : (⟨S50000x64, .f32⟩ : BufTy).Contents (Elt F) → (⟨S50000x64, .f32⟩ : BufTy).Contents (Elt F) → (⟨S50000x64, .f32⟩ : BufTy).Contents (Elt F)),
    nullary main_cst_10 (constant S_ .f32 0xC0000000#32),
    unary main_cst_10 main_v54 (broadcastInDim S50000x64 ![] bcast_S_S50000x64 : (⟨S_, .f32⟩ : BufTy).Contents (Elt F) → (⟨S50000x64, .f32⟩ : BufTy).Contents (Elt F)),
    binary main_v54 main_v53 main_v55 (mulf : (⟨S50000x64, .f32⟩ : BufTy).Contents (Elt F) → (⟨S50000x64, .f32⟩ : BufTy).Contents (Elt F) → (⟨S50000x64, .f32⟩ : BufTy).Contents (Elt F)),
    nullary main_cst_11 (constant S_ .f32 0x00000000#32),
    unary main_cst_11 main_v56 (broadcastInDim S50000x64 ![] bcast_S_S50000x64 : (⟨S_, .f32⟩ : BufTy).Contents (Elt F) → (⟨S50000x64, .f32⟩ : BufTy).Contents (Elt F)),
    binary main_v39 main_v56 main_v57 (mulf : (⟨S50000x64, .f32⟩ : BufTy).Contents (Elt F) → (⟨S50000x64, .f32⟩ : BufTy).Contents (Elt F) → (⟨S50000x64, .f32⟩ : BufTy).Contents (Elt F)),
    binary main_v55 main_v57 main_v58 (addf : (⟨S50000x64, .f32⟩ : BufTy).Contents (Elt F) → (⟨S50000x64, .f32⟩ : BufTy).Contents (Elt F) → (⟨S50000x64, .f32⟩ : BufTy).Contents (Elt F)),
    binary main_v58 main_v20 main_v59 (subf : (⟨S50000x64, .f32⟩ : BufTy).Contents (Elt F) → (⟨S50000x64, .f32⟩ : BufTy).Contents (Elt F) → (⟨S50000x64, .f32⟩ : BufTy).Contents (Elt F)),
    nary ![main_v20, main_v39, main_v59] main_v60 (fun u => concatenate S50000x192 1 [⟨S50000x64, u 0⟩, ⟨S50000x64, u 1⟩, ⟨S50000x64, u 2⟩] concatenates_S50000x64_S50000x64_S50000x64_S50000x192_d1) ]

/-- 8 operations: the third dense stage with its rectifier. -/
abbrev opsE : List (HloOp τ sig (Elt F)) :=
  [ unary main_arg7 main_v61 ((transpose S192x64 [1, 0] · transposes_S64x192_S192x64_1_0) : (⟨S64x192, .f32⟩ : BufTy).Contents (Elt F) → (⟨S192x64, .f32⟩ : BufTy).Contents (Elt F)),
    binary main_v60 main_v61 main_v62 ((fun l r => Host.dotGeneral dot_S50000x192_S192x64_S50000x64_1_0_0_1_n_n none l r) : (⟨S50000x192, .f32⟩ : BufTy).Contents (Elt F) → (⟨S192x64, .f32⟩ : BufTy).Contents (Elt F) → (⟨S50000x64, .f32⟩ : BufTy).Contents (Elt F)),
    unary main_arg8 main_v63 (broadcastInDim S1x64 ![1] bcast_S64_S1x64_1 : (⟨S64, .f32⟩ : BufTy).Contents (Elt F) → (⟨S1x64, .f32⟩ : BufTy).Contents (Elt F)),
    unary main_v63 main_v64 (broadcastInDim S50000x64 ![0, 1] bcast_S1x64_S50000x64_0_1 : (⟨S1x64, .f32⟩ : BufTy).Contents (Elt F) → (⟨S50000x64, .f32⟩ : BufTy).Contents (Elt F)),
    binary main_v62 main_v64 main_v65 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v65) (TRef.of (T := ⟨S50000x64, .f32⟩) main_call2_v0) (TRef.of (T := ⟨S50000x64, .f32⟩) main_v66) maximumf ]

/-- 50 operations: the second Chebyshev stretch. -/
abbrev opsF : List (HloOp τ sig (Elt F)) :=
  [ unary main_v8 main_v67 (broadcastInDim S50000x64 ![0, 1] bcast_S50000x1_S50000x64_0_1 : (⟨S50000x1, .f32⟩ : BufTy).Contents (Elt F) → (⟨S50000x64, .f32⟩ : BufTy).Contents (Elt F)),
    binary main_v66 main_v67 main_v68 (mulf : (⟨S50000x64, .f32⟩ : BufTy).Contents (Elt F) → (⟨S50000x64, .f32⟩ : BufTy).Contents (Elt F) → (⟨S50000x64, .f32⟩ : BufTy).Contents (Elt F)),
    nullary main_c_12 (constantI S_ 32 0#32),
    unary main_c_12 main_v69 (broadcastInDim S800000 ![] bcast_S_S800000 : (⟨S_, .i32⟩ : BufTy).Contents (Elt F) → (⟨S800000, .i32⟩ : BufTy).Contents (Elt F)),
    binary main_arg1 main_v69 main_v70 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v71 (broadcastInDim S800000 ![] bcast_S_S800000 : (⟨S_, .i32⟩ : BufTy).Contents (Elt F) → (⟨S800000, .i32⟩ : BufTy).Contents (Elt F)),
    binary main_arg1 main_v71 main_v72 (addi : (⟨S800000, .i32⟩ : BufTy).Contents (Elt F) → (⟨S800000, .i32⟩ : BufTy).Contents (Elt F) → (⟨S800000, .i32⟩ : BufTy).Contents (Elt F)),
    ternary main_v70 main_v72 main_arg1 main_v73 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v73 main_v74 (broadcastInDim S800000x1 ![0] bcast_S800000_S800000x1_0 : (⟨S800000, .i32⟩ : BufTy).Contents (Elt F) → (⟨S800000x1, .i32⟩ : BufTy).Contents (Elt F)),
    binary main_v68 main_v74 main_v75 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_14 (constant S_ .f32 0x00000000#32),
    unary main_cst_14 main_v76 (broadcastInDim S50000x64 ![] bcast_S_S50000x64 : (⟨S_, .f32⟩ : BufTy).Contents (Elt F) → (⟨S50000x64, .f32⟩ : BufTy).Contents (Elt F)),
    unary main_arg2 main_v77 (broadcastInDim S800000x1 ![0] bcast_S800000_S800000x1_0 : (⟨S800000, .i32⟩ : BufTy).Contents (Elt F) → (⟨S800000x1, .i32⟩ : BufTy).Contents (Elt F)),
    ternary main_v76 main_v77 main_v75 main_v78 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v8 main_v79 (broadcastInDim S50000x64 ![0, 1] bcast_S50000x1_S50000x64_0_1 : (⟨S50000x1, .f32⟩ : BufTy).Contents (Elt F) → (⟨S50000x64, .f32⟩ : BufTy).Contents (Elt F)),
    binary main_v78 main_v79 main_v80 (mulf : (⟨S50000x64, .f32⟩ : BufTy).Contents (Elt F) → (⟨S50000x64, .f32⟩ : BufTy).Contents (Elt F) → (⟨S50000x64, .f32⟩ : BufTy).Contents (Elt F)),
    nullary main_cst_15 (constant S_ .f32 0xBF800000#32),
    unary main_cst_15 main_v81 (broadcastInDim S50000x64 ![] bcast_S_S50000x64 : (⟨S_, .f32⟩ : BufTy).Contents (Elt F) → (⟨S50000x64, .f32⟩ : BufTy).Contents (Elt F)),
    binary main_v81 main_v80 main_v82 (mulf : (⟨S50000x64, .f32⟩ : BufTy).Contents (Elt F) → (⟨S50000x64, .f32⟩ : BufTy).Contents (Elt F) → (⟨S50000x64, .f32⟩ : BufTy).Contents (Elt F)),
    nullary main_cst_16 (constant S_ .f32 0x00000000#32),
    unary main_cst_16 main_v83 (broadcastInDim S50000x64 ![] bcast_S_S50000x64 : (⟨S_, .f32⟩ : BufTy).Contents (Elt F) → (⟨S50000x64, .f32⟩ : BufTy).Contents (Elt F)),
    binary main_v66 main_v83 main_v84 (mulf : (⟨S50000x64, .f32⟩ : BufTy).Contents (Elt F) → (⟨S50000x64, .f32⟩ : BufTy).Contents (Elt F) → (⟨S50000x64, .f32⟩ : BufTy).Contents (Elt F)),
    binary main_v82 main_v84 main_v85 (addf : (⟨S50000x64, .f32⟩ : BufTy).Contents (Elt F) → (⟨S50000x64, .f32⟩ : BufTy).Contents (Elt F) → (⟨S50000x64, .f32⟩ : BufTy).Contents (Elt F)),
    unary main_v8 main_v86 (broadcastInDim S50000x64 ![0, 1] bcast_S50000x1_S50000x64_0_1 : (⟨S50000x1, .f32⟩ : BufTy).Contents (Elt F) → (⟨S50000x64, .f32⟩ : BufTy).Contents (Elt F)),
    binary main_v85 main_v86 main_v87 (mulf : (⟨S50000x64, .f32⟩ : BufTy).Contents (Elt F) → (⟨S50000x64, .f32⟩ : BufTy).Contents (Elt F) → (⟨S50000x64, .f32⟩ : BufTy).Contents (Elt F)),
    nullary main_c_17 (constantI S_ 32 0#32),
    unary main_c_17 main_v88 (broadcastInDim S800000 ![] bcast_S_S800000 : (⟨S_, .i32⟩ : BufTy).Contents (Elt F) → (⟨S800000, .i32⟩ : BufTy).Contents (Elt F)),
    binary main_arg1 main_v88 main_v89 (cmpi .slt : (⟨S800000, .i32⟩ : BufTy).Contents (Elt F) → (⟨S800000, .i32⟩ : BufTy).Contents (Elt F) → (⟨S800000, .i1⟩ : BufTy).Contents (Elt F)),
    nullary main_c_18 (constantI S_ 32 50000#32),
    unary main_c_18 main_v90 (broadcastInDim S800000 ![] bcast_S_S800000 : (⟨S_, .i32⟩ : BufTy).Contents (Elt F) → (⟨S800000, .i32⟩ : BufTy).Contents (Elt F)),
    binary main_arg1 main_v90 main_v91 (addi : (⟨S800000, .i32⟩ : BufTy).Contents (Elt F) → (⟨S800000, .i32⟩ : BufTy).Contents (Elt F) → (⟨S800000, .i32⟩ : BufTy).Contents (Elt F)),
    ternary main_v89 main_v91 main_arg1 main_v92 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v92 main_v93 (broadcastInDim S800000x1 ![0] bcast_S800000_S800000x1_0 : (⟨S800000, .i32⟩ : BufTy).Contents (Elt F) → (⟨S800000x1, .i32⟩ : BufTy).Contents (Elt F)),
    binary main_v87 main_v93 main_v94 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_19 (constant S_ .f32 0x00000000#32),
    unary main_cst_19 main_v95 (broadcastInDim S50000x64 ![] bcast_S_S50000x64 : (⟨S_, .f32⟩ : BufTy).Contents (Elt F) → (⟨S50000x64, .f32⟩ : BufTy).Contents (Elt F)),
    unary main_arg2 main_v96 (broadcastInDim S800000x1 ![0] bcast_S800000_S800000x1_0 : (⟨S800000, .i32⟩ : BufTy).Contents (Elt F) → (⟨S800000x1, .i32⟩ : BufTy).Contents (Elt F)),
    ternary main_v95 main_v96 main_v94 main_v97 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v8 main_v98 (broadcastInDim S50000x64 ![0, 1] bcast_S50000x1_S50000x64_0_1 : (⟨S50000x1, .f32⟩ : BufTy).Contents (Elt F) → (⟨S50000x64, .f32⟩ : BufTy).Contents (Elt F)),
    binary main_v97 main_v98 main_v99 (mulf : (⟨S50000x64, .f32⟩ : BufTy).Contents (Elt F) → (⟨S50000x64, .f32⟩ : BufTy).Contents (Elt F) → (⟨S50000x64, .f32⟩ : BufTy).Contents (Elt F)),
    nullary main_cst_20 (constant S_ .f32 0xC0000000#32),
    unary main_cst_20 main_v100 (broadcastInDim S50000x64 ![] bcast_S_S50000x64 : (⟨S_, .f32⟩ : BufTy).Contents (Elt F) → (⟨S50000x64, .f32⟩ : BufTy).Contents (Elt F)),
    binary main_v100 main_v99 main_v101 (mulf : (⟨S50000x64, .f32⟩ : BufTy).Contents (Elt F) → (⟨S50000x64, .f32⟩ : BufTy).Contents (Elt F) → (⟨S50000x64, .f32⟩ : BufTy).Contents (Elt F)),
    nullary main_cst_21 (constant S_ .f32 0x00000000#32),
    unary main_cst_21 main_v102 (broadcastInDim S50000x64 ![] bcast_S_S50000x64 : (⟨S_, .f32⟩ : BufTy).Contents (Elt F) → (⟨S50000x64, .f32⟩ : BufTy).Contents (Elt F)),
    binary main_v85 main_v102 main_v103 (mulf : (⟨S50000x64, .f32⟩ : BufTy).Contents (Elt F) → (⟨S50000x64, .f32⟩ : BufTy).Contents (Elt F) → (⟨S50000x64, .f32⟩ : BufTy).Contents (Elt F)),
    binary main_v101 main_v103 main_v104 (addf : (⟨S50000x64, .f32⟩ : BufTy).Contents (Elt F) → (⟨S50000x64, .f32⟩ : BufTy).Contents (Elt F) → (⟨S50000x64, .f32⟩ : BufTy).Contents (Elt F)),
    binary main_v104 main_v66 main_v105 (subf : (⟨S50000x64, .f32⟩ : BufTy).Contents (Elt F) → (⟨S50000x64, .f32⟩ : BufTy).Contents (Elt F) → (⟨S50000x64, .f32⟩ : BufTy).Contents (Elt F)),
    nary ![main_v66, main_v85, main_v105] main_v106 (fun u => concatenate S50000x192 1 [⟨S50000x64, u 0⟩, ⟨S50000x64, u 1⟩, ⟨S50000x64, u 2⟩] concatenates_S50000x64_S50000x64_S50000x64_S50000x192_d1) ]

/-- 8 operations: the fourth dense stage with its rectifier. -/
abbrev opsG : List (HloOp τ sig (Elt F)) :=
  [ unary main_arg9 main_v107 ((transpose S192x64 [1, 0] · transposes_S64x192_S192x64_1_0) : (⟨S64x192, .f32⟩ : BufTy).Contents (Elt F) → (⟨S192x64, .f32⟩ : BufTy).Contents (Elt F)),
    binary main_v106 main_v107 main_v108 ((fun l r => Host.dotGeneral dot_S50000x192_S192x64_S50000x64_1_0_0_1_n_n none l r) : (⟨S50000x192, .f32⟩ : BufTy).Contents (Elt F) → (⟨S192x64, .f32⟩ : BufTy).Contents (Elt F) → (⟨S50000x64, .f32⟩ : BufTy).Contents (Elt F)),
    unary main_arg10 main_v109 (broadcastInDim S1x64 ![1] bcast_S64_S1x64_1 : (⟨S64, .f32⟩ : BufTy).Contents (Elt F) → (⟨S1x64, .f32⟩ : BufTy).Contents (Elt F)),
    unary main_v109 main_v110 (broadcastInDim S50000x64 ![0, 1] bcast_S1x64_S50000x64_0_1 : (⟨S1x64, .f32⟩ : BufTy).Contents (Elt F) → (⟨S50000x64, .f32⟩ : BufTy).Contents (Elt F)),
    binary main_v108 main_v110 main_v111 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v111) (TRef.of (T := ⟨S50000x64, .f32⟩) main_call3_v0) (TRef.of (T := ⟨S50000x64, .f32⟩) main_v112) maximumf ]

/-- 8 operations: the fifth dense stage with its rectifier. -/
abbrev opsH : List (HloOp τ sig (Elt F)) :=
  [ unary main_arg11 main_v113 ((transpose S64x64 [1, 0] · transposes_S64x64_S64x64_1_0) : (⟨S64x64, .f32⟩ : BufTy).Contents (Elt F) → (⟨S64x64, .f32⟩ : BufTy).Contents (Elt F)),
    binary main_v112 main_v113 main_v114 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg12 main_v115 (broadcastInDim S1x64 ![1] bcast_S64_S1x64_1 : (⟨S64, .f32⟩ : BufTy).Contents (Elt F) → (⟨S1x64, .f32⟩ : BufTy).Contents (Elt F)),
    unary main_v115 main_v116 (broadcastInDim S50000x64 ![0, 1] bcast_S1x64_S50000x64_0_1 : (⟨S1x64, .f32⟩ : BufTy).Contents (Elt F) → (⟨S50000x64, .f32⟩ : BufTy).Contents (Elt F)),
    binary main_v114 main_v116 main_v117 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x64, .f32⟩) main_call4_v0) (broadcastInDim S50000x64 ![] bcast_S_S50000x64),
    TRef.binary (TRef.of (T := ⟨S50000x64, .f32⟩) main_v117) (TRef.of (T := ⟨S50000x64, .f32⟩) main_call4_v0) (TRef.of (T := ⟨S50000x64, .f32⟩) main_v118) maximumf ]

/-- 5 operations: the last dense stage. -/
abbrev opsI : List (HloOp τ sig (Elt F)) :=
  [ unary main_arg13 main_v119 ((transpose S64x2 [1, 0] · transposes_S2x64_S64x2_1_0) : (⟨S2x64, .f32⟩ : BufTy).Contents (Elt F) → (⟨S64x2, .f32⟩ : BufTy).Contents (Elt F)),
    binary main_v118 main_v119 main_v120 ((fun l r => Host.dotGeneral dot_S50000x64_S64x2_S50000x2_1_0_0_1_n_n none l r) : (⟨S50000x64, .f32⟩ : BufTy).Contents (Elt F) → (⟨S64x2, .f32⟩ : BufTy).Contents (Elt F) → (⟨S50000x2, .f32⟩ : BufTy).Contents (Elt F)),
    unary main_arg14 main_v121 (broadcastInDim S1x2 ![1] bcast_S2_S1x2_1 : (⟨S2, .f32⟩ : BufTy).Contents (Elt F) → (⟨S1x2, .f32⟩ : BufTy).Contents (Elt F)),
    unary main_v121 main_v122 (broadcastInDim S50000x2 ![0, 1] bcast_S1x2_S50000x2_0_1 : (⟨S1x2, .f32⟩ : BufTy).Contents (Elt F) → (⟨S50000x2, .f32⟩ : BufTy).Contents (Elt F)),
    binary main_v120 main_v122 main_v123 (addf : (⟨S50000x2, .f32⟩ : BufTy).Contents (Elt F) → (⟨S50000x2, .f32⟩ : BufTy).Contents (Elt F) → (⟨S50000x2, .f32⟩ : BufTy).Contents (Elt F)) ]

/-- The whole line: the stretches one after the other. -/
abbrev ops : List (HloOp τ sig (Elt F)) :=
  opsA ++ (opsB ++ (opsC ++ (opsD ++ (opsE ++ (opsF ++ (opsG ++ (opsH ++ (opsI))))))))

set_option maxRecDepth 8192 in
set_option maxHeartbeats 4000000 in
/-- The program is this line of operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-! ## Every operation touches buffers of the tensor core only, and determines its result -/

theorem opsA_sub : (opsA : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub ..⟩
theorem opsA_fresh : ∀ op ∈ (opsA : List (HloOp τ sig (Elt F))), op.fresh = ∅ := by
  intro _ h; (repeat (cases h with | head => rfl | tail _ h => ?_)); exact nomatch h

theorem opsB_sub : (opsB : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub ..⟩
theorem opsB_fresh : ∀ op ∈ (opsB : List (HloOp τ sig (Elt F))), op.fresh = ∅ := by
  intro _ h; (repeat (cases h with | head => rfl | tail _ h => ?_)); exact nomatch h

theorem opsC_sub : (opsC : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub ..⟩
theorem opsC_fresh : ∀ op ∈ (opsC : List (HloOp τ sig (Elt F))), op.fresh = ∅ := by
  intro _ h; (repeat (cases h with | head => rfl | tail _ h => ?_)); exact nomatch h

theorem opsD_sub : (opsD : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., binary_bufs_sub .., binary_bufs_sub .., nary_bufs_sub ..⟩
theorem opsD_fresh : ∀ op ∈ (opsD : List (HloOp τ sig (Elt F))), op.fresh = ∅ := by
  intro _ h; (repeat (cases h with | head => rfl | tail _ h => ?_)); exact nomatch h

theorem opsE_sub : (opsE : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub ..⟩
theorem opsE_fresh : ∀ op ∈ (opsE : List (HloOp τ sig (Elt F))), op.fresh = ∅ := by
  intro _ h; (repeat (cases h with | head => rfl | tail _ h => ?_)); exact nomatch h

theorem opsF_sub : (opsF : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., binary_bufs_sub .., binary_bufs_sub .., nary_bufs_sub ..⟩
theorem opsF_fresh : ∀ op ∈ (opsF : List (HloOp τ sig (Elt F))), op.fresh = ∅ := by
  intro _ h; (repeat (cases h with | head => rfl | tail _ h => ?_)); exact nomatch h

theorem opsG_sub : (opsG : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub ..⟩
theorem opsG_fresh : ∀ op ∈ (opsG : List (HloOp τ sig (Elt F))), op.fresh = ∅ := by
  intro _ h; (repeat (cases h with | head => rfl | tail _ h => ?_)); exact nomatch h

theorem opsH_sub : (opsH : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub ..⟩
theorem opsH_fresh : ∀ op ∈ (opsH : List (HloOp τ sig (Elt F))), op.fresh = ∅ := by
  intro _ h; (repeat (cases h with | head => rfl | tail _ h => ?_)); exact nomatch h

theorem opsI_sub : (opsI : List (HloOp τ sig (Elt F))).Forall fun op => op.bufs ⊆ tcRefs τ sig :=
  ⟨unary_bufs_sub .., binary_bufs_sub .., unary_bufs_sub .., unary_bufs_sub .., binary_bufs_sub ..⟩
theorem opsI_fresh : ∀ op ∈ (opsI : List (HloOp τ sig (Elt F))), op.fresh = ∅ := by
  intro _ h; (repeat (cases h with | head => rfl | tail _ h => ?_)); exact nomatch h

/-- Membership in two stretches run one after the other. -/
theorem fresh_append {l₁ l₂ : List (HloOp τ sig (Elt F))} (h₁ : ∀ op ∈ l₁, op.fresh = ∅) (h₂ : ∀ op ∈ l₂, op.fresh = ∅) :
    ∀ op ∈ l₁ ++ l₂, op.fresh = ∅ :=
  fun op h => (List.mem_append.1 h).elim (h₁ op) (h₂ op)

theorem ops_sub : (ops : List (HloOp τ sig (Elt F))).Forall fun op => op.bufs ⊆ tcRefs τ sig :=
  List.forall_append.2 ⟨opsA_sub, List.forall_append.2 ⟨opsB_sub, List.forall_append.2 ⟨opsC_sub, List.forall_append.2 ⟨opsD_sub, List.forall_append.2 ⟨opsE_sub, List.forall_append.2 ⟨opsF_sub, List.forall_append.2 ⟨opsG_sub, List.forall_append.2 ⟨opsH_sub, opsI_sub⟩⟩⟩⟩⟩⟩⟩⟩

theorem ops_fresh : ∀ op ∈ (ops : List (HloOp τ sig (Elt F))), op.fresh = ∅ :=
  fresh_append opsA_fresh (fresh_append opsB_fresh (fresh_append opsC_fresh (fresh_append opsD_fresh (fresh_append opsE_fresh (fresh_append opsF_fresh (fresh_append opsG_fresh (fresh_append opsH_fresh (opsI_fresh))))))))

/-! ## The run -/

/-- On every device, for any float values, from any memory with zero counters: every weakly fair execution of the
    program terminates, and every buffer of the tensor core ends at what the line of operations leaves in it, from
    the contents at launch. -/
theorem run_hand (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.RefHand

end
-- ==== Proof.RefRunDense.lean ====
/-
  The reference's six dense stretches, each read as one stage function.

  A dense stretch of the reference transposes the weights, multiplies the stretch's input by them, broadcasts the bias
  to a row and then down the rows, adds, and (in all but the last) takes the maximum with a matrix of zeros. What the
  stretch leaves in its last buffer, from whatever the buffers held before it, is therefore the stage function of the
  input buffer, the weight argument and the bias argument.
-/
import proofs.«115876_j36043365548319_1_alg».proof.Proof.RefRunHand
import proofs.«115876_j36043365548319_1_alg».proof.Proof.RefStageDefs

noncomputable section

namespace Cert.RefHand

open Cert.ReferenceIdeal Cert.ReferenceIdeal.Gen Idealize.ShloMosaic Idealize.ShloMosaic.TcCoe Idealize.SL.Sem Idealize.ShloMosaic.StableHlo
open Cert.StageLaw

theorem stretchB (V : Valuation τ sig (Elt Ideal)) :
    after opsB V main_v14 = refStage0 (V main_arg0) (V main_arg3) (V main_arg4) := by
  dsimp only [opsB]; host_results; rfl

theorem stretchC (V : Valuation τ sig (Elt Ideal)) :
    after opsC V main_v20 = refStage1 (V main_v14) (V main_arg5) (V main_arg6) := by
  dsimp only [opsC]; host_results; rfl

theorem stretchE (V : Valuation τ sig (Elt Ideal)) :
    after opsE V main_v66 = refStage2 (V main_v60) (V main_arg7) (V main_arg8) := by
  dsimp only [opsE]; host_results; rfl

theorem stretchG (V : Valuation τ sig (Elt Ideal)) :
    after opsG V main_v112 = refStage3 (V main_v106) (V main_arg9) (V main_arg10) := by
  dsimp only [opsG]; host_results; rfl

theorem stretchH (V : Valuation τ sig (Elt Ideal)) :
    after opsH V main_v118 = refStage4 (V main_v112) (V main_arg11) (V main_arg12) := by
  dsimp only [opsH]; host_results; rfl

theorem stretchI (V : Valuation τ sig (Elt Ideal)) :
    after opsI V main_v123 = refStage5 (V main_v118) (V main_arg13) (V main_arg14) := by
  dsimp only [opsI]; host_results; rfl

end Cert.RefHand

end
-- ==== Proof.RefRunRead.lean ====
/-
  The reference program's result, read stretch by stretch.

  The line of operations is cut where a value is reused. Each stretch writes its own buffers and leaves every other
  buffer as it was, so the program's arguments and the degree column are carried unchanged to the stretches that read
  them. The degree stretch leaves the degree column of the edges' targets; each Chebyshev stretch leaves the Chebyshev
  function of the dense stage's output before it, the degree column and the two edge lists; each dense stretch leaves
  its stage's function of its input, weights and bias. Composing the nine stretches gives the result as one nested
  term in which every reused value occurs as a subterm of its readers, never written out again by the proof.
-/
import proofs.«115876_j36043365548319_1_alg».proof.Proof.RefRunHand
import proofs.«115876_j36043365548319_1_alg».proof.Proof.RefRunDense
import proofs.«115876_j36043365548319_1_alg».proof.Proof.LibAfterAppend
import proofs.«115876_j36043365548319_1_alg».proof.Proof.HostChain

noncomputable section

namespace Cert.RefHand

open Cert.ReferenceIdeal Cert.ReferenceIdeal.Gen Idealize.ShloMosaic Idealize.ShloMosaic.TcCoe Idealize.SL.Sem Idealize.ShloMosaic.StableHlo
open Cert.StageLaw

variable {F : FTy → Type} [FloatOps F]

/-! ## What a stretch writes, and what it leaves alone -/

/-- The buffers stretch A writes. -/
abbrev opsA_W : List (Ref sig .tc) := [main_cst, main_v0, main_cst_0, main_v1, main_v2, main_v3, main_cst_1, main_v4, main_v5, main_cst_2, main_v6, main_v7, main_v8]
theorem opsA_writes : (opsA : List (HloOp τ sig (Elt F))).Forall fun op => op.writes ⊆ (opsA_W.map (Proc.devRef (τ := τ) .tc)).toFinset := by
  simp only [List.Forall]
  refine ⟨?_, ?_, ?_, ?_, ?_, ?_, ?_, ?_, ?_, ?_, ?_, ?_, ?_⟩ <;>
    (simp only [nullary_writes, unary_writes, binary_writes, ternary_writes, nary_writes, Finset.singleton_subset_iff, List.mem_toFinset]; exact List.mem_map_of_mem (by decide))
/-- A buffer stretch A does not write keeps its contents. -/
theorem opsA_keep (V : Valuation τ sig (Elt F)) {r : Ref sig .tc} (h : r ∉ opsA_W) :
    after opsA V (Proc.devRef .tc r) = V (Proc.devRef .tc r) :=
  after_of_writes_sub opsA V opsA_writes h

/-- The buffers stretch B writes. -/
abbrev opsB_W : List (Ref sig .tc) := [main_v9, main_v10, main_v11, main_v12, main_v13, main_call0_cst, main_call0_v0, main_v14]
theorem opsB_writes : (opsB : List (HloOp τ sig (Elt F))).Forall fun op => op.writes ⊆ (opsB_W.map (Proc.devRef (τ := τ) .tc)).toFinset := by
  simp only [List.Forall]
  refine ⟨?_, ?_, ?_, ?_, ?_, ?_, ?_, ?_⟩ <;>
    (simp only [nullary_writes, unary_writes, binary_writes, ternary_writes, nary_writes, Finset.singleton_subset_iff, List.mem_toFinset]; exact List.mem_map_of_mem (by decide))
/-- A buffer stretch B does not write keeps its contents. -/
theorem opsB_keep (V : Valuation τ sig (Elt F)) {r : Ref sig .tc} (h : r ∉ opsB_W) :
    after opsB V (Proc.devRef .tc r) = V (Proc.devRef .tc r) :=
  after_of_writes_sub opsB V opsB_writes h

/-- The buffers stretch C writes. -/
abbrev opsC_W : List (Ref sig .tc) := [main_v15, main_v16, main_v17, main_v18, main_v19, main_call1_cst, main_call1_v0, main_v20]
theorem opsC_writes : (opsC : List (HloOp τ sig (Elt F))).Forall fun op => op.writes ⊆ (opsC_W.map (Proc.devRef (τ := τ) .tc)).toFinset := by
  simp only [List.Forall]
  refine ⟨?_, ?_, ?_, ?_, ?_, ?_, ?_, ?_⟩ <;>
    (simp only [nullary_writes, unary_writes, binary_writes, ternary_writes, nary_writes, Finset.singleton_subset_iff, List.mem_toFinset]; exact List.mem_map_of_mem (by decide))
/-- A buffer stretch C does not write keeps its contents. -/
theorem opsC_keep (V : Valuation τ sig (Elt F)) {r : Ref sig .tc} (h : r ∉ opsC_W) :
    after opsC V (Proc.devRef .tc r) = V (Proc.devRef .tc r) :=
  after_of_writes_sub opsC V opsC_writes h

/-- The buffers stretch D writes. -/
abbrev opsD_W : List (Ref sig .tc) := [main_v21, main_v22, main_c, main_v23, main_v24, main_c_3, main_v25, main_v26, main_v27, main_v28, main_v29, main_cst_4, main_v30, main_v31, main_v32, main_v33, main_v34, main_cst_5, main_v35, main_v36, main_cst_6, main_v37, main_v38, main_v39, main_v40, main_v41, main_c_7, main_v42, main_v43, main_c_8, main_v44, main_v45, main_v46, main_v47, main_v48, main_cst_9, main_v49, main_v50, main_v51, main_v52, main_v53, main_cst_10, main_v54, main_v55, main_cst_11, main_v56, main_v57, main_v58, main_v59, main_v60]
theorem opsD_writes : (opsD : List (HloOp τ sig (Elt F))).Forall fun op => op.writes ⊆ (opsD_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, nary_writes, Finset.singleton_subset_iff, List.mem_toFinset]; exact List.mem_map_of_mem (by decide))
/-- A buffer stretch D does not write keeps its contents. -/
theorem opsD_keep (V : Valuation τ sig (Elt F)) {r : Ref sig .tc} (h : r ∉ opsD_W) :
    after opsD V (Proc.devRef .tc r) = V (Proc.devRef .tc r) :=
  after_of_writes_sub opsD V opsD_writes h

/-- The buffers stretch E writes. -/
abbrev opsE_W : List (Ref sig .tc) := [main_v61, main_v62, main_v63, main_v64, main_v65, main_call2_cst, main_call2_v0, main_v66]
theorem opsE_writes : (opsE : List (HloOp τ sig (Elt F))).Forall fun op => op.writes ⊆ (opsE_W.map (Proc.devRef (τ := τ) .tc)).toFinset := by
  simp only [List.Forall]
  refine ⟨?_, ?_, ?_, ?_, ?_, ?_, ?_, ?_⟩ <;>
    (simp only [nullary_writes, unary_writes, binary_writes, ternary_writes, nary_writes, Finset.singleton_subset_iff, List.mem_toFinset]; exact List.mem_map_of_mem (by decide))
/-- A buffer stretch E does not write keeps its contents. -/
theorem opsE_keep (V : Valuation τ sig (Elt F)) {r : Ref sig .tc} (h : r ∉ opsE_W) :
    after opsE V (Proc.devRef .tc r) = V (Proc.devRef .tc r) :=
  after_of_writes_sub opsE V opsE_writes h

/-- The buffers stretch F writes. -/
abbrev opsF_W : List (Ref sig .tc) := [main_v67, main_v68, main_c_12, main_v69, main_v70, main_c_13, main_v71, main_v72, main_v73, main_v74, main_v75, main_cst_14, main_v76, main_v77, main_v78, main_v79, main_v80, main_cst_15, main_v81, main_v82, main_cst_16, main_v83, main_v84, main_v85, main_v86, main_v87, main_c_17, main_v88, main_v89, main_c_18, main_v90, main_v91, main_v92, main_v93, main_v94, main_cst_19, main_v95, main_v96, main_v97, main_v98, main_v99, main_cst_20, main_v100, main_v101, main_cst_21, main_v102, main_v103, main_v104, main_v105, main_v106]
theorem opsF_writes : (opsF : List (HloOp τ sig (Elt F))).Forall fun op => op.writes ⊆ (opsF_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, nary_writes, Finset.singleton_subset_iff, List.mem_toFinset]; exact List.mem_map_of_mem (by decide))
/-- A buffer stretch F does not write keeps its contents. -/
theorem opsF_keep (V : Valuation τ sig (Elt F)) {r : Ref sig .tc} (h : r ∉ opsF_W) :
    after opsF V (Proc.devRef .tc r) = V (Proc.devRef .tc r) :=
  after_of_writes_sub opsF V opsF_writes h

/-- The buffers stretch G writes. -/
abbrev opsG_W : List (Ref sig .tc) := [main_v107, main_v108, main_v109, main_v110, main_v111, main_call3_cst, main_call3_v0, main_v112]
theorem opsG_writes : (opsG : List (HloOp τ sig (Elt F))).Forall fun op => op.writes ⊆ (opsG_W.map (Proc.devRef (τ := τ) .tc)).toFinset := by
  simp only [List.Forall]
  refine ⟨?_, ?_, ?_, ?_, ?_, ?_, ?_, ?_⟩ <;>
    (simp only [nullary_writes, unary_writes, binary_writes, ternary_writes, nary_writes, Finset.singleton_subset_iff, List.mem_toFinset]; exact List.mem_map_of_mem (by decide))
/-- A buffer stretch G does not write keeps its contents. -/
theorem opsG_keep (V : Valuation τ sig (Elt F)) {r : Ref sig .tc} (h : r ∉ opsG_W) :
    after opsG V (Proc.devRef .tc r) = V (Proc.devRef .tc r) :=
  after_of_writes_sub opsG V opsG_writes h

/-- The buffers stretch H writes. -/
abbrev opsH_W : List (Ref sig .tc) := [main_v113, main_v114, main_v115, main_v116, main_v117, main_call4_cst, main_call4_v0, main_v118]
theorem opsH_writes : (opsH : List (HloOp τ sig (Elt F))).Forall fun op => op.writes ⊆ (opsH_W.map (Proc.devRef (τ := τ) .tc)).toFinset := by
  simp only [List.Forall]
  refine ⟨?_, ?_, ?_, ?_, ?_, ?_, ?_, ?_⟩ <;>
    (simp only [nullary_writes, unary_writes, binary_writes, ternary_writes, nary_writes, Finset.singleton_subset_iff, List.mem_toFinset]; exact List.mem_map_of_mem (by decide))
/-- A buffer stretch H does not write keeps its contents. -/
theorem opsH_keep (V : Valuation τ sig (Elt F)) {r : Ref sig .tc} (h : r ∉ opsH_W) :
    after opsH V (Proc.devRef .tc r) = V (Proc.devRef .tc r) :=
  after_of_writes_sub opsH V opsH_writes h

/-- The buffers stretch I writes. -/
abbrev opsI_W : List (Ref sig .tc) := [main_v119, main_v120, main_v121, main_v122, main_v123]
theorem opsI_writes : (opsI : List (HloOp τ sig (Elt F))).Forall fun op => op.writes ⊆ (opsI_W.map (Proc.devRef (τ := τ) .tc)).toFinset := by
  simp only [List.Forall]
  refine ⟨?_, ?_, ?_, ?_, ?_⟩ <;>
    (simp only [nullary_writes, unary_writes, binary_writes, ternary_writes, nary_writes, Finset.singleton_subset_iff, List.mem_toFinset]; exact List.mem_map_of_mem (by decide))
/-- A buffer stretch I does not write keeps its contents. -/
theorem opsI_keep (V : Valuation τ sig (Elt F)) {r : Ref sig .tc} (h : r ∉ opsI_W) :
    after opsI V (Proc.devRef .tc r) = V (Proc.devRef .tc r) :=
  after_of_writes_sub opsI V opsI_writes h

/-- A buffer no stretch writes keeps its contents through the whole line. -/
theorem ops_keep (V : Valuation τ sig (Elt F)) {r : Ref sig .tc}
    (h : r ∉ opsA_W ++ (opsB_W ++ (opsC_W ++ (opsD_W ++ (opsE_W ++ (opsF_W ++ (opsG_W ++ (opsH_W ++ (opsI_W))))))))) :
    after ops V (Proc.devRef .tc r) = V (Proc.devRef .tc r) := by
  simp only [List.mem_append, not_or] at h
  obtain ⟨hA, hB, hC, hD, hE, hF, hG, hH, hI⟩ := h
  simp only [ops, Cert.Lib.AfterAppend.after_append]
  rw [opsI_keep _ hI, opsH_keep _ hH, opsG_keep _ hG, opsF_keep _ hF, opsE_keep _ hE, opsD_keep _ hD, opsC_keep _ hC,
    opsB_keep _ hB, opsA_keep _ hA]

/-! ### Every argument survives the line -/
theorem ops_arg0 (V : Valuation τ sig (Elt F)) : after ops V main_arg0 = V main_arg0 := ops_keep V (by decide)
theorem ops_arg1 (V : Valuation τ sig (Elt F)) : after ops V main_arg1 = V main_arg1 := ops_keep V (by decide)
theorem ops_arg2 (V : Valuation τ sig (Elt F)) : after ops V main_arg2 = V main_arg2 := ops_keep V (by decide)
theorem ops_arg3 (V : Valuation τ sig (Elt F)) : after ops V main_arg3 = V main_arg3 := ops_keep V (by decide)
theorem ops_arg4 (V : Valuation τ sig (Elt F)) : after ops V main_arg4 = V main_arg4 := ops_keep V (by decide)
theorem ops_arg5 (V : Valuation τ sig (Elt F)) : after ops V main_arg5 = V main_arg5 := ops_keep V (by decide)
theorem ops_arg6 (V : Valuation τ sig (Elt F)) : after ops V main_arg6 = V main_arg6 := ops_keep V (by decide)
theorem ops_arg7 (V : Valuation τ sig (Elt F)) : after ops V main_arg7 = V main_arg7 := ops_keep V (by decide)
theorem ops_arg8 (V : Valuation τ sig (Elt F)) : after ops V main_arg8 = V main_arg8 := ops_keep V (by decide)
theorem ops_arg9 (V : Valuation τ sig (Elt F)) : after ops V main_arg9 = V main_arg9 := ops_keep V (by decide)
theorem ops_arg10 (V : Valuation τ sig (Elt F)) : after ops V main_arg10 = V main_arg10 := ops_keep V (by decide)
theorem ops_arg11 (V : Valuation τ sig (Elt F)) : after ops V main_arg11 = V main_arg11 := ops_keep V (by decide)
theorem ops_arg12 (V : Valuation τ sig (Elt F)) : after ops V main_arg12 = V main_arg12 := ops_keep V (by decide)
theorem ops_arg13 (V : Valuation τ sig (Elt F)) : after ops V main_arg13 = V main_arg13 := ops_keep V (by decide)
theorem ops_arg14 (V : Valuation τ sig (Elt F)) : after ops V main_arg14 = V main_arg14 := ops_keep V (by decide)

/-! ## The degree stretch and the two Chebyshev stretches, from any contents before them -/

/-- The degree column, from the edges' targets. -/
theorem stretchA (V : Valuation τ sig (Elt Ideal)) :
    after opsA V main_v8 = Cert.HostChain.degCol (V main_arg2) := by
  dsimp only [opsA]; host_results; rfl

set_option maxHeartbeats 1000000 in
set_option maxRecDepth 4096 in
/-- Stretch D is the Chebyshev function of the stage output and the degree column it reads. -/
theorem stretchD (V : Valuation τ sig (Elt Ideal)) :
    after opsD V main_v60 = Cert.HostChain.cheb (V main_v20) (V main_v8) (V main_arg1) (V main_arg2) := by
  dsimp only [opsD]
  host_results
  delta Cert.HostChain.cheb
  refine Cert.HostChain.concat3_congr ?_ ?_ ?_
  · host_results
  · host_results; rfl
  · host_results; rfl

set_option maxHeartbeats 1000000 in
set_option maxRecDepth 4096 in
/-- Stretch F is the Chebyshev function of the stage output and the degree column it reads. -/
theorem stretchF (V : Valuation τ sig (Elt Ideal)) :
    after opsF V main_v106 = Cert.HostChain.cheb (V main_v66) (V main_v8) (V main_arg1) (V main_arg2) := by
  dsimp only [opsF]
  host_results
  delta Cert.HostChain.cheb
  refine Cert.HostChain.concat3_congr ?_ ?_ ?_
  · host_results
  · host_results; rfl
  · host_results; rfl

/-! ## The whole line -/

set_option maxRecDepth 4096 in
/-- What the line leaves in its result buffer, from any contents: the six dense stages, the two Chebyshev stretches
    between them, each value that is reused named once. -/
theorem result_hand (V : Valuation τ sig (Elt Ideal)) :
    after ops V main_v123
      = refStage5 (refStage4 (refStage3 (Cert.HostChain.cheb (refStage2 (Cert.HostChain.cheb (refStage1 (refStage0 (V main_arg0) (V main_arg3) (V main_arg4)) (V main_arg5) (V main_arg6)) (Cert.HostChain.degCol (V main_arg2)) (V main_arg1) (V main_arg2)) (V main_arg7) (V main_arg8)) (Cert.HostChain.degCol (V main_arg2)) (V main_arg1) (V main_arg2)) (V main_arg9) (V main_arg10)) (V main_arg11) (V main_arg12)) (V main_arg13) (V main_arg14) := by
  simp only [ops, Cert.Lib.AfterAppend.after_append]
  rw [stretchI]
  rw [stretchH,
    opsH_keep _ (r := main_arg13) (by decide),
    opsH_keep _ (r := main_arg14) (by decide)]
  rw [stretchG,
    opsG_keep _ (r := main_arg11) (by decide),
    opsG_keep _ (r := main_arg12) (by decide),
    opsG_keep _ (r := main_arg13) (by decide),
    opsG_keep _ (r := main_arg14) (by decide)]
  rw [stretchF,
    opsF_keep _ (r := main_arg9) (by decide),
    opsF_keep _ (r := main_arg10) (by decide),
    opsF_keep _ (r := main_arg11) (by decide),
    opsF_keep _ (r := main_arg12) (by decide),
    opsF_keep _ (r := main_arg13) (by decide),
    opsF_keep _ (r := main_arg14) (by decide)]
  rw [stretchE,
    opsE_keep _ (r := main_v8) (by decide),
    opsE_keep _ (r := main_arg1) (by decide),
    opsE_keep _ (r := main_arg2) (by decide),
    opsE_keep _ (r := main_arg9) (by decide),
    opsE_keep _ (r := main_arg10) (by decide),
    opsE_keep _ (r := main_arg11) (by decide),
    opsE_keep _ (r := main_arg12) (by decide),
    opsE_keep _ (r := main_arg13) (by decide),
    opsE_keep _ (r := main_arg14) (by decide)]
  rw [stretchD,
    opsD_keep _ (r := main_v8) (by decide),
    opsD_keep _ (r := main_arg1) (by decide),
    opsD_keep _ (r := main_arg2) (by decide),
    opsD_keep _ (r := main_arg7) (by decide),
    opsD_keep _ (r := main_arg8) (by decide),
    opsD_keep _ (r := main_arg9) (by decide),
    opsD_keep _ (r := main_arg10) (by decide),
    opsD_keep _ (r := main_arg11) (by decide),
    opsD_keep _ (r := main_arg12) (by decide),
    opsD_keep _ (r := main_arg13) (by decide),
    opsD_keep _ (r := main_arg14) (by decide)]
  rw [stretchC,
    opsC_keep _ (r := main_v8) (by decide),
    opsC_keep _ (r := main_arg1) (by decide),
    opsC_keep _ (r := main_arg2) (by decide),
    opsC_keep _ (r := main_arg7) (by decide),
    opsC_keep _ (r := main_arg8) (by decide),
    opsC_keep _ (r := main_arg9) (by decide),
    opsC_keep _ (r := main_arg10) (by decide),
    opsC_keep _ (r := main_arg11) (by decide),
    opsC_keep _ (r := main_arg12) (by decide),
    opsC_keep _ (r := main_arg13) (by decide),
    opsC_keep _ (r := main_arg14) (by decide)]
  rw [stretchB,
    opsB_keep _ (r := main_v8) (by decide),
    opsB_keep _ (r := main_arg1) (by decide),
    opsB_keep _ (r := main_arg2) (by decide),
    opsB_keep _ (r := main_arg5) (by decide),
    opsB_keep _ (r := main_arg6) (by decide),
    opsB_keep _ (r := main_arg7) (by decide),
    opsB_keep _ (r := main_arg8) (by decide),
    opsB_keep _ (r := main_arg9) (by decide),
    opsB_keep _ (r := main_arg10) (by decide),
    opsB_keep _ (r := main_arg11) (by decide),
    opsB_keep _ (r := main_arg12) (by decide),
    opsB_keep _ (r := main_arg13) (by decide),
    opsB_keep _ (r := main_arg14) (by decide)]
  rw [stretchA,
    opsA_keep _ (r := main_arg0) (by decide),
    opsA_keep _ (r := main_arg1) (by decide),
    opsA_keep _ (r := main_arg2) (by decide),
    opsA_keep _ (r := main_arg3) (by decide),
    opsA_keep _ (r := main_arg4) (by decide),
    opsA_keep _ (r := main_arg5) (by decide),
    opsA_keep _ (r := main_arg6) (by decide),
    opsA_keep _ (r := main_arg7) (by decide),
    opsA_keep _ (r := main_arg8) (by decide),
    opsA_keep _ (r := main_arg9) (by decide),
    opsA_keep _ (r := main_arg10) (by decide),
    opsA_keep _ (r := main_arg11) (by decide),
    opsA_keep _ (r := main_arg12) (by decide),
    opsA_keep _ (r := main_arg13) (by decide),
    opsA_keep _ (r := main_arg14) (by decide)]

end Cert.RefHand

end
-- ==== Proof.lean ====
/-
  The certificate's proof.

  The program is a graph network of six dense stages out = relu(X · Wᵀ + b) (the last without the rectifier) with two
  Chebyshev graph stretches between them.  The kernel runs every dense stage as a grid of ten row blocks; the reference
  runs it as one matrix product on the host; the graph stretches (degree counts, gathers along edges, sums into nodes)
  are the same host operations in both.

  Frames.  Each of the kernel's two printed programs runs to the end, faults nowhere, and ends with every unscoped
  buffer at the last of thirteen boundary contents, a fold from the launch memory through the host stretches and the
  stages' outputs; no step of that fold writes an argument.  The reference is a line of host operations: it runs to the
  end with every buffer at what the operations, applied in order to the launch contents, leave; none writes an argument.

  Values, at the exact reals.  A stage's block at a grid point is the stage's value of the block's rows: the product's
  entry is a sum over the contracted axis of the same products in the same arrangement as the host's, the bias row is
  the bias vector, and the changes of float format are the identity; rows do not interact, so the blocks are the
  restrictions of one whole-array function and cover the array.  The host stretches are the same terms on both sides.
  Hence both results are one term over the arguments; no law that needs finiteness is used.
-/
import proofs.«115876_j36043365548319_1_alg».proof.Defs
import proofs.«115876_j36043365548319_1_alg».proof.Proof.Gen.Kernel
import proofs.«115876_j36043365548319_1_alg».proof.Proof.Gen.KernelIdeal
import proofs.«115876_j36043365548319_1_alg».proof.Proof.Gen.ReferenceIdeal
import proofs.«115876_j36043365548319_1_alg».proof.Proof.Gen.Pre_finite_inputs
import proofs.«115876_j36043365548319_1_alg».proof.Proof.KbFrame
import proofs.«115876_j36043365548319_1_alg».proof.Proof.KiFrame
import proofs.«115876_j36043365548319_1_alg».proof.Proof.KiValue
import proofs.«115876_j36043365548319_1_alg».proof.Proof.RefChain
import proofs.«115876_j36043365548319_1_alg».proof.Proof.RefRunRead
import Idealize.ShloMosaic.Adequacy
import Idealize.ShloMosaic.Init

noncomputable section

namespace Cert.Proof

open Idealize.ShloMosaic Idealize.ShloMosaic.TcCoe Idealize.ShloMosaic.StableHlo Idealize.SL.Sem

theorem frame_k : Cert.frame_Kernel := fun m ρ _ => Cert.Kernel.Stage.frame (F := Bits) m ρ
theorem frame_ki : Cert.frame_KernelIdeal := fun m ρ _ => Cert.KernelIdeal.Stage.frame (F := Ideal) m ρ

/-- The reference's arguments in any final state of its run: no operation writes one. -/
theorem ref_kept (m : (ℓ : Loc Cert.ReferenceIdeal.nD Cert.ReferenceIdeal.τ Cert.ReferenceIdeal.sig) → Buf (Elt Ideal) ℓ)
    (r : PUnit × MemSt Cert.ReferenceIdeal.nD Cert.ReferenceIdeal.τ Cert.ReferenceIdeal.sig (Elt Ideal))
    (h : ∀ (d : Dev Cert.ReferenceIdeal.nD) (b : Ref Cert.ReferenceIdeal.sig .tc),
      r.2.mem ((d.tc : Thread Cert.ReferenceIdeal.nD Cert.ReferenceIdeal.τ).loc b) = after Cert.RefHand.ops (launchContents m d) (Proc.devRef .tc b))
    (c : Dev Cert.ReferenceIdeal.nD) :
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14) :=
  ⟨(h c Cert.ReferenceIdeal.main_arg0).trans (Cert.RefHand.ops_arg0 _),
    (h c Cert.ReferenceIdeal.main_arg1).trans (Cert.RefHand.ops_arg1 _),
    (h c Cert.ReferenceIdeal.main_arg2).trans (Cert.RefHand.ops_arg2 _),
    (h c Cert.ReferenceIdeal.main_arg3).trans (Cert.RefHand.ops_arg3 _),
    (h c Cert.ReferenceIdeal.main_arg4).trans (Cert.RefHand.ops_arg4 _),
    (h c Cert.ReferenceIdeal.main_arg5).trans (Cert.RefHand.ops_arg5 _),
    (h c Cert.ReferenceIdeal.main_arg6).trans (Cert.RefHand.ops_arg6 _),
    (h c Cert.ReferenceIdeal.main_arg7).trans (Cert.RefHand.ops_arg7 _),
    (h c Cert.ReferenceIdeal.main_arg8).trans (Cert.RefHand.ops_arg8 _),
    (h c Cert.ReferenceIdeal.main_arg9).trans (Cert.RefHand.ops_arg9 _),
    (h c Cert.ReferenceIdeal.main_arg10).trans (Cert.RefHand.ops_arg10 _),
    (h c Cert.ReferenceIdeal.main_arg11).trans (Cert.RefHand.ops_arg11 _),
    (h c Cert.ReferenceIdeal.main_arg12).trans (Cert.RefHand.ops_arg12 _),
    (h c Cert.ReferenceIdeal.main_arg13).trans (Cert.RefHand.ops_arg13 _),
    (h c Cert.ReferenceIdeal.main_arg14).trans (Cert.RefHand.ops_arg14 _)⟩

theorem frame_ri : Cert.frame_ReferenceIdeal := fun m ρ _ =>
  (θ_run Cert.ReferenceIdeal.defs _ _).mono (fun r h c => ref_kept m r h c) (Cert.RefHand.run_hand (F := Ideal) m ρ)

/-- The idealization rewrote nothing. -/
theorem preserves : Cert.preserves_Kernel_KernelIdeal := trivial

/-- Both idealized programs end with the sixth stage's value of the launch arguments in their result. -/
theorem algebraic : Cert.algebraic_KernelIdeal_ReferenceIdeal := by
  intro m ρ m' ρ' _ hagree
  refine ⟨fun c => Cert.KernelIdeal.Stage.s5 m ρ c, ?_, ?_⟩
  · exact (θ_run Cert.KernelIdeal.defs _ _).mono
      (fun r h c => ⟨(h c _ (Cert.KernelIdeal.Stage.mem_uc Cert.KernelIdeal.main_v100 (by decide))).trans
          (Cert.KernelIdeal.Stage.result_eq m ρ c), Cert.KernelIdeal.Stage.kept_all m ρ r h c⟩)
      (Cert.KernelIdeal.Stage.run_all (F := Ideal) m ρ)
  · refine (θ_run Cert.ReferenceIdeal.defs _ _).mono (fun r h c => ⟨?_, ref_kept m' r h c⟩)
      (Cert.RefHand.run_hand (F := Ideal) m' ρ')
    obtain ⟨g0, g1, g2, g3, g4, g5, g6, g7, g8, g9, g10, g11, g12, g13, g14⟩ := hagree c
    refine (h c Cert.ReferenceIdeal.main_v123).trans ((Cert.RefHand.result_hand _).trans ?_)
    show Cert.RefChain.comp (launchContents m' c Cert.ReferenceIdeal.main_arg0) (launchContents m' c Cert.ReferenceIdeal.main_arg1) (launchContents m' c Cert.ReferenceIdeal.main_arg2) (launchContents m' c Cert.ReferenceIdeal.main_arg3) (launchContents m' c Cert.ReferenceIdeal.main_arg4) (launchContents m' c Cert.ReferenceIdeal.main_arg5) (launchContents m' c Cert.ReferenceIdeal.main_arg6) (launchContents m' c Cert.ReferenceIdeal.main_arg7) (launchContents m' c Cert.ReferenceIdeal.main_arg8) (launchContents m' c Cert.ReferenceIdeal.main_arg9) (launchContents m' c Cert.ReferenceIdeal.main_arg10) (launchContents m' c Cert.ReferenceIdeal.main_arg11) (launchContents m' c Cert.ReferenceIdeal.main_arg12) (launchContents m' c Cert.ReferenceIdeal.main_arg13) (launchContents m' c Cert.ReferenceIdeal.main_arg14) = _
    rw [show (launchContents m' c Cert.ReferenceIdeal.main_arg0) = Cert.KernelIdeal.Stage.W0 m ρ c Cert.KernelIdeal.main_arg0 from g0,
      show (launchContents m' c Cert.ReferenceIdeal.main_arg1) = Cert.KernelIdeal.Stage.W0 m ρ c Cert.KernelIdeal.main_arg1 from g1,
      show (launchContents m' c Cert.ReferenceIdeal.main_arg2) = Cert.KernelIdeal.Stage.W0 m ρ c Cert.KernelIdeal.main_arg2 from g2,
      show (launchContents m' c Cert.ReferenceIdeal.main_arg3) = Cert.KernelIdeal.Stage.W0 m ρ c Cert.KernelIdeal.main_arg3 from g3,
      show (launchContents m' c Cert.ReferenceIdeal.main_arg4) = Cert.KernelIdeal.Stage.W0 m ρ c Cert.KernelIdeal.main_arg4 from g4,
      show (launchContents m' c Cert.ReferenceIdeal.main_arg5) = Cert.KernelIdeal.Stage.W0 m ρ c Cert.KernelIdeal.main_arg5 from g5,
      show (launchContents m' c Cert.ReferenceIdeal.main_arg6) = Cert.KernelIdeal.Stage.W0 m ρ c Cert.KernelIdeal.main_arg6 from g6,
      show (launchContents m' c Cert.ReferenceIdeal.main_arg7) = Cert.KernelIdeal.Stage.W0 m ρ c Cert.KernelIdeal.main_arg7 from g7,
      show (launchContents m' c Cert.ReferenceIdeal.main_arg8) = Cert.KernelIdeal.Stage.W0 m ρ c Cert.KernelIdeal.main_arg8 from g8,
      show (launchContents m' c Cert.ReferenceIdeal.main_arg9) = Cert.KernelIdeal.Stage.W0 m ρ c Cert.KernelIdeal.main_arg9 from g9,
      show (launchContents m' c Cert.ReferenceIdeal.main_arg10) = Cert.KernelIdeal.Stage.W0 m ρ c Cert.KernelIdeal.main_arg10 from g10,
      show (launchContents m' c Cert.ReferenceIdeal.main_arg11) = Cert.KernelIdeal.Stage.W0 m ρ c Cert.KernelIdeal.main_arg11 from g11,
      show (launchContents m' c Cert.ReferenceIdeal.main_arg12) = Cert.KernelIdeal.Stage.W0 m ρ c Cert.KernelIdeal.main_arg12 from g12,
      show (launchContents m' c Cert.ReferenceIdeal.main_arg13) = Cert.KernelIdeal.Stage.W0 m ρ c Cert.KernelIdeal.main_arg13 from g13,
      show (launchContents m' c Cert.ReferenceIdeal.main_arg14) = Cert.KernelIdeal.Stage.W0 m ρ c Cert.KernelIdeal.main_arg14 from g14]
    exact Cert.RefChain.comp_eq m ρ c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
